-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x100x3 : Shape := ⟨3, ![8, 100, 3]⟩
abbrev S8x4x4 : Shape := ⟨3, ![8, 4, 4]⟩
abbrev S8 : Shape := ⟨1, ![8]⟩
abbrev S100000x3 : Shape := ⟨2, ![100000, 3]⟩
abbrev S_ : Shape := ⟨0, ![]⟩

class Facts : Prop where
  bcast_S_S8x100x3 : S_.BroadcastsInDim S8x100x3 (![] : Fin 0 → Fin S8x100x3.rank)
  reducesTo_S8x100x3_S_d0_1_2 : S8x100x3.ReducesTo [0, 1, 2] S_
  h_S_ : 0 < S_.numel
  bcast_S_S8x4x4 : S_.BroadcastsInDim S8x4x4 (![] : Fin 0 → Fin S8x4x4.rank)
  reducesTo_S8x4x4_S_d0_1_2 : S8x4x4.ReducesTo [0, 1, 2] S_
  bcast_S_S8 : S_.BroadcastsInDim S8 (![] : Fin 0 → Fin S8.rank)
  reducesTo_S8_S_d0 : S8.ReducesTo [0] S_
  bcast_S_S100000x3 : S_.BroadcastsInDim S100000x3 (![] : Fin 0 → Fin S100000x3.rank)
  reducesTo_S100000x3_S_d0_1 : S100000x3.ReducesTo [0, 1] S_

variable [Facts]

def fn_part1 {F : FTy → Type} [FloatOps F] (main_arg4 : FVec F S100000x3 .f32) (main_v13 : IVec S_ 1) (main_v16 : IVec S100000x3 1) : IVec S_ 1 :=
  let main_c_5 : IVec S_ 1 := constantI S_ 1 1#1
  let main_v17 : IVec S_ 1 := (fun x v => Host.reduce IntOp.andi x v reducesTo_S100000x3_S_d0_1 h_S_) main_v16 main_c_5
  let main_v18 : IVec S_ 1 := andi main_v13 main_v17
  let main_v19 : FVec F S100000x3 .f32 := Host.absf main_arg4
  let main_cst_6 : FVec F S_ .f32 := constant S_ .f32 0x7F800000#32
  let main_v20 : FVec F S100000x3 .f32 := broadcastInDim S100000x3 ![] bcast_S_S100000x3 main_cst_6
  let main_v21 : IVec S100000x3 1 := cmpf .olt main_v19 main_v20
  let main_c_7 : IVec S_ 1 := constantI S_ 1 1#1
  let main_v22 : IVec S_ 1 := (fun x v => Host.reduce IntOp.andi x v reducesTo_S100000x3_S_d0_1 h_S_) main_v21 main_c_7
  let main_v23 : IVec S_ 1 := andi main_v18 main_v22
  main_v23

def fn {F : FTy → Type} [FloatOps F] (main_arg0 : FVec F S8x100x3 .f32) (main_arg1 : FVec F S8x4x4 .f32) (main_arg2 : FVec F S8 .f32) (main_arg3 : FVec F S100000x3 .f32) (main_arg4 : FVec F S100000x3 .f32) : IVec S_ 1 :=
  let main_v0 : FVec F S8x100x3 .f32 := Host.absf main_arg0
  let main_cst : FVec F S_ .f32 := constant S_ .f32 0x7F800000#32
  let main_v1 : FVec F S8x100x3 .f32 := broadcastInDim S8x100x3 ![] bcast_S_S8x100x3 main_cst
  let main_v2 : IVec S8x100x3 1 := cmpf .olt main_v0 main_v1
  let main_c : IVec S_ 1 := constantI S_ 1 1#1
  let main_v3 : IVec S_ 1 := (fun x v => Host.reduce IntOp.andi x v reducesTo_S8x100x3_S_d0_1_2 h_S_) main_v2 main_c
  let main_v4 : FVec F S8x4x4 .f32 := Host.absf main_arg1
  let main_cst_0 : FVec F S_ .f32 := constant S_ .f32 0x7F800000#32
  let main_v5 : FVec F S8x4x4 .f32 := broadcastInDim S8x4x4 ![] bcast_S_S8x4x4 main_cst_0
  let main_v6 : IVec S8x4x4 1 := cmpf .olt main_v4 main_v5
  let main_c_1 : IVec S_ 1 := constantI S_ 1 1#1
  let main_v7 : IVec S_ 1 := (fun x v => Host.reduce IntOp.andi x v reducesTo_S8x4x4_S_d0_1_2 h_S_) main_v6 main_c_1
  let main_v8 : IVec S_ 1 := andi main_v3 main_v7
  let main_v9 : FVec F S8 .f32 := Host.absf main_arg2
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  let main_v14 : FVec F S100000x3 .f32 := Host.absf main_arg3
  let main_cst_4 : FVec F S_ .f32 := constant S_ .f32 0x7F800000#32
  let main_v15 : FVec F S100000x3 .f32 := broadcastInDim S100000x3 ![] bcast_S_S100000x3 main_cst_4
  let main_v16 : IVec S100000x3 1 := cmpf .olt main_v14 main_v15
  fn_part1 (F := F) main_arg4 main_v13 main_v16
-- ==== Kernel.lean ====
abbrev S8x100x3 : Shape := ⟨3, ![8, 100, 3]⟩
abbrev S8x4x4 : Shape := ⟨3, ![8, 4, 4]⟩
abbrev S8 : Shape := ⟨1, ![8]⟩
abbrev S100000x3 : Shape := ⟨2, ![100000, 3]⟩
abbrev S_ : Shape := ⟨0, ![]⟩
abbrev S100000 : Shape := ⟨1, ![100000]⟩
abbrev S8x3x3 : Shape := ⟨3, ![8, 3, 3]⟩
abbrev S8x1x1 : Shape := ⟨3, ![8, 1, 1]⟩
abbrev S8x3x1 : Shape := ⟨3, ![8, 3, 1]⟩
abbrev S8x3 : Shape := ⟨2, ![8, 3]⟩
abbrev S8x1x3 : Shape := ⟨3, ![8, 1, 3]⟩
abbrev S1 : Shape := ⟨1, ![1]⟩
abbrev S8x100 : Shape := ⟨2, ![8, 100]⟩
abbrev S1x100000x3 : Shape := ⟨3, ![1, 100000, 3]⟩
abbrev S8x100000x3 : Shape := ⟨3, ![8, 100000, 3]⟩
abbrev S8x100000 : Shape := ⟨2, ![8, 100000]⟩
abbrev S1x100000 : Shape := ⟨2, ![1, 100000]⟩
abbrev S3x100000 : Shape := ⟨2, ![3, 100000]⟩
abbrev S3x102400 : Shape := ⟨2, ![3, 102400]⟩
abbrev S102400 : Shape := ⟨1, ![102400]⟩
abbrev S1x102400 : Shape := ⟨2, ![1, 102400]⟩
abbrev S8x102400 : Shape := ⟨2, ![8, 102400]⟩
abbrev S8x100x1 : Shape := ⟨3, ![8, 100, 1]⟩
abbrev S8x1x102400 : Shape := ⟨3, ![8, 1, 102400]⟩
abbrev S1x100x3 : Shape := ⟨3, ![1, 100, 3]⟩
abbrev S1x100x1 : Shape := ⟨3, ![1, 100, 1]⟩
abbrev S3x12800 : Shape := ⟨2, ![3, 12800]⟩
abbrev S1x12800 : Shape := ⟨2, ![1, 12800]⟩
abbrev S1x1x12800 : Shape := ⟨3, ![1, 1, 12800]⟩
abbrev S100x1 : Shape := ⟨2, ![100, 1]⟩
abbrev S100x3 : Shape := ⟨2, ![100, 3]⟩
abbrev S100x12800 : Shape := ⟨2, ![100, 12800]⟩
abbrev S100 : Shape := ⟨1, ![100]⟩

abbrev nBuf : Space → Nat
  | .hbm => 80
  | .vmem => 13
  | .smem => 0
  | _ => 0

abbrev bufTy : (tb : Table) → Fin (tcTables nBuf tb) → BufTy
  | .hbm, ⟨0, _⟩ => ⟨S8x100x3, .f32⟩
  | .hbm, ⟨1, _⟩ => ⟨S8x4x4, .f32⟩
  | .hbm, ⟨2, _⟩ => ⟨S8, .f32⟩
  | .hbm, ⟨3, _⟩ => ⟨S100000x3, .f32⟩
  | .hbm, ⟨4, _⟩ => ⟨S100000x3, .f32⟩
  | .hbm, ⟨5, _⟩ => ⟨S_, .f32⟩
  | .hbm, ⟨6, _⟩ => ⟨S100000, .f32⟩
  | .hbm, ⟨7, _⟩ => ⟨S8x3x3, .f32⟩
  | .hbm, ⟨8, _⟩ => ⟨S8x1x1, .f32⟩
  | .hbm, ⟨9, _⟩ => ⟨S8x3x3, .f32⟩
  | .hbm, ⟨10, _⟩ => ⟨S8x3x3, .f32⟩
  | .hbm, ⟨11, _⟩ => ⟨S8x3x1, .f32⟩
  | .hbm, ⟨12, _⟩ => ⟨S8x3, .f32⟩
  | .hbm, ⟨13, _⟩ => ⟨S8x100x3, .f32⟩
  | .hbm, ⟨14, _⟩ => ⟨S8x1x3, .f32⟩
  | .hbm, ⟨15, _⟩ => ⟨S8x100x3, .f32⟩
  | .hbm, ⟨16, _⟩ => ⟨S8x100x3, .f32⟩
  | .hbm, ⟨17, _⟩ => ⟨S1, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S8x3, .f32⟩
  | .hbm, ⟨23, _⟩ => ⟨S8x3, .f32⟩
  | .hbm, ⟨24, _⟩ => ⟨S8x3, .f32⟩
  | .hbm, ⟨25, _⟩ => ⟨S_, .f32⟩
  | .hbm, ⟨26, _⟩ => ⟨S8x3, .f32⟩
  | .hbm, ⟨27, _⟩ => ⟨S8x3, .f32⟩
  | .hbm, ⟨28, _⟩ => ⟨S8x3, .f32⟩
  | .hbm, ⟨29, _⟩ => ⟨S8x100x3, .f32⟩
  | .hbm, ⟨30, _⟩ => ⟨S_, .f32⟩
  | .hbm, ⟨31, _⟩ => ⟨S8x100, .f32⟩
  | .hbm, ⟨32, _⟩ => ⟨S1x100000x3, .f32⟩
  | .hbm, ⟨33, _⟩ => ⟨S8x1x3, .f32⟩
  | .hbm, ⟨34, _⟩ => ⟨S8x100000x3, .f32⟩
  | .hbm, ⟨35, _⟩ => ⟨S8x100000x3, .f32⟩
  | .hbm, ⟨36, _⟩ => ⟨S8x100000x3, .i1⟩
  | .hbm, ⟨37, _⟩ => ⟨S1x100000x3, .f32⟩
  | .hbm, ⟨38, _⟩ => ⟨S8x1x3, .f32⟩
  | .hbm, ⟨39, _⟩ => ⟨S8x100000x3, .f32⟩
  | .hbm, ⟨40, _⟩ => ⟨S8x100000x3, .f32⟩
  | .hbm, ⟨41, _⟩ => ⟨S8x100000x3, .i1⟩
  | .hbm, ⟨42, _⟩ => ⟨S8x100000x3, .i1⟩
  | .hbm, ⟨43, _⟩ => ⟨S_, .i1⟩
  | .hbm, ⟨44, _⟩ => ⟨S8x100000, .i1⟩
  | .hbm, ⟨45, _⟩ => ⟨S100000x3, .f32⟩
  | .hbm, ⟨46, _⟩ => ⟨S_, .f32⟩
  | .hbm, ⟨47, _⟩ => ⟨S100000, .f32⟩
  | .hbm, ⟨48, _⟩ => ⟨S1x100000, .f32⟩
  | .hbm, ⟨49, _⟩ => ⟨S_, .f32⟩
  | .hbm, ⟨50, _⟩ => ⟨S1x100000, .f32⟩
  | .hbm, ⟨51, _⟩ => ⟨S1x100000, .f32⟩
  | .hbm, ⟨52, _⟩ => ⟨S_, .f32⟩
  | .hbm, ⟨53, _⟩ => ⟨S_, .f32⟩
  | .hbm, ⟨54, _⟩ => ⟨S8x100000, .f32⟩
  | .hbm, ⟨55, _⟩ => ⟨S8x100000, .f32⟩
  | .hbm, ⟨56, _⟩ => ⟨S8x100000, .f32⟩
  | .hbm, ⟨57, _⟩ => ⟨S3x100000, .f32⟩
  | .hbm, ⟨58, _⟩ => ⟨S_, .f32⟩
  | .hbm, ⟨59, _⟩ => ⟨S_, .f32⟩
  | .hbm, ⟨60, _⟩ => ⟨S3x102400, .f32⟩
  | .hbm, ⟨61, _⟩ => ⟨S_, .f32⟩
  | .hbm, ⟨62, _⟩ => ⟨S_, .f32⟩
  | .hbm, ⟨63, _⟩ => ⟨S102400, .f32⟩
  | .hbm, ⟨64, _⟩ => ⟨S1x102400, .f32⟩
  | .hbm, ⟨65, _⟩ => ⟨S_, .f32⟩
  | .hbm, ⟨66, _⟩ => ⟨S_, .f32⟩
  | .hbm, ⟨67, _⟩ => ⟨S8x102400, .f32⟩
  | .hbm, ⟨68, _⟩ => ⟨S8x100x1, .f32⟩
  | .hbm, ⟨69, _⟩ => ⟨S8x1x102400, .f32⟩
  | .hbm, ⟨70, _⟩ => ⟨S8x100x1, .f32⟩
  | .hbm, ⟨71, _⟩ => ⟨S8x100, .f32⟩
  | .hbm, ⟨72, _⟩ => ⟨S8x100, .f32⟩
  | .hbm, ⟨73, _⟩ => ⟨S_, .f32⟩
  | .hbm, ⟨74, _⟩ => ⟨S8x100, .f32⟩
  | .hbm, ⟨75, _⟩ => ⟨S8x100, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .local _ .vmem, ⟨0, _⟩ => ⟨S1x100x3, .f32⟩
  | .local _ .vmem, ⟨1, _⟩ => ⟨S1x100x3, .f32⟩
  | .local _ .vmem, ⟨2, _⟩ => ⟨S1x100x1, .f32⟩
  | .local _ .vmem, ⟨3, _⟩ => ⟨S1x100x1, .f32⟩
  | .local _ .vmem, ⟨4, _⟩ => ⟨S3x12800, .f32⟩
  | .local _ .vmem, ⟨5, _⟩ => ⟨S3x12800, .f32⟩
  | .local _ .vmem, ⟨6, _⟩ => ⟨S1x12800, .f32⟩
  | .local _ .vmem, ⟨7, _⟩ => ⟨S1x12800, .f32⟩
  | .local _ .vmem, ⟨8, _⟩ => ⟨S1x1x12800, .f32⟩
  | .local _ .vmem, ⟨9, _⟩ => ⟨S1x1x12800, .f32⟩
  | .local _ .vmem, ⟨10, _⟩ => ⟨S1x100x1, .f32⟩
  | .local _ .vmem, ⟨11, _⟩ => ⟨S1x100x1, .f32⟩
  | .local _ .vmem, ⟨12, _⟩ => ⟨S100x1, .f32⟩
  | _, _ => ⟨S8x100x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_c : Ref sig .tc := ⟨.hbm, 43, rfl⟩
abbrev main_v33 : Ref sig .tc := ⟨.hbm, 44, rfl⟩
abbrev main_v34 : Ref sig .tc := ⟨.hbm, 45, rfl⟩
abbrev main_cst_4 : Ref sig .tc := ⟨.hbm, 46, rfl⟩
abbrev main_v35 : Ref sig .tc := ⟨.hbm, 47, rfl⟩
abbrev main_v36 : Ref sig .tc := ⟨.hbm, 48, rfl⟩
abbrev main_cst_5 : Ref sig .tc := ⟨.hbm, 49, rfl⟩
abbrev main_v37 : Ref sig .tc := ⟨.hbm, 50, rfl⟩
abbrev main_v38 : Ref sig .tc := ⟨.hbm, 51, rfl⟩
abbrev main_cst_6 : Ref sig .tc := ⟨.hbm, 52, rfl⟩
abbrev main_call0_v0 : Ref sig .tc := ⟨.hbm, 53, rfl⟩
abbrev main_call0_v1 : Ref sig .tc := ⟨.hbm, 54, rfl⟩
abbrev main_call0_v2 : Ref sig .tc := ⟨.hbm, 55, rfl⟩
abbrev main_v39 : Ref sig .tc := ⟨.hbm, 56, rfl⟩
abbrev main_v40 : Ref sig .tc := ⟨.hbm, 57, rfl⟩
abbrev main_cst_7 : Ref sig .tc := ⟨.hbm, 58, rfl⟩
abbrev main_call1_v0 : Ref sig .tc := ⟨.hbm, 59, rfl⟩
abbrev main_v41 : Ref sig .tc := ⟨.hbm, 60, rfl⟩
abbrev main_cst_8 : Ref sig .tc := ⟨.hbm, 61, rfl⟩
abbrev main_call2_v0 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_call3_v0 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_call4_cst : Ref sig .tc := ⟨.hbm, 73, rfl⟩
abbrev main_call4_v0 : Ref sig .tc := ⟨.hbm, 74, rfl⟩
abbrev main_v50 : Ref sig .tc := ⟨.hbm, 75, rfl⟩
abbrev main_cst_10 : Ref sig .tc := ⟨.hbm, 76, rfl⟩
abbrev main_v51 : Ref sig .tc := ⟨.hbm, 77, rfl⟩
abbrev main_cst_11 : Ref sig .tc := ⟨.hbm, 78, rfl⟩
abbrev main_v52 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v32 : BitVec 1 := Scalar.cmpi .eq arg1 c7_i32
  let v33 : BitVec 32 := Scalar.extui v32
  let c0_i32_20 : BitVec 32 := 0#32
  let v34 : BitVec 1 := Scalar.cmpi .ne v33 c0_i32_20
  v34

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x100x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x100x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S3x12800 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x12800 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x12800 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x100x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  reducesTo_S100000x3_S100000_d1 : S100000x3.ReducesTo [1] S100000
  h_S_ : 0 < S_.numel
  slices_S8x4x4_S8x3x3_0_0_0 : S8x4x4.Slices ![0, 0, 0] S8x3x3
  bcast_S8_S8x1x1_0 : S8.BroadcastsInDim S8x1x1 (![0] : Fin 1 → Fin S8x1x1.rank)
  bcast_S8x1x1_S8x3x3_0_1_2 : S8x1x1.BroadcastsInDim S8x3x3 (![0, 1, 2] : Fin 3 → Fin S8x3x3.rank)
  slices_S8x4x4_S8x3x1_0_0_3 : S8x4x4.Slices ![0, 0, 3] S8x3x1
  shapeCasts_S8x3x1_S8x3 : S8x3x1.ShapeCasts S8x3
  bcast_S8x3_S8x1x3_0_2 : S8x3.BroadcastsInDim S8x1x3 (![0, 2] : Fin 2 → Fin S8x1x3.rank)
  bcast_S8x1x3_S8x100x3_0_1_2 : S8x1x3.BroadcastsInDim S8x100x3 (![0, 1, 2] : Fin 3 → Fin S8x100x3.rank)
  slices_S8_S1_0 : S8.Slices ![0] S1
  shapeCasts_S1_S_ : S1.ShapeCasts S_
  reducesTo_S8x100x3_S8x3_d1 : S8x100x3.ReducesTo [1] S8x3
  bcast_S_S8x3 : S_.BroadcastsInDim S8x3 (![] : Fin 0 → Fin S8x3.rank)
  reducesTo_S8x100x3_S8x100_d2 : S8x100x3.ReducesTo [2] S8x100
  bcast_S100000x3_S1x100000x3_1_2 : S100000x3.BroadcastsInDim S1x100000x3 (![1, 2] : Fin 2 → Fin S1x100000x3.rank)
  bcast_S1x100000x3_S8x100000x3_0_1_2 : S1x100000x3.BroadcastsInDim S8x100000x3 (![0, 1, 2] : Fin 3 → Fin S8x100000x3.rank)
  bcast_S8x1x3_S8x100000x3_0_1_2 : S8x1x3.BroadcastsInDim S8x100000x3 (![0, 1, 2] : Fin 3 → Fin S8x100000x3.rank)
  reducesTo_S8x100000x3_S8x100000_d2 : S8x100000x3.ReducesTo [2] S8x100000
  bcast_S100000_S1x100000_1 : S100000.BroadcastsInDim S1x100000 (![1] : Fin 1 → Fin S1x100000.rank)
  bcast_S_S1x100000 : S_.BroadcastsInDim S1x100000 (![] : Fin 0 → Fin S1x100000.rank)
  bcast_S1x100000_S8x100000_0_1 : S1x100000.BroadcastsInDim S8x100000 (![0, 1] : Fin 2 → Fin S8x100000.rank)
  bcast_S_S8x100000 : S_.BroadcastsInDim S8x100000 (![] : Fin 0 → Fin S8x100000.rank)
  transposes_S100000x3_S3x100000_1_0 : S100000x3.Transposes [1, 0] S3x100000
  pads_S3x100000_S3x102400_000_024000 : S3x100000.Pads (![0, 0] : Fin 2 → Nat) ![0, 2400] ![0, 0] S3x102400
  pads_S100000_S102400_024000 : S100000.Pads (![0] : Fin 1 → Nat) ![2400] ![0] S102400
  bcast_S102400_S1x102400_1 : S102400.BroadcastsInDim S1x102400 (![1] : Fin 1 → Fin S1x102400.rank)
  pads_S8x100000_S8x102400_000_024000 : S8x100000.Pads (![0, 0] : Fin 2 → Nat) ![0, 2400] ![0, 0] S8x102400
  bcast_S8x100_S8x100x1_0_1 : S8x100.BroadcastsInDim S8x100x1 (![0, 1] : Fin 2 → Fin S8x100x1.rank)
  bcast_S8x102400_S8x1x102400_0_2 : S8x102400.BroadcastsInDim S8x1x102400 (![0, 2] : Fin 2 → Fin S8x1x102400.rank)
  inb_S100x1_S100x1_0_0 : ∀ a, (![0, 0] : Fin 2 → Nat) a + S100x1.size a ≤ S100x1.size a
  h_S100x1 : 0 < S100x1.numel
  shapeCasts_S100x1_S100x1 : S100x1.ShapeCasts S100x1
  inb_S1x100x3_S1x100x3_0_0_0 : ∀ a, (![0, 0, 0] : Fin 3 → Nat) a + S1x100x3.size a ≤ S1x100x3.size a
  h_S1x100x3 : 0 < S1x100x3.numel
  shapeCasts_S1x100x3_S100x3 : S1x100x3.ShapeCasts S100x3
  inb_S1x100x1_S1x100x1_0_0_0 : ∀ a, (![0, 0, 0] : Fin 3 → Nat) a + S1x100x1.size a ≤ S1x100x1.size a
  h_S1x100x1 : 0 < S1x100x1.numel
  shapeCasts_S1x100x1_S100x1 : S1x100x1.ShapeCasts S100x1
  inb_S3x12800_S3x12800_0_0 : ∀ a, (![0, 0] : Fin 2 → Nat) a + S3x12800.size a ≤ S3x12800.size a
  h_S3x12800 : 0 < S3x12800.numel
  shapeCasts_S3x12800_S3x12800 : S3x12800.ShapeCasts S3x12800
  inb_S1x12800_S1x12800_0_0 : ∀ a, (![0, 0] : Fin 2 → Nat) a + S1x12800.size a ≤ S1x12800.size a
  h_S1x12800 : 0 < S1x12800.numel
  shapeCasts_S1x12800_S1x12800 : S1x12800.ShapeCasts S1x12800
  inb_S1x1x12800_S1x1x12800_0_0_0 : ∀ a, (![0, 0, 0] : Fin 3 → Nat) a + S1x1x12800.size a ≤ S1x1x12800.size a
  h_S1x1x12800 : 0 < S1x1x12800.numel
  shapeCasts_S1x1x12800_S1x12800 : S1x1x12800.ShapeCasts S1x12800
  broadcasts_S100x1_S100x12800 : S100x1.Broadcasts S100x12800
  broadcasts_S1x12800_S100x12800 : S1x12800.Broadcasts S100x12800
  reduces_S100x12800_S100 : S100x12800.Reduces [1] S100
  shapeCasts_S100_S100x1 : S100.ShapeCasts S100x1
  shapeCasts_S100x1_S1x100x1 : S100x1.ShapeCasts S1x100x1
  shapeCasts_S8x100x1_S8x100 : S8x100x1.ShapeCasts S8x100
  bcast_S_S8x100 : S_.BroadcastsInDim S8x100 (![] : Fin 0 → Fin S8x100.rank)
  reducesTo_S8x100_S_d0_1 : S8x100.ReducesTo [0, 1] S_
  dot_S8x100x3_S8x3x3_S8x100x3_2_2_1_1_0_0_wf : DotDims.WF S8x100x3 S8x3x3 S8x100x3 [2] [2] [1] [1] [0] [0]
  dot_S100x3_S3x12800_S100x12800_1_0_0_1_n_n_wf : DotDims.WF S100x3 S3x12800 S100x12800 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x100x3.size a ≤ S8x100x3.size a
  hwx0_0 : ∀ i : grid0.Coords, EltTy.bits .f32 = 32 ∨ (Rect.block (s := S8x100x3) S1x100x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x100x1.size a ≤ S8x100x1.size a
  hwx0_1 : ∀ i : grid0.Coords, EltTy.bits .f32 = 32 ∨ (Rect.block (s := S8x100x1) S1x100x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3x12800.size a ≤ S3x102400.size a
  hwx0_2 : ∀ i : grid0.Coords, EltTy.bits .f32 = 32 ∨ (Rect.block (s := S3x102400) S3x12800.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x12800.size a ≤ S1x102400.size a
  hwx0_3 : ∀ i : grid0.Coords, EltTy.bits .f32 = 32 ∨ (Rect.block (s := S1x102400) S1x12800.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x12800.size a ≤ S8x1x102400.size a
  hwx0_4 : ∀ i : grid0.Coords, EltTy.bits .f32 = 32 ∨ (Rect.block (s := S8x1x102400) S1x1x12800.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x100x1.size a ≤ S8x100x1.size a
  hwx0_5 : ∀ i : grid0.Coords, EltTy.bits .f32 = 32 ∨ (Rect.block (s := S8x100x1) S1x100x1.size (cc0_transform_5 i) (hinb0_5 i)).WholeWords (EltTy.packing .f32)

variable [Facts₀]

def dot_S8x100x3_S8x3x3_S8x100x3_2_2_1_1_0_0 : DotDims S8x100x3 S8x3x3 S8x100x3 where
  lhsContracting := [2]
  rhsContracting := [2]
  lhsNonContracting := [1]
  rhsNonContracting := [1]
  lhsBatch := [0]
  rhsBatch := [0]
  wf := dot_S8x100x3_S8x3x3_S8x100x3_2_2_1_1_0_0_wf
def dot_S100x3_S3x12800_S100x12800_1_0_0_1_n_n : DotDims S100x3 S3x12800 S100x12800 where
  lhsContracting := [1]
  rhsContracting := [0]
  lhsNonContracting := [0]
  rhsNonContracting := [1]
  lhsBatch := []
  rhsBatch := []
  wf := dot_S100x3_S3x12800_S100x12800_1_0_0_1_n_n_wf

abbrev win0_0 : Pipeline.Window sig grid0 :=
  Pipeline.Window.ofSpec (Memref.whole main_v10) S1x100x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v45) S1x100x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v41) S3x12800.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v43) S1x12800.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v46) S1x1x12800.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v47) S1x100x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S8x100x3 : Shape := ⟨3, ![8, 100, 3]⟩
abbrev S8x4x4 : Shape := ⟨3, ![8, 4, 4]⟩
abbrev S8 : Shape := ⟨1, ![8]⟩
abbrev S100000x3 : Shape := ⟨2, ![100000, 3]⟩
abbrev S_ : Shape := ⟨0, ![]⟩
abbrev S100000 : Shape := ⟨1, ![100000]⟩
abbrev S8x3x3 : Shape := ⟨3, ![8, 3, 3]⟩
abbrev S8x1x1 : Shape := ⟨3, ![8, 1, 1]⟩
abbrev S8x3x1 : Shape := ⟨3, ![8, 3, 1]⟩
abbrev S8x3 : Shape := ⟨2, ![8, 3]⟩
abbrev S8x1x3 : Shape := ⟨3, ![8, 1, 3]⟩
abbrev S1 : Shape := ⟨1, ![1]⟩
abbrev S1x100000x3 : Shape := ⟨3, ![1, 100000, 3]⟩
abbrev S8x100000x3 : Shape := ⟨3, ![8, 100000, 3]⟩
abbrev S8x100000 : Shape := ⟨2, ![8, 100000]⟩
abbrev S8x100 : Shape := ⟨2, ![8, 100]⟩
abbrev S8x100x100000 : Shape := ⟨3, ![8, 100, 100000]⟩
abbrev S8x100x1 : Shape := ⟨3, ![8, 100, 1]⟩
abbrev S1x1x100000 : Shape := ⟨3, ![1, 1, 100000]⟩
abbrev S8x1x100000 : Shape := ⟨3, ![8, 1, 100000]⟩

abbrev nBuf : Space → Nat
  | .hbm => 84
  | .vmem => 0
  | .smem => 0
  | _ => 0

abbrev bufTy : (tb : Table) → Fin (tcTables nBuf tb) → BufTy
  | .hbm, ⟨0, _⟩ => ⟨S8x100x3, .f32⟩
  | .hbm, ⟨1, _⟩ => ⟨S8x4x4, .f32⟩
  | .hbm, ⟨2, _⟩ => ⟨S8, .f32⟩
  | .hbm, ⟨3, _⟩ => ⟨S100000x3, .f32⟩
  | .hbm, ⟨4, _⟩ => ⟨S100000x3, .f32⟩
  | .hbm, ⟨5, _⟩ => ⟨S_, .f32⟩
  | .hbm, ⟨6, _⟩ => ⟨S100000, .f32⟩
  | .hbm, ⟨7, _⟩ => ⟨S8x3x3, .f32⟩
  | .hbm, ⟨8, _⟩ => ⟨S8x1x1, .f32⟩
  | .hbm, ⟨9, _⟩ => ⟨S8x3x3, .f32⟩
  | .hbm, ⟨10, _⟩ => ⟨S8x3x3, .f32⟩
  | .hbm, ⟨11, _⟩ => ⟨S8x3x1, .f32⟩
  | .hbm, ⟨12, _⟩ => ⟨S8x3, .f32⟩
  | .hbm, ⟨13, _⟩ => ⟨S8x100x3, .f32⟩
  | .hbm, ⟨14, _⟩ => ⟨S8x1x3, .f32⟩
  | .hbm, ⟨15, _⟩ => ⟨S8x100x3, .f32⟩
  | .hbm, ⟨16, _⟩ => ⟨S8x100x3, .f32⟩
  | .hbm, ⟨17, _⟩ => ⟨S1, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S8x3, .f32⟩
  | .hbm, ⟨23, _⟩ => ⟨S8x3, .f32⟩
  | .hbm, ⟨24, _⟩ => ⟨S8x3, .f32⟩
  | .hbm, ⟨25, _⟩ => ⟨S_, .f32⟩
  | .hbm, ⟨26, _⟩ => ⟨S8x3, .f32⟩
  | .hbm, ⟨27, _⟩ => ⟨S8x3, .f32⟩
  | .hbm, ⟨28, _⟩ => ⟨S8x3, .f32⟩
  | .hbm, ⟨29, _⟩ => ⟨S1x100000x3, .f32⟩
  | .hbm, ⟨30, _⟩ => ⟨S8x1x3, .f32⟩
  | .hbm, ⟨31, _⟩ => ⟨S8x100000x3, .f32⟩
  | .hbm, ⟨32, _⟩ => ⟨S8x100000x3, .f32⟩
  | .hbm, ⟨33, _⟩ => ⟨S8x100000x3, .i1⟩
  | .hbm, ⟨34, _⟩ => ⟨S1x100000x3, .f32⟩
  | .hbm, ⟨35, _⟩ => ⟨S8x1x3, .f32⟩
  | .hbm, ⟨36, _⟩ => ⟨S8x100000x3, .f32⟩
  | .hbm, ⟨37, _⟩ => ⟨S8x100000x3, .f32⟩
  | .hbm, ⟨38, _⟩ => ⟨S8x100000x3, .i1⟩
  | .hbm, ⟨39, _⟩ => ⟨S8x100000x3, .i1⟩
  | .hbm, ⟨40, _⟩ => ⟨S_, .i1⟩
  | .hbm, ⟨41, _⟩ => ⟨S8x100000, .i1⟩
  | .hbm, ⟨42, _⟩ => ⟨S8x100x3, .f32⟩
  | .hbm, ⟨43, _⟩ => ⟨S_, .f32⟩
  | .hbm, ⟨44, _⟩ => ⟨S8x100, .f32⟩
  | .hbm, ⟨45, _⟩ => ⟨S100000x3, .f32⟩
  | .hbm, ⟨46, _⟩ => ⟨S_, .f32⟩
  | .hbm, ⟨47, _⟩ => ⟨S100000, .f32⟩
  | .hbm, ⟨48, _⟩ => ⟨S8x100x100000, .f32⟩
  | .hbm, ⟨49, _⟩ => ⟨S8x100x1, .f32⟩
  | .hbm, ⟨50, _⟩ => ⟨S1x1x100000, .f32⟩
  | .hbm, ⟨51, _⟩ => ⟨S8x100x100000, .f32⟩
  | .hbm, ⟨52, _⟩ => ⟨S8x100x100000, .f32⟩
  | .hbm, ⟨53, _⟩ => ⟨S8x100x100000, .f32⟩
  | .hbm, ⟨54, _⟩ => ⟨S_, .f32⟩
  | .hbm, ⟨55, _⟩ => ⟨S8x100x100000, .f32⟩
  | .hbm, ⟨56, _⟩ => ⟨S8x100x100000, .f32⟩
  | .hbm, ⟨57, _⟩ => ⟨S8x100x100000, .f32⟩
  | .hbm, ⟨58, _⟩ => ⟨S_, .f32⟩
  | .hbm, ⟨59, _⟩ => ⟨S8x100x100000, .f32⟩
  | .hbm, ⟨60, _⟩ => ⟨S8x100x100000, .f32⟩
  | .hbm, ⟨61, _⟩ => ⟨S8x100x100000, .f32⟩
  | .hbm, ⟨62, _⟩ => ⟨S1x1x100000, .f32⟩
  | .hbm, ⟨63, _⟩ => ⟨S8x100x100000, .f32⟩
  | .hbm, ⟨64, _⟩ => ⟨S8x100x100000, .f32⟩
  | .hbm, ⟨65, _⟩ => ⟨S_, .f32⟩
  | .hbm, ⟨66, _⟩ => ⟨S8x100x100000, .f32⟩
  | .hbm, ⟨67, _⟩ => ⟨S8x100x100000, .f32⟩
  | .hbm, ⟨68, _⟩ => ⟨S8x1x100000, .i1⟩
  | .hbm, ⟨69, _⟩ => ⟨S_, .f32⟩
  | .hbm, ⟨70, _⟩ => ⟨S_, .f32⟩
  | .hbm, ⟨71, _⟩ => ⟨S8x100x100000, .i1⟩
  | .hbm, ⟨72, _⟩ => ⟨S8x100x100000, .f32⟩
  | .hbm, ⟨73, _⟩ => ⟨S8x100x100000, .f32⟩
  | .hbm, ⟨74, _⟩ => ⟨S_, .f32⟩
  | .hbm, ⟨75, _⟩ => ⟨S8x100, .f32⟩
  | .hbm, ⟨76, _⟩ => ⟨S8x100, .f32⟩
  | .hbm, ⟨77, _⟩ => ⟨S_, .f32⟩
  | .hbm, ⟨78, _⟩ => ⟨S8x100, .f32⟩
  | .hbm, ⟨79, _⟩ => ⟨S8x100, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | _, _ => ⟨S8x100x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_c : Ref sig .tc := ⟨.hbm, 40, rfl⟩
abbrev main_v31 : Ref sig .tc := ⟨.hbm, 41, rfl⟩
abbrev main_v32 : Ref sig .tc := ⟨.hbm, 42, rfl⟩
abbrev main_cst_3 : Ref sig .tc := ⟨.hbm, 43, rfl⟩
abbrev main_v33 : Ref sig .tc := ⟨.hbm, 44, rfl⟩
abbrev main_v34 : Ref sig .tc := ⟨.hbm, 45, rfl⟩
abbrev main_cst_4 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_5 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_6 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_7 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_8 : Ref sig .tc := ⟨.hbm, 69, rfl⟩
abbrev main_call0_v0 : Ref sig .tc := ⟨.hbm, 70, rfl⟩
abbrev main_call0_v1 : Ref sig .tc := ⟨.hbm, 71, rfl⟩
abbrev main_call0_v2 : Ref sig .tc := ⟨.hbm, 72, rfl⟩
abbrev main_v54 : Ref sig .tc := ⟨.hbm, 73, rfl⟩
abbrev main_cst_9 : Ref sig .tc := ⟨.hbm, 74, rfl⟩
abbrev main_v55 : Ref sig .tc := ⟨.hbm, 75, rfl⟩
abbrev main_v56 : Ref sig .tc := ⟨.hbm, 76, rfl⟩
abbrev main_call1_cst : Ref sig .tc := ⟨.hbm, 77, rfl⟩
abbrev main_call1_v0 : Ref sig .tc := ⟨.hbm, 78, rfl⟩
abbrev main_v57 : Ref sig .tc := ⟨.hbm, 79, rfl⟩
abbrev main_cst_10 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩

abbrev nD : Nat := 1
abbrev τ : Topo := Topo.v7x

variable {F : FTy → Type} [FloatOps F]

class Facts₀ : Prop where
  reducesTo_S100000x3_S100000_d1 : S100000x3.ReducesTo [1] S100000
  h_S_ : 0 < S_.numel
  slices_S8x4x4_S8x3x3_0_0_0 : S8x4x4.Slices ![0, 0, 0] S8x3x3
  bcast_S8_S8x1x1_0 : S8.BroadcastsInDim S8x1x1 (![0] : Fin 1 → Fin S8x1x1.rank)
  bcast_S8x1x1_S8x3x3_0_1_2 : S8x1x1.BroadcastsInDim S8x3x3 (![0, 1, 2] : Fin 3 → Fin S8x3x3.rank)
  slices_S8x4x4_S8x3x1_0_0_3 : S8x4x4.Slices ![0, 0, 3] S8x3x1
  shapeCasts_S8x3x1_S8x3 : S8x3x1.ShapeCasts S8x3
  bcast_S8x3_S8x1x3_0_2 : S8x3.BroadcastsInDim S8x1x3 (![0, 2] : Fin 2 → Fin S8x1x3.rank)
  bcast_S8x1x3_S8x100x3_0_1_2 : S8x1x3.BroadcastsInDim S8x100x3 (![0, 1, 2] : Fin 3 → Fin S8x100x3.rank)
  slices_S8_S1_0 : S8.Slices ![0] S1
  shapeCasts_S1_S_ : S1.ShapeCasts S_
  reducesTo_S8x100x3_S8x3_d1 : S8x100x3.ReducesTo [1] S8x3
  bcast_S_S8x3 : S_.BroadcastsInDim S8x3 (![] : Fin 0 → Fin S8x3.rank)
  bcast_S100000x3_S1x100000x3_1_2 : S100000x3.BroadcastsInDim S1x100000x3 (![1, 2] : Fin 2 → Fin S1x100000x3.rank)
  bcast_S1x100000x3_S8x100000x3_0_1_2 : S1x100000x3.BroadcastsInDim S8x100000x3 (![0, 1, 2] : Fin 3 → Fin S8x100000x3.rank)
  bcast_S8x1x3_S8x100000x3_0_1_2 : S8x1x3.BroadcastsInDim S8x100000x3 (![0, 1, 2] : Fin 3 → Fin S8x100000x3.rank)
  reducesTo_S8x100000x3_S8x100000_d2 : S8x100000x3.ReducesTo [2] S8x100000
  reducesTo_S8x100x3_S8x100_d2 : S8x100x3.ReducesTo [2] S8x100
  bcast_S8x100_S8x100x1_0_1 : S8x100.BroadcastsInDim S8x100x1 (![0, 1] : Fin 2 → Fin S8x100x1.rank)
  bcast_S100000_S1x1x100000_2 : S100000.BroadcastsInDim S1x1x100000 (![2] : Fin 1 → Fin S1x1x100000.rank)
  bcast_S8x100x1_S8x100x100000_0_1_2 : S8x100x1.BroadcastsInDim S8x100x100000 (![0, 1, 2] : Fin 3 → Fin S8x100x100000.rank)
  bcast_S1x1x100000_S8x100x100000_0_1_2 : S1x1x100000.BroadcastsInDim S8x100x100000 (![0, 1, 2] : Fin 3 → Fin S8x100x100000.rank)
  bcast_S_S8x100x100000 : S_.BroadcastsInDim S8x100x100000 (![] : Fin 0 → Fin S8x100x100000.rank)
  bcast_S8x100000_S8x1x100000_0_2 : S8x100000.BroadcastsInDim S8x1x100000 (![0, 2] : Fin 2 → Fin S8x1x100000.rank)
  bcast_S8x1x100000_S8x100x100000_0_1_2 : S8x1x100000.BroadcastsInDim S8x100x100000 (![0, 1, 2] : Fin 3 → Fin S8x100x100000.rank)
  reducesTo_S8x100x100000_S8x100_d2 : S8x100x100000.ReducesTo [2] S8x100
  bcast_S_S8x100 : S_.BroadcastsInDim S8x100 (![] : Fin 0 → Fin S8x100.rank)
  reducesTo_S8x100_S_d0_1 : S8x100.ReducesTo [0, 1] S_
  dot_S8x100x3_S8x3x3_S8x100x3_2_2_1_1_0_0_wf : DotDims.WF S8x100x3 S8x3x3 S8x100x3 [2] [2] [1] [1] [0] [0]
  dot_S8x100x3_S100000x3_S8x100x100000_2_1_01_0_n_n_wf : DotDims.WF S8x100x3 S100000x3 S8x100x100000 [2] [1] [0, 1] [0] [] []

variable [Facts₀]

def dot_S8x100x3_S8x3x3_S8x100x3_2_2_1_1_0_0 : DotDims S8x100x3 S8x3x3 S8x100x3 where
  lhsContracting := [2]
  rhsContracting := [2]
  lhsNonContracting := [1]
  rhsNonContracting := [1]
  lhsBatch := [0]
  rhsBatch := [0]
  wf := dot_S8x100x3_S8x3x3_S8x100x3_2_2_1_1_0_0_wf
def dot_S8x100x3_S100000x3_S8x100x100000_2_1_01_0_n_n : DotDims S8x100x3 S100000x3 S8x100x100000 where
  lhsContracting := [2]
  rhsContracting := [1]
  lhsNonContracting := [0, 1]
  rhsNonContracting := [0]
  lhsBatch := []
  rhsBatch := []
  wf := dot_S8x100x3_S100000x3_S8x100x100000_2_1_01_0_n_n_wf

class Facts : Prop extends Facts₀ where

variable [Facts]
-- ==== Proof.Stages.lean ====
/-
  The reference's host computation, stage by stage, as functions of the arrays they depend on.

  From the inputs (trajectories a0 [8,100,3], camera matrices a1 [8,4,4], scene scales a2 [8], splat centres a3
  [100000,3], splat scales a4 [100000,3]): the transformed trajectories R = a0 · (rotation · scale)ᵀ + translation;
  the box threshold; the box's upper and lower corners per batch; which splats lie inside each batch's box; the squared
  norms of the trajectory points and of the splat centres; each splat's largest scale; the masked distance array
  (inside the box: distance − largest scale − margin; outside: the large constant); its minimum over the splats; and
  the loss's tail (negate, clip at zero, sum, divide by 800). Everything downstream of R takes R as a parameter.
-/
import proofs.«173465_j90580860272868_2_alg».proof.Proof.Gen.ReferenceIdeal

noncomputable section

namespace Cert.ReferenceIdeal.Stages

open Cert.ReferenceIdeal Cert.ReferenceIdeal.Gen Idealize.ShloMosaic Idealize.ShloMosaic.TcCoe

variable {F : FTy → Type} [FloatOps F]

/-- The transformed trajectories (the contraction's precision attribute is a parameter). -/
def retr (prec : Option ContractPrecision) (a0 : (⟨S8x100x3, .f32⟩ : BufTy).Contents (Elt F)) (a1 : (⟨S8x4x4, .f32⟩ : BufTy).Contents (Elt F)) (a2 : (⟨S8, .f32⟩ : BufTy).Contents (Elt F)) : (⟨S8x100x3, .f32⟩ : BufTy).Contents (Elt F) :=
  addf (Host.dotGeneral dot_S8x100x3_S8x3x3_S8x100x3_2_2_1_1_0_0 prec a0
      (mulf (extractStridedSlice S8x3x3 ![0, 0, 0] a1 slices_S8x4x4_S8x3x3_0_0_0)
        (broadcastInDim S8x3x3 ![0, 1, 2] bcast_S8x1x1_S8x3x3_0_1_2 (broadcastInDim S8x1x1 ![0] bcast_S8_S8x1x1_0 a2))))
    (broadcastInDim S8x100x3 ![0, 1, 2] bcast_S8x1x3_S8x100x3_0_1_2 (broadcastInDim S8x1x3 ![0, 2] bcast_S8x3_S8x1x3_0_2
      (shapeCast S8x3 (extractStridedSlice S8x3x1 ![0, 0, 3] a1 slices_S8x4x4_S8x3x1_0_0_3) shapeCasts_S8x3x1_S8x3)))

/-- The box threshold: half the first scene scale. -/
def thr (a2 : (⟨S8, .f32⟩ : BufTy).Contents (Elt F)) : (⟨S_, .f32⟩ : BufTy).Contents (Elt F) :=
  mulf (constant S_ .f32 0x3F000000#32) (shapeCast S_ (extractStridedSlice S1 ![0] a2 slices_S8_S1_0) shapeCasts_S1_S_)

/-- The box's upper corner per batch: the largest trajectory coordinate plus the threshold. -/
def upper (R : (⟨S8x100x3, .f32⟩ : BufTy).Contents (Elt F)) (a2 : (⟨S8, .f32⟩ : BufTy).Contents (Elt F)) : (⟨S8x3, .f32⟩ : BufTy).Contents (Elt F) :=
  addf (Host.reduce FloatOps.maximumf R (constant S_ .f32 0xFF800000#32) reducesTo_S8x100x3_S8x3_d1 h_S_)
    (broadcastInDim S8x3 ![] bcast_S_S8x3 (thr a2))

/-- The box's lower corner per batch: the smallest trajectory coordinate minus the threshold. -/
def lower (R : (⟨S8x100x3, .f32⟩ : BufTy).Contents (Elt F)) (a2 : (⟨S8, .f32⟩ : BufTy).Contents (Elt F)) : (⟨S8x3, .f32⟩ : BufTy).Contents (Elt F) :=
  subf (Host.reduce FloatOps.minimumf R (constant S_ .f32 0x7F800000#32) reducesTo_S8x100x3_S8x3_d1 h_S_)
    (broadcastInDim S8x3 ![] bcast_S_S8x3 (thr a2))

/-- Which splats lie inside each batch's box (all three coordinates between the corners). -/
def inside (R : (⟨S8x100x3, .f32⟩ : BufTy).Contents (Elt F)) (a2 : (⟨S8, .f32⟩ : BufTy).Contents (Elt F)) (a3 : (⟨S100000x3, .f32⟩ : BufTy).Contents (Elt F)) : (⟨S8x100000, .i1⟩ : BufTy).Contents (Elt F) :=
  Host.reduce IntOp.andi
    (andi
      (cmpf .oge
        (broadcastInDim S8x100000x3 ![0, 1, 2] bcast_S1x100000x3_S8x100000x3_0_1_2 (broadcastInDim S1x100000x3 ![1, 2] bcast_S100000x3_S1x100000x3_1_2 a3))
        (broadcastInDim S8x100000x3 ![0, 1, 2] bcast_S8x1x3_S8x100000x3_0_1_2 (broadcastInDim S8x1x3 ![0, 2] bcast_S8x3_S8x1x3_0_2 (lower R a2))))
      (cmpf .ole
        (broadcastInDim S8x100000x3 ![0, 1, 2] bcast_S1x100000x3_S8x100000x3_0_1_2 (broadcastInDim S1x100000x3 ![1, 2] bcast_S100000x3_S1x100000x3_1_2 a3))
        (broadcastInDim S8x100000x3 ![0, 1, 2] bcast_S8x1x3_S8x100000x3_0_1_2 (broadcastInDim S8x1x3 ![0, 2] bcast_S8x3_S8x1x3_0_2 (upper R a2)))))
    (constantI S_ 1 1#1) reducesTo_S8x100000x3_S8x100000_d2 h_S_

/-- The squared norms of the trajectory points. -/
def rsq (R : (⟨S8x100x3, .f32⟩ : BufTy).Contents (Elt F)) : (⟨S8x100, .f32⟩ : BufTy).Contents (Elt F) :=
  Host.reduceAdd (mulf R R) (constant S_ .f32 0x00000000#32) reducesTo_S8x100x3_S8x100_d2 h_S_

/-- The squared norms of the splat centres. -/
def msq (a3 : (⟨S100000x3, .f32⟩ : BufTy).Contents (Elt F)) : (⟨S100000, .f32⟩ : BufTy).Contents (Elt F) :=
  Host.reduceAdd (mulf a3 a3) (constant S_ .f32 0x00000000#32) reducesTo_S100000x3_S100000_d1 h_S_

/-- Each splat's largest scale. -/
def msr (a4 : (⟨S100000x3, .f32⟩ : BufTy).Contents (Elt F)) : (⟨S100000, .f32⟩ : BufTy).Contents (Elt F) :=
  Host.reduce FloatOps.maximumf a4 (constant S_ .f32 0xFF800000#32) reducesTo_S100000x3_S100000_d1 h_S_

/-- The masked distances [8,100,100000]: inside the box the clipped distance less the splat's largest scale less the
    margin, outside it the large constant. -/
def masked (R : (⟨S8x100x3, .f32⟩ : BufTy).Contents (Elt F)) (a2 : (⟨S8, .f32⟩ : BufTy).Contents (Elt F)) (a3 a4 : (⟨S100000x3, .f32⟩ : BufTy).Contents (Elt F)) : (⟨S8x100x100000, .f32⟩ : BufTy).Contents (Elt F) :=
  select
    (broadcastInDim S8x100x100000 ![0, 1, 2] bcast_S8x1x100000_S8x100x100000_0_1_2
      (broadcastInDim S8x1x100000 ![0, 2] bcast_S8x100000_S8x1x100000_0_2 (inside R a2 a3)))
    (subf (subf
      (Host.sqrt (maximumf
        (subf
          (addf
            (broadcastInDim S8x100x100000 ![0, 1, 2] bcast_S8x100x1_S8x100x100000_0_1_2 (broadcastInDim S8x100x1 ![0, 1] bcast_S8x100_S8x100x1_0_1 (rsq R)))
            (broadcastInDim S8x100x100000 ![0, 1, 2] bcast_S1x1x100000_S8x100x100000_0_1_2 (broadcastInDim S1x1x100000 ![2] bcast_S100000_S1x1x100000_2 (msq a3))))
          (mulf (broadcastInDim S8x100x100000 ![] bcast_S_S8x100x100000 (constant S_ .f32 0x40000000#32))
            (Host.dotGeneral dot_S8x100x3_S100000x3_S8x100x100000_2_1_01_0_n_n none R a3)))
        (broadcastInDim S8x100x100000 ![] bcast_S_S8x100x100000 (constant S_ .f32 0x00000000#32))))
      (broadcastInDim S8x100x100000 ![0, 1, 2] bcast_S1x1x100000_S8x100x100000_0_1_2 (broadcastInDim S1x1x100000 ![2] bcast_S100000_S1x1x100000_2 (msr a4))))
      (broadcastInDim S8x100x100000 ![] bcast_S_S8x100x100000 (constant S_ .f32 0x3DCCCCCD#32)))
    (broadcastInDim S8x100x100000 ![] bcast_S_S8x100x100000 (id (constant S_ .f32 0x4E6E6B28#32)))

/-- The minimum of the masked distances over the splats, per batch and trajectory point. -/
def colloss (R : (⟨S8x100x3, .f32⟩ : BufTy).Contents (Elt F)) (a2 : (⟨S8, .f32⟩ : BufTy).Contents (Elt F)) (a3 a4 : (⟨S100000x3, .f32⟩ : BufTy).Contents (Elt F)) : (⟨S8x100, .f32⟩ : BufTy).Contents (Elt F) :=
  Host.reduce FloatOps.minimumf (masked R a2 a3 a4) (constant S_ .f32 0x7F800000#32) reducesTo_S8x100x100000_S8x100_d2 h_S_

/-- The clipped negation of a [8,100] array. -/
def clipNeg (X : (⟨S8x100, .f32⟩ : BufTy).Contents (Elt F)) : (⟨S8x100, .f32⟩ : BufTy).Contents (Elt F) :=
  maximumf (Host.negf X) (broadcastInDim S8x100 ![] bcast_S_S8x100 (constant S_ .f32 0x00000000#32))

/-- The loss from a clipped [8,100] array: its sum divided by 800. -/
def meanOf (Y : (⟨S8x100, .f32⟩ : BufTy).Contents (Elt F)) : (⟨S_, .f32⟩ : BufTy).Contents (Elt F) :=
  Host.divf (Host.reduceAdd Y (constant S_ .f32 0x00000000#32) reducesTo_S8x100_S_d0_1 h_S_) (constant S_ .f32 0x44480000#32)

/-- The reference's result as a function of its five arguments. -/
def result (a0 : (⟨S8x100x3, .f32⟩ : BufTy).Contents (Elt F)) (a1 : (⟨S8x4x4, .f32⟩ : BufTy).Contents (Elt F)) (a2 : (⟨S8, .f32⟩ : BufTy).Contents (Elt F)) (a3 a4 : (⟨S100000x3, .f32⟩ : BufTy).Contents (Elt F)) : (⟨S_, .f32⟩ : BufTy).Contents (Elt F) :=
  meanOf (clipNeg (colloss (retr none a0 a1 a2) a2 a3 a4))

end Cert.ReferenceIdeal.Stages

end
-- ==== Proof.RefOps.lean ====
/-
  The reference's @main as the list of its 79 host operations (a called function's operations stand in its call's
  place), with the routine facts a straight-line run needs, and a name for what a buffer holds after the line.
-/
import proofs.«173465_j90580860272868_2_alg».proof.Proof.Gen.ReferenceIdeal
import proofs.«173465_j90580860272868_2_alg».proof.Proof.Stages
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 79 operations, in order (a called function's operations stand in its call's place, spelt `TRef.…`). -/
abbrev ops : List (HloOp τ sig (Elt F)) :=
  [ nullary main_cst (constant S_ .f32 0xFF800000#32),
    binary main_arg4 main_cst main_v0 ((fun x v => Host.reduce FloatOps.maximumf x v reducesTo_S100000x3_S100000_d1 h_S_) : (⟨S100000x3, .f32⟩ : BufTy).Contents (Elt F) → (⟨S_, .f32⟩ : BufTy).Contents (Elt F) → (⟨S100000, .f32⟩ : BufTy).Contents (Elt F)),
    unary main_arg1 main_v1 ((extractStridedSlice S8x3x3 ![0, 0, 0] · slices_S8x4x4_S8x3x3_0_0_0) : (⟨S8x4x4, .f32⟩ : BufTy).Contents (Elt F) → (⟨S8x3x3, .f32⟩ : BufTy).Contents (Elt F)),
    unary main_arg2 main_v2 (broadcastInDim S8x1x1 ![0] bcast_S8_S8x1x1_0 : (⟨S8, .f32⟩ : BufTy).Contents (Elt F) → (⟨S8x1x1, .f32⟩ : BufTy).Contents (Elt F)),
    unary main_v2 main_v3 (broadcastInDim S8x3x3 ![0, 1, 2] bcast_S8x1x1_S8x3x3_0_1_2 : (⟨S8x1x1, .f32⟩ : BufTy).Contents (Elt F) → (⟨S8x3x3, .f32⟩ : BufTy).Contents (Elt F)),
    binary main_v1 main_v3 main_v4 (mulf : (⟨S8x3x3, .f32⟩ : BufTy).Contents (Elt F) → (⟨S8x3x3, .f32⟩ : BufTy).Contents (Elt F) → (⟨S8x3x3, .f32⟩ : BufTy).Contents (Elt F)),
    unary main_arg1 main_v5 ((extractStridedSlice S8x3x1 ![0, 0, 3] · slices_S8x4x4_S8x3x1_0_0_3) : (⟨S8x4x4, .f32⟩ : BufTy).Contents (Elt F) → (⟨S8x3x1, .f32⟩ : BufTy).Contents (Elt F)),
    reshape main_v5 main_v6 rfl shapeCasts_S8x3x1_S8x3,
    binary main_arg0 main_v4 main_v7 ((fun l r => Host.dotGeneral dot_S8x100x3_S8x3x3_S8x100x3_2_2_1_1_0_0 none l r) : (⟨S8x100x3, .f32⟩ : BufTy).Contents (Elt F) → (⟨S8x3x3, .f32⟩ : BufTy).Contents (Elt F) → (⟨S8x100x3, .f32⟩ : BufTy).Contents (Elt F)),
    unary main_v6 main_v8 (broadcastInDim S8x1x3 ![0, 2] bcast_S8x3_S8x1x3_0_2 : (⟨S8x3, .f32⟩ : BufTy).Contents (Elt F) → (⟨S8x1x3, .f32⟩ : BufTy).Contents (Elt F)),
    unary main_v8 main_v9 (broadcastInDim S8x100x3 ![0, 1, 2] bcast_S8x1x3_S8x100x3_0_1_2 : (⟨S8x1x3, .f32⟩ : BufTy).Contents (Elt F) → (⟨S8x100x3, .f32⟩ : BufTy).Contents (Elt F)),
    binary main_v7 main_v9 main_v10 (addf : (⟨S8x100x3, .f32⟩ : BufTy).Contents (Elt F) → (⟨S8x100x3, .f32⟩ : BufTy).Contents (Elt F) → (⟨S8x100x3, .f32⟩ : BufTy).Contents (Elt F)),
    unary main_arg2 main_v11 ((extractStridedSlice S1 ![0] · slices_S8_S1_0) : (⟨S8, .f32⟩ : BufTy).Contents (Elt F) → (⟨S1, .f32⟩ : BufTy).Contents (Elt F)),
    reshape main_v11 main_v12 rfl shapeCasts_S1_S_,
    nullary main_cst_0 (constant S_ .f32 0x3F000000#32),
    binary main_cst_0 main_v12 main_v13 (mulf : (⟨S_, .f32⟩ : BufTy).Contents (Elt F) → (⟨S_, .f32⟩ : BufTy).Contents (Elt F) → (⟨S_, .f32⟩ : BufTy).Contents (Elt F)),
    nullary main_cst_1 (constant S_ .f32 0xFF800000#32),
    binary main_v10 main_cst_1 main_v14 ((fun x v => Host.reduce FloatOps.maximumf x v reducesTo_S8x100x3_S8x3_d1 h_S_) : (⟨S8x100x3, .f32⟩ : BufTy).Contents (Elt F) → (⟨S_, .f32⟩ : BufTy).Contents (Elt F) → (⟨S8x3, .f32⟩ : BufTy).Contents (Elt F)),
    unary main_v13 main_v15 (broadcastInDim S8x3 ![] bcast_S_S8x3 : (⟨S_, .f32⟩ : BufTy).Contents (Elt F) → (⟨S8x3, .f32⟩ : BufTy).Contents (Elt F)),
    binary main_v14 main_v15 main_v16 (addf : (⟨S8x3, .f32⟩ : BufTy).Contents (Elt F) → (⟨S8x3, .f32⟩ : BufTy).Contents (Elt F) → (⟨S8x3, .f32⟩ : BufTy).Contents (Elt F)),
    nullary main_cst_2 (constant S_ .f32 0x7F800000#32),
    binary main_v10 main_cst_2 main_v17 ((fun x v => Host.reduce FloatOps.minimumf x v reducesTo_S8x100x3_S8x3_d1 h_S_) : (⟨S8x100x3, .f32⟩ : BufTy).Contents (Elt F) → (⟨S_, .f32⟩ : BufTy).Contents (Elt F) → (⟨S8x3, .f32⟩ : BufTy).Contents (Elt F)),
    unary main_v13 main_v18 (broadcastInDim S8x3 ![] bcast_S_S8x3 : (⟨S_, .f32⟩ : BufTy).Contents (Elt F) → (⟨S8x3, .f32⟩ : BufTy).Contents (Elt F)),
    binary main_v17 main_v18 main_v19 (subf : (⟨S8x3, .f32⟩ : BufTy).Contents (Elt F) → (⟨S8x3, .f32⟩ : BufTy).Contents (Elt F) → (⟨S8x3, .f32⟩ : BufTy).Contents (Elt F)),
    unary main_arg3 main_v20 (broadcastInDim S1x100000x3 ![1, 2] bcast_S100000x3_S1x100000x3_1_2 : (⟨S100000x3, .f32⟩ : BufTy).Contents (Elt F) → (⟨S1x100000x3, .f32⟩ : BufTy).Contents (Elt F)),
    unary main_v19 main_v21 (broadcastInDim S8x1x3 ![0, 2] bcast_S8x3_S8x1x3_0_2 : (⟨S8x3, .f32⟩ : BufTy).Contents (Elt F) → (⟨S8x1x3, .f32⟩ : BufTy).Contents (Elt F)),
    unary main_v20 main_v22 (broadcastInDim S8x100000x3 ![0, 1, 2] bcast_S1x100000x3_S8x100000x3_0_1_2 : (⟨S1x100000x3, .f32⟩ : BufTy).Contents (Elt F) → (⟨S8x100000x3, .f32⟩ : BufTy).Contents (Elt F)),
    unary main_v21 main_v23 (broadcastInDim S8x100000x3 ![0, 1, 2] bcast_S8x1x3_S8x100000x3_0_1_2 : (⟨S8x1x3, .f32⟩ : BufTy).Contents (Elt F) → (⟨S8x100000x3, .f32⟩ : BufTy).Contents (Elt F)),
    binary main_v22 main_v23 main_v24 (cmpf .oge : (⟨S8x100000x3, .f32⟩ : BufTy).Contents (Elt F) → (⟨S8x100000x3, .f32⟩ : BufTy).Contents (Elt F) → (⟨S8x100000x3, .i1⟩ : BufTy).Contents (Elt F)),
    unary main_arg3 main_v25 (broadcastInDim S1x100000x3 ![1, 2] bcast_S100000x3_S1x100000x3_1_2 : (⟨S100000x3, .f32⟩ : BufTy).Contents (Elt F) → (⟨S1x100000x3, .f32⟩ : BufTy).Contents (Elt F)),
    unary main_v16 main_v26 (broadcastInDim S8x1x3 ![0, 2] bcast_S8x3_S8x1x3_0_2 : (⟨S8x3, .f32⟩ : BufTy).Contents (Elt F) → (⟨S8x1x3, .f32⟩ : BufTy).Contents (Elt F)),
    unary main_v25 main_v27 (broadcastInDim S8x100000x3 ![0, 1, 2] bcast_S1x100000x3_S8x100000x3_0_1_2 : (⟨S1x100000x3, .f32⟩ : BufTy).Contents (Elt F) → (⟨S8x100000x3, .f32⟩ : BufTy).Contents (Elt F)),
    unary main_v26 main_v28 (broadcastInDim S8x100000x3 ![0, 1, 2] bcast_S8x1x3_S8x100000x3_0_1_2 : (⟨S8x1x3, .f32⟩ : BufTy).Contents (Elt F) → (⟨S8x100000x3, .f32⟩ : BufTy).Contents (Elt F)),
    binary main_v27 main_v28 main_v29 (cmpf .ole : (⟨S8x100000x3, .f32⟩ : BufTy).Contents (Elt F) → (⟨S8x100000x3, .f32⟩ : BufTy).Contents (Elt F) → (⟨S8x100000x3, .i1⟩ : BufTy).Contents (Elt F)),
    binary main_v24 main_v29 main_v30 (andi : (⟨S8x100000x3, .i1⟩ : BufTy).Contents (Elt F) → (⟨S8x100000x3, .i1⟩ : BufTy).Contents (Elt F) → (⟨S8x100000x3, .i1⟩ : BufTy).Contents (Elt F)),
    nullary main_c (constantI S_ 1 1#1),
    binary main_v30 main_c main_v31 ((fun x v => Host.reduce IntOp.andi x v reducesTo_S8x100000x3_S8x100000_d2 h_S_) : (⟨S8x100000x3, .i1⟩ : BufTy).Contents (Elt F) → (⟨S_, .i1⟩ : BufTy).Contents (Elt F) → (⟨S8x100000, .i1⟩ : BufTy).Contents (Elt F)),
    binary main_v10 main_v10 main_v32 (mulf : (⟨S8x100x3, .f32⟩ : BufTy).Contents (Elt F) → (⟨S8x100x3, .f32⟩ : BufTy).Contents (Elt F) → (⟨S8x100x3, .f32⟩ : BufTy).Contents (Elt F)),
    nullary main_cst_3 (constant S_ .f32 0x00000000#32),
    binary main_v32 main_cst_3 main_v33 ((fun x v => Host.reduceAdd x v reducesTo_S8x100x3_S8x100_d2 h_S_) : (⟨S8x100x3, .f32⟩ : BufTy).Contents (Elt F) → (⟨S_, .f32⟩ : BufTy).Contents (Elt F) → (⟨S8x100, .f32⟩ : BufTy).Contents (Elt F)),
    binary main_arg3 main_arg3 main_v34 (mulf : (⟨S100000x3, .f32⟩ : BufTy).Contents (Elt F) → (⟨S100000x3, .f32⟩ : BufTy).Contents (Elt F) → (⟨S100000x3, .f32⟩ : BufTy).Contents (Elt F)),
    nullary main_cst_4 (constant S_ .f32 0x00000000#32),
    binary main_v34 main_cst_4 main_v35 ((fun x v => Host.reduceAdd x v reducesTo_S100000x3_S100000_d1 h_S_) : (⟨S100000x3, .f32⟩ : BufTy).Contents (Elt F) → (⟨S_, .f32⟩ : BufTy).Contents (Elt F) → (⟨S100000, .f32⟩ : BufTy).Contents (Elt F)),
    binary main_v10 main_arg3 main_v36 ((fun l r => Host.dotGeneral dot_S8x100x3_S100000x3_S8x100x100000_2_1_01_0_n_n none l r) : (⟨S8x100x3, .f32⟩ : BufTy).Contents (Elt F) → (⟨S100000x3, .f32⟩ : BufTy).Contents (Elt F) → (⟨S8x100x100000, .f32⟩ : BufTy).Contents (Elt F)),
    unary main_v33 main_v37 (broadcastInDim S8x100x1 ![0, 1] bcast_S8x100_S8x100x1_0_1 : (⟨S8x100, .f32⟩ : BufTy).Contents (Elt F) → (⟨S8x100x1, .f32⟩ : BufTy).Contents (Elt F)),
    unary main_v35 main_v38 (broadcastInDim S1x1x100000 ![2] bcast_S100000_S1x1x100000_2 : (⟨S100000, .f32⟩ : BufTy).Contents (Elt F) → (⟨S1x1x100000, .f32⟩ : BufTy).Contents (Elt F)),
    unary main_v37 main_v39 (broadcastInDim S8x100x100000 ![0, 1, 2] bcast_S8x100x1_S8x100x100000_0_1_2 : (⟨S8x100x1, .f32⟩ : BufTy).Contents (Elt F) → (⟨S8x100x100000, .f32⟩ : BufTy).Contents (Elt F)),
    unary main_v38 main_v40 (broadcastInDim S8x100x100000 ![0, 1, 2] bcast_S1x1x100000_S8x100x100000_0_1_2 : (⟨S1x1x100000, .f32⟩ : BufTy).Contents (Elt F) → (⟨S8x100x100000, .f32⟩ : BufTy).Contents (Elt F)),
    binary main_v39 main_v40 main_v41 (addf : (⟨S8x100x100000, .f32⟩ : BufTy).Contents (Elt F) → (⟨S8x100x100000, .f32⟩ : BufTy).Contents (Elt F) → (⟨S8x100x100000, .f32⟩ : BufTy).Contents (Elt F)),
    nullary main_cst_5 (constant S_ .f32 0x40000000#32),
    unary main_cst_5 main_v42 (broadcastInDim S8x100x100000 ![] bcast_S_S8x100x100000 : (⟨S_, .f32⟩ : BufTy).Contents (Elt F) → (⟨S8x100x100000, .f32⟩ : BufTy).Contents (Elt F)),
    binary main_v42 main_v36 main_v43 (mulf : (⟨S8x100x100000, .f32⟩ : BufTy).Contents (Elt F) → (⟨S8x100x100000, .f32⟩ : BufTy).Contents (Elt F) → (⟨S8x100x100000, .f32⟩ : BufTy).Contents (Elt F)),
    binary main_v41 main_v43 main_v44 (subf : (⟨S8x100x100000, .f32⟩ : BufTy).Contents (Elt F) → (⟨S8x100x100000, .f32⟩ : BufTy).Contents (Elt F) → (⟨S8x100x100000, .f32⟩ : BufTy).Contents (Elt F)),
    nullary main_cst_6 (constant S_ .f32 0x00000000#32),
    unary main_cst_6 main_v45 (broadcastInDim S8x100x100000 ![] bcast_S_S8x100x100000 : (⟨S_, .f32⟩ : BufTy).Contents (Elt F) → (⟨S8x100x100000, .f32⟩ : BufTy).Contents (Elt F)),
    binary main_v44 main_v45 main_v46 (maximumf : (⟨S8x100x100000, .f32⟩ : BufTy).Contents (Elt F) → (⟨S8x100x100000, .f32⟩ : BufTy).Contents (Elt F) → (⟨S8x100x100000, .f32⟩ : BufTy).Contents (Elt F)),
    unary main_v46 main_v47 (Host.sqrt : (⟨S8x100x100000, .f32⟩ : BufTy).Contents (Elt F) → (⟨S8x100x100000, .f32⟩ : BufTy).Contents (Elt F)),
    unary main_v0 main_v48 (broadcastInDim S1x1x100000 ![2] bcast_S100000_S1x1x100000_2 : (⟨S100000, .f32⟩ : BufTy).Contents (Elt F) → (⟨S1x1x100000, .f32⟩ : BufTy).Contents (Elt F)),
    unary main_v48 main_v49 (broadcastInDim S8x100x100000 ![0, 1, 2] bcast_S1x1x100000_S8x100x100000_0_1_2 : (⟨S1x1x100000, .f32⟩ : BufTy).Contents (Elt F) → (⟨S8x100x100000, .f32⟩ : BufTy).Contents (Elt F)),
    binary main_v47 main_v49 main_v50 (subf : (⟨S8x100x100000, .f32⟩ : BufTy).Contents (Elt F) → (⟨S8x100x100000, .f32⟩ : BufTy).Contents (Elt F) → (⟨S8x100x100000, .f32⟩ : BufTy).Contents (Elt F)),
    nullary main_cst_7 (constant S_ .f32 0x3DCCCCCD#32),
    unary main_cst_7 main_v51 (broadcastInDim S8x100x100000 ![] bcast_S_S8x100x100000 : (⟨S_, .f32⟩ : BufTy).Contents (Elt F) → (⟨S8x100x100000, .f32⟩ : BufTy).Contents (Elt F)),
    binary main_v50 main_v51 main_v52 (subf : (⟨S8x100x100000, .f32⟩ : BufTy).Contents (Elt F) → (⟨S8x100x100000, .f32⟩ : BufTy).Contents (Elt F) → (⟨S8x100x100000, .f32⟩ : BufTy).Contents (Elt F)),
    unary main_v31 main_v53 (broadcastInDim S8x1x100000 ![0, 2] bcast_S8x100000_S8x1x100000_0_2 : (⟨S8x100000, .i1⟩ : BufTy).Contents (Elt F) → (⟨S8x1x100000, .i1⟩ : BufTy).Contents (Elt F)),
    nullary main_cst_8 (constant S_ .f32 0x4E6E6B28#32),
    TRef.unary (TRef.of (T := ⟨S_, .f32⟩) main_cst_8) (TRef.of (T := ⟨S_, .f32⟩) main_call0_v0) id,
    TRef.unary (TRef.of (T := ⟨S8x1x100000, .i1⟩) main_v53) (TRef.of (T := ⟨S8x100x100000, .i1⟩) main_call0_v1) (broadcastInDim S8x100x100000 ![0, 1, 2] bcast_S8x1x100000_S8x100x100000_0_1_2),
    TRef.unary (TRef.of (T := ⟨S_, .f32⟩) main_call0_v0) (TRef.of (T := ⟨S8x100x100000, .f32⟩) main_call0_v2) (broadcastInDim S8x100x100000 ![] bcast_S_S8x100x100000),
    TRef.ternary (TRef.of (T := ⟨S8x100x100000, .i1⟩) main_call0_v1) (TRef.of (T := ⟨S8x100x100000, .f32⟩) main_v52) (TRef.of (T := ⟨S8x100x100000, .f32⟩) main_call0_v2) (TRef.of (T := ⟨S8x100x100000, .f32⟩) main_v54) select,
    nullary main_cst_9 (constant S_ .f32 0x7F800000#32),
    binary main_v54 main_cst_9 main_v55 ((fun x v => Host.reduce FloatOps.minimumf x v reducesTo_S8x100x100000_S8x100_d2 h_S_) : (⟨S8x100x100000, .f32⟩ : BufTy).Contents (Elt F) → (⟨S_, .f32⟩ : BufTy).Contents (Elt F) → (⟨S8x100, .f32⟩ : BufTy).Contents (Elt F)),
    unary main_v55 main_v56 (Host.negf : (⟨S8x100, .f32⟩ : BufTy).Contents (Elt F) → (⟨S8x100, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S8x100, .f32⟩) main_call1_v0) (broadcastInDim S8x100 ![] bcast_S_S8x100),
    TRef.binary (TRef.of (T := ⟨S8x100, .f32⟩) main_v56) (TRef.of (T := ⟨S8x100, .f32⟩) main_call1_v0) (TRef.of (T := ⟨S8x100, .f32⟩) main_v57) maximumf,
    nullary main_cst_10 (constant S_ .f32 0x00000000#32),
    binary main_v57 main_cst_10 main_v58 ((fun x v => Host.reduceAdd x v reducesTo_S8x100_S_d0_1 h_S_) : (⟨S8x100, .f32⟩ : BufTy).Contents (Elt F) → (⟨S_, .f32⟩ : BufTy).Contents (Elt F) → (⟨S_, .f32⟩ : BufTy).Contents (Elt F)),
    nullary main_cst_11 (constant S_ .f32 0x44480000#32),
    binary main_v58 main_cst_11 main_v59 (Host.divf : (⟨S_, .f32⟩ : BufTy).Contents (Elt F) → (⟨S_, .f32⟩ : BufTy).Contents (Elt F) → (⟨S_, .f32⟩ : BufTy).Contents (Elt F)) ]

set_option maxRecDepth 65536 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 65536 in
theorem ops_sub : (ops : List (HloOp τ sig (Elt F))).Forall fun op => op.bufs ⊆ tcRefs τ sig :=
  ⟨nullary_bufs_sub .., binary_bufs_sub .., unary_bufs_sub .., unary_bufs_sub .., unary_bufs_sub .., binary_bufs_sub .., unary_bufs_sub .., reshape_bufs_sub .., binary_bufs_sub .., unary_bufs_sub .., unary_bufs_sub .., binary_bufs_sub .., unary_bufs_sub .., reshape_bufs_sub .., nullary_bufs_sub .., binary_bufs_sub .., nullary_bufs_sub .., binary_bufs_sub .., unary_bufs_sub .., binary_bufs_sub .., nullary_bufs_sub .., binary_bufs_sub .., unary_bufs_sub .., binary_bufs_sub .., unary_bufs_sub .., unary_bufs_sub .., unary_bufs_sub .., unary_bufs_sub .., binary_bufs_sub .., unary_bufs_sub .., unary_bufs_sub .., unary_bufs_sub .., unary_bufs_sub .., binary_bufs_sub .., binary_bufs_sub .., nullary_bufs_sub .., binary_bufs_sub .., binary_bufs_sub .., nullary_bufs_sub .., binary_bufs_sub .., binary_bufs_sub .., nullary_bufs_sub .., binary_bufs_sub .., binary_bufs_sub .., unary_bufs_sub .., unary_bufs_sub .., unary_bufs_sub .., unary_bufs_sub .., binary_bufs_sub .., nullary_bufs_sub .., unary_bufs_sub .., binary_bufs_sub .., binary_bufs_sub .., nullary_bufs_sub .., unary_bufs_sub .., binary_bufs_sub .., unary_bufs_sub .., unary_bufs_sub .., unary_bufs_sub .., binary_bufs_sub .., nullary_bufs_sub .., unary_bufs_sub .., binary_bufs_sub .., unary_bufs_sub .., nullary_bufs_sub .., unary_bufs_sub .., unary_bufs_sub .., unary_bufs_sub .., ternary_bufs_sub .., nullary_bufs_sub .., binary_bufs_sub .., unary_bufs_sub .., nullary_bufs_sub .., unary_bufs_sub .., binary_bufs_sub .., nullary_bufs_sub .., binary_bufs_sub .., nullary_bufs_sub .., binary_bufs_sub ..⟩

/-- What a buffer holds after the straight line, from the launch contents m on core c. -/
abbrev W (m : (ℓ : Loc nD τ sig) → Buf (Elt F) ℓ) (c : Dev nD) (b : Ref sig .tc) : Buf (Elt F) ((c.tc : Thread nD τ).loc b) :=
  after ops (launchContents m c) (Proc.devRef .tc b)

end Cert.ReferenceIdeal.RefRun

end
-- ==== Proof.LibAfterAppend.lean ====
/-
  A straight line of host operations run in two stretches: the contents after the whole line are the contents after
  the second stretch started from the contents after the first. (The contents after a line are a left fold of the
  operations' results.)
-/
import Idealize.ShloMosaic.Lib.StableHlo.Run

namespace Cert.AfterAppend

open Idealize.ShloMosaic Idealize.ShloMosaic.StableHlo

variable {nD : Nat} {τ : Topo} {sig : RefSig} {Val : EltTy → Type}

theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

end Cert.AfterAppend
-- ==== Proof.RefSplit.lean ====
/-
  The reference's line cut after its 65th operation: the long first stretch computes everything up to the distances less the scales less the margin and the box test recast for the choice; the short second stretch is the choice, the minimum over the splats and the loss's tail. Here: the cut, and the three buffers the second stretch reads, after the first.
-/
import proofs.«173465_j90580860272868_2_alg».proof.Proof.RefOps
import proofs.«173465_j90580860272868_2_alg».proof.Proof.Stages
import proofs.«173465_j90580860272868_2_alg».proof.Proof.LibAfterAppend

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]
-- the two stretches
abbrev opsA : List (HloOp τ sig (Elt F)) :=
  [ nullary main_cst (constant S_ .f32 0xFF800000#32),
    binary main_arg4 main_cst main_v0 ((fun x v => Host.reduce FloatOps.maximumf x v reducesTo_S100000x3_S100000_d1 h_S_) : (⟨S100000x3, .f32⟩ : BufTy).Contents (Elt F) → (⟨S_, .f32⟩ : BufTy).Contents (Elt F) → (⟨S100000, .f32⟩ : BufTy).Contents (Elt F)),
    unary main_arg1 main_v1 ((extractStridedSlice S8x3x3 ![0, 0, 0] · slices_S8x4x4_S8x3x3_0_0_0) : (⟨S8x4x4, .f32⟩ : BufTy).Contents (Elt F) → (⟨S8x3x3, .f32⟩ : BufTy).Contents (Elt F)),
    unary main_arg2 main_v2 (broadcastInDim S8x1x1 ![0] bcast_S8_S8x1x1_0 : (⟨S8, .f32⟩ : BufTy).Contents (Elt F) → (⟨S8x1x1, .f32⟩ : BufTy).Contents (Elt F)),
    unary main_v2 main_v3 (broadcastInDim S8x3x3 ![0, 1, 2] bcast_S8x1x1_S8x3x3_0_1_2 : (⟨S8x1x1, .f32⟩ : BufTy).Contents (Elt F) → (⟨S8x3x3, .f32⟩ : BufTy).Contents (Elt F)),
    binary main_v1 main_v3 main_v4 (mulf : (⟨S8x3x3, .f32⟩ : BufTy).Contents (Elt F) → (⟨S8x3x3, .f32⟩ : BufTy).Contents (Elt F) → (⟨S8x3x3, .f32⟩ : BufTy).Contents (Elt F)),
    unary main_arg1 main_v5 ((extractStridedSlice S8x3x1 ![0, 0, 3] · slices_S8x4x4_S8x3x1_0_0_3) : (⟨S8x4x4, .f32⟩ : BufTy).Contents (Elt F) → (⟨S8x3x1, .f32⟩ : BufTy).Contents (Elt F)),
    reshape main_v5 main_v6 rfl shapeCasts_S8x3x1_S8x3,
    binary main_arg0 main_v4 main_v7 ((fun l r => Host.dotGeneral dot_S8x100x3_S8x3x3_S8x100x3_2_2_1_1_0_0 none l r) : (⟨S8x100x3, .f32⟩ : BufTy).Contents (Elt F) → (⟨S8x3x3, .f32⟩ : BufTy).Contents (Elt F) → (⟨S8x100x3, .f32⟩ : BufTy).Contents (Elt F)),
    unary main_v6 main_v8 (broadcastInDim S8x1x3 ![0, 2] bcast_S8x3_S8x1x3_0_2 : (⟨S8x3, .f32⟩ : BufTy).Contents (Elt F) → (⟨S8x1x3, .f32⟩ : BufTy).Contents (Elt F)),
    unary main_v8 main_v9 (broadcastInDim S8x100x3 ![0, 1, 2] bcast_S8x1x3_S8x100x3_0_1_2 : (⟨S8x1x3, .f32⟩ : BufTy).Contents (Elt F) → (⟨S8x100x3, .f32⟩ : BufTy).Contents (Elt F)),
    binary main_v7 main_v9 main_v10 (addf : (⟨S8x100x3, .f32⟩ : BufTy).Contents (Elt F) → (⟨S8x100x3, .f32⟩ : BufTy).Contents (Elt F) → (⟨S8x100x3, .f32⟩ : BufTy).Contents (Elt F)),
    unary main_arg2 main_v11 ((extractStridedSlice S1 ![0] · slices_S8_S1_0) : (⟨S8, .f32⟩ : BufTy).Contents (Elt F) → (⟨S1, .f32⟩ : BufTy).Contents (Elt F)),
    reshape main_v11 main_v12 rfl shapeCasts_S1_S_,
    nullary main_cst_0 (constant S_ .f32 0x3F000000#32),
    binary main_cst_0 main_v12 main_v13 (mulf : (⟨S_, .f32⟩ : BufTy).Contents (Elt F) → (⟨S_, .f32⟩ : BufTy).Contents (Elt F) → (⟨S_, .f32⟩ : BufTy).Contents (Elt F)),
    nullary main_cst_1 (constant S_ .f32 0xFF800000#32),
    binary main_v10 main_cst_1 main_v14 ((fun x v => Host.reduce FloatOps.maximumf x v reducesTo_S8x100x3_S8x3_d1 h_S_) : (⟨S8x100x3, .f32⟩ : BufTy).Contents (Elt F) → (⟨S_, .f32⟩ : BufTy).Contents (Elt F) → (⟨S8x3, .f32⟩ : BufTy).Contents (Elt F)),
    unary main_v13 main_v15 (broadcastInDim S8x3 ![] bcast_S_S8x3 : (⟨S_, .f32⟩ : BufTy).Contents (Elt F) → (⟨S8x3, .f32⟩ : BufTy).Contents (Elt F)),
    binary main_v14 main_v15 main_v16 (addf : (⟨S8x3, .f32⟩ : BufTy).Contents (Elt F) → (⟨S8x3, .f32⟩ : BufTy).Contents (Elt F) → (⟨S8x3, .f32⟩ : BufTy).Contents (Elt F)),
    nullary main_cst_2 (constant S_ .f32 0x7F800000#32),
    binary main_v10 main_cst_2 main_v17 ((fun x v => Host.reduce FloatOps.minimumf x v reducesTo_S8x100x3_S8x3_d1 h_S_) : (⟨S8x100x3, .f32⟩ : BufTy).Contents (Elt F) → (⟨S_, .f32⟩ : BufTy).Contents (Elt F) → (⟨S8x3, .f32⟩ : BufTy).Contents (Elt F)),
    unary main_v13 main_v18 (broadcastInDim S8x3 ![] bcast_S_S8x3 : (⟨S_, .f32⟩ : BufTy).Contents (Elt F) → (⟨S8x3, .f32⟩ : BufTy).Contents (Elt F)),
    binary main_v17 main_v18 main_v19 (subf : (⟨S8x3, .f32⟩ : BufTy).Contents (Elt F) → (⟨S8x3, .f32⟩ : BufTy).Contents (Elt F) → (⟨S8x3, .f32⟩ : BufTy).Contents (Elt F)),
    unary main_arg3 main_v20 (broadcastInDim S1x100000x3 ![1, 2] bcast_S100000x3_S1x100000x3_1_2 : (⟨S100000x3, .f32⟩ : BufTy).Contents (Elt F) → (⟨S1x100000x3, .f32⟩ : BufTy).Contents (Elt F)),
    unary main_v19 main_v21 (broadcastInDim S8x1x3 ![0, 2] bcast_S8x3_S8x1x3_0_2 : (⟨S8x3, .f32⟩ : BufTy).Contents (Elt F) → (⟨S8x1x3, .f32⟩ : BufTy).Contents (Elt F)),
    unary main_v20 main_v22 (broadcastInDim S8x100000x3 ![0, 1, 2] bcast_S1x100000x3_S8x100000x3_0_1_2 : (⟨S1x100000x3, .f32⟩ : BufTy).Contents (Elt F) → (⟨S8x100000x3, .f32⟩ : BufTy).Contents (Elt F)),
    unary main_v21 main_v23 (broadcastInDim S8x100000x3 ![0, 1, 2] bcast_S8x1x3_S8x100000x3_0_1_2 : (⟨S8x1x3, .f32⟩ : BufTy).Contents (Elt F) → (⟨S8x100000x3, .f32⟩ : BufTy).Contents (Elt F)),
    binary main_v22 main_v23 main_v24 (cmpf .oge : (⟨S8x100000x3, .f32⟩ : BufTy).Contents (Elt F) → (⟨S8x100000x3, .f32⟩ : BufTy).Contents (Elt F) → (⟨S8x100000x3, .i1⟩ : BufTy).Contents (Elt F)),
    unary main_arg3 main_v25 (broadcastInDim S1x100000x3 ![1, 2] bcast_S100000x3_S1x100000x3_1_2 : (⟨S100000x3, .f32⟩ : BufTy).Contents (Elt F) → (⟨S1x100000x3, .f32⟩ : BufTy).Contents (Elt F)),
    unary main_v16 main_v26 (broadcastInDim S8x1x3 ![0, 2] bcast_S8x3_S8x1x3_0_2 : (⟨S8x3, .f32⟩ : BufTy).Contents (Elt F) → (⟨S8x1x3, .f32⟩ : BufTy).Contents (Elt F)),
    unary main_v25 main_v27 (broadcastInDim S8x100000x3 ![0, 1, 2] bcast_S1x100000x3_S8x100000x3_0_1_2 : (⟨S1x100000x3, .f32⟩ : BufTy).Contents (Elt F) → (⟨S8x100000x3, .f32⟩ : BufTy).Contents (Elt F)),
    unary main_v26 main_v28 (broadcastInDim S8x100000x3 ![0, 1, 2] bcast_S8x1x3_S8x100000x3_0_1_2 : (⟨S8x1x3, .f32⟩ : BufTy).Contents (Elt F) → (⟨S8x100000x3, .f32⟩ : BufTy).Contents (Elt F)),
    binary main_v27 main_v28 main_v29 (cmpf .ole : (⟨S8x100000x3, .f32⟩ : BufTy).Contents (Elt F) → (⟨S8x100000x3, .f32⟩ : BufTy).Contents (Elt F) → (⟨S8x100000x3, .i1⟩ : BufTy).Contents (Elt F)),
    binary main_v24 main_v29 main_v30 (andi : (⟨S8x100000x3, .i1⟩ : BufTy).Contents (Elt F) → (⟨S8x100000x3, .i1⟩ : BufTy).Contents (Elt F) → (⟨S8x100000x3, .i1⟩ : BufTy).Contents (Elt F)),
    nullary main_c (constantI S_ 1 1#1),
    binary main_v30 main_c main_v31 ((fun x v => Host.reduce IntOp.andi x v reducesTo_S8x100000x3_S8x100000_d2 h_S_) : (⟨S8x100000x3, .i1⟩ : BufTy).Contents (Elt F) → (⟨S_, .i1⟩ : BufTy).Contents (Elt F) → (⟨S8x100000, .i1⟩ : BufTy).Contents (Elt F)),
    binary main_v10 main_v10 main_v32 (mulf : (⟨S8x100x3, .f32⟩ : BufTy).Contents (Elt F) → (⟨S8x100x3, .f32⟩ : BufTy).Contents (Elt F) → (⟨S8x100x3, .f32⟩ : BufTy).Contents (Elt F)),
    nullary main_cst_3 (constant S_ .f32 0x00000000#32),
    binary main_v32 main_cst_3 main_v33 ((fun x v => Host.reduceAdd x v reducesTo_S8x100x3_S8x100_d2 h_S_) : (⟨S8x100x3, .f32⟩ : BufTy).Contents (Elt F) → (⟨S_, .f32⟩ : BufTy).Contents (Elt F) → (⟨S8x100, .f32⟩ : BufTy).Contents (Elt F)),
    binary main_arg3 main_arg3 main_v34 (mulf : (⟨S100000x3, .f32⟩ : BufTy).Contents (Elt F) → (⟨S100000x3, .f32⟩ : BufTy).Contents (Elt F) → (⟨S100000x3, .f32⟩ : BufTy).Contents (Elt F)),
    nullary main_cst_4 (constant S_ .f32 0x00000000#32),
    binary main_v34 main_cst_4 main_v35 ((fun x v => Host.reduceAdd x v reducesTo_S100000x3_S100000_d1 h_S_) : (⟨S100000x3, .f32⟩ : BufTy).Contents (Elt F) → (⟨S_, .f32⟩ : BufTy).Contents (Elt F) → (⟨S100000, .f32⟩ : BufTy).Contents (Elt F)),
    binary main_v10 main_arg3 main_v36 ((fun l r => Host.dotGeneral dot_S8x100x3_S100000x3_S8x100x100000_2_1_01_0_n_n none l r) : (⟨S8x100x3, .f32⟩ : BufTy).Contents (Elt F) → (⟨S100000x3, .f32⟩ : BufTy).Contents (Elt F) → (⟨S8x100x100000, .f32⟩ : BufTy).Contents (Elt F)),
    unary main_v33 main_v37 (broadcastInDim S8x100x1 ![0, 1] bcast_S8x100_S8x100x1_0_1 : (⟨S8x100, .f32⟩ : BufTy).Contents (Elt F) → (⟨S8x100x1, .f32⟩ : BufTy).Contents (Elt F)),
    unary main_v35 main_v38 (broadcastInDim S1x1x100000 ![2] bcast_S100000_S1x1x100000_2 : (⟨S100000, .f32⟩ : BufTy).Contents (Elt F) → (⟨S1x1x100000, .f32⟩ : BufTy).Contents (Elt F)),
    unary main_v37 main_v39 (broadcastInDim S8x100x100000 ![0, 1, 2] bcast_S8x100x1_S8x100x100000_0_1_2 : (⟨S8x100x1, .f32⟩ : BufTy).Contents (Elt F) → (⟨S8x100x100000, .f32⟩ : BufTy).Contents (Elt F)),
    unary main_v38 main_v40 (broadcastInDim S8x100x100000 ![0, 1, 2] bcast_S1x1x100000_S8x100x100000_0_1_2 : (⟨S1x1x100000, .f32⟩ : BufTy).Contents (Elt F) → (⟨S8x100x100000, .f32⟩ : BufTy).Contents (Elt F)),
    binary main_v39 main_v40 main_v41 (addf : (⟨S8x100x100000, .f32⟩ : BufTy).Contents (Elt F) → (⟨S8x100x100000, .f32⟩ : BufTy).Contents (Elt F) → (⟨S8x100x100000, .f32⟩ : BufTy).Contents (Elt F)),
    nullary main_cst_5 (constant S_ .f32 0x40000000#32),
    unary main_cst_5 main_v42 (broadcastInDim S8x100x100000 ![] bcast_S_S8x100x100000 : (⟨S_, .f32⟩ : BufTy).Contents (Elt F) → (⟨S8x100x100000, .f32⟩ : BufTy).Contents (Elt F)),
    binary main_v42 main_v36 main_v43 (mulf : (⟨S8x100x100000, .f32⟩ : BufTy).Contents (Elt F) → (⟨S8x100x100000, .f32⟩ : BufTy).Contents (Elt F) → (⟨S8x100x100000, .f32⟩ : BufTy).Contents (Elt F)),
    binary main_v41 main_v43 main_v44 (subf : (⟨S8x100x100000, .f32⟩ : BufTy).Contents (Elt F) → (⟨S8x100x100000, .f32⟩ : BufTy).Contents (Elt F) → (⟨S8x100x100000, .f32⟩ : BufTy).Contents (Elt F)),
    nullary main_cst_6 (constant S_ .f32 0x00000000#32),
    unary main_cst_6 main_v45 (broadcastInDim S8x100x100000 ![] bcast_S_S8x100x100000 : (⟨S_, .f32⟩ : BufTy).Contents (Elt F) → (⟨S8x100x100000, .f32⟩ : BufTy).Contents (Elt F)),
    binary main_v44 main_v45 main_v46 (maximumf : (⟨S8x100x100000, .f32⟩ : BufTy).Contents (Elt F) → (⟨S8x100x100000, .f32⟩ : BufTy).Contents (Elt F) → (⟨S8x100x100000, .f32⟩ : BufTy).Contents (Elt F)),
    unary main_v46 main_v47 (Host.sqrt : (⟨S8x100x100000, .f32⟩ : BufTy).Contents (Elt F) → (⟨S8x100x100000, .f32⟩ : BufTy).Contents (Elt F)),
    unary main_v0 main_v48 (broadcastInDim S1x1x100000 ![2] bcast_S100000_S1x1x100000_2 : (⟨S100000, .f32⟩ : BufTy).Contents (Elt F) → (⟨S1x1x100000, .f32⟩ : BufTy).Contents (Elt F)),
    unary main_v48 main_v49 (broadcastInDim S8x100x100000 ![0, 1, 2] bcast_S1x1x100000_S8x100x100000_0_1_2 : (⟨S1x1x100000, .f32⟩ : BufTy).Contents (Elt F) → (⟨S8x100x100000, .f32⟩ : BufTy).Contents (Elt F)),
    binary main_v47 main_v49 main_v50 (subf : (⟨S8x100x100000, .f32⟩ : BufTy).Contents (Elt F) → (⟨S8x100x100000, .f32⟩ : BufTy).Contents (Elt F) → (⟨S8x100x100000, .f32⟩ : BufTy).Contents (Elt F)),
    nullary main_cst_7 (constant S_ .f32 0x3DCCCCCD#32),
    unary main_cst_7 main_v51 (broadcastInDim S8x100x100000 ![] bcast_S_S8x100x100000 : (⟨S_, .f32⟩ : BufTy).Contents (Elt F) → (⟨S8x100x100000, .f32⟩ : BufTy).Contents (Elt F)),
    binary main_v50 main_v51 main_v52 (subf : (⟨S8x100x100000, .f32⟩ : BufTy).Contents (Elt F) → (⟨S8x100x100000, .f32⟩ : BufTy).Contents (Elt F) → (⟨S8x100x100000, .f32⟩ : BufTy).Contents (Elt F)),
    unary main_v31 main_v53 (broadcastInDim S8x1x100000 ![0, 2] bcast_S8x100000_S8x1x100000_0_2 : (⟨S8x100000, .i1⟩ : BufTy).Contents (Elt F) → (⟨S8x1x100000, .i1⟩ : BufTy).Contents (Elt F)),
    nullary main_cst_8 (constant S_ .f32 0x4E6E6B28#32) ]

abbrev opsB : List (HloOp τ sig (Elt F)) :=
  [ TRef.unary (TRef.of (T := ⟨S_, .f32⟩) main_cst_8) (TRef.of (T := ⟨S_, .f32⟩) main_call0_v0) id,
    TRef.unary (TRef.of (T := ⟨S8x1x100000, .i1⟩) main_v53) (TRef.of (T := ⟨S8x100x100000, .i1⟩) main_call0_v1) (broadcastInDim S8x100x100000 ![0, 1, 2] bcast_S8x1x100000_S8x100x100000_0_1_2),
    TRef.unary (TRef.of (T := ⟨S_, .f32⟩) main_call0_v0) (TRef.of (T := ⟨S8x100x100000, .f32⟩) main_call0_v2) (broadcastInDim S8x100x100000 ![] bcast_S_S8x100x100000),
    TRef.ternary (TRef.of (T := ⟨S8x100x100000, .i1⟩) main_call0_v1) (TRef.of (T := ⟨S8x100x100000, .f32⟩) main_v52) (TRef.of (T := ⟨S8x100x100000, .f32⟩) main_call0_v2) (TRef.of (T := ⟨S8x100x100000, .f32⟩) main_v54) select,
    nullary main_cst_9 (constant S_ .f32 0x7F800000#32),
    binary main_v54 main_cst_9 main_v55 ((fun x v => Host.reduce FloatOps.minimumf x v reducesTo_S8x100x100000_S8x100_d2 h_S_) : (⟨S8x100x100000, .f32⟩ : BufTy).Contents (Elt F) → (⟨S_, .f32⟩ : BufTy).Contents (Elt F) → (⟨S8x100, .f32⟩ : BufTy).Contents (Elt F)),
    unary main_v55 main_v56 (Host.negf : (⟨S8x100, .f32⟩ : BufTy).Contents (Elt F) → (⟨S8x100, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S8x100, .f32⟩) main_call1_v0) (broadcastInDim S8x100 ![] bcast_S_S8x100),
    TRef.binary (TRef.of (T := ⟨S8x100, .f32⟩) main_v56) (TRef.of (T := ⟨S8x100, .f32⟩) main_call1_v0) (TRef.of (T := ⟨S8x100, .f32⟩) main_v57) maximumf,
    nullary main_cst_10 (constant S_ .f32 0x00000000#32),
    binary main_v57 main_cst_10 main_v58 ((fun x v => Host.reduceAdd x v reducesTo_S8x100_S_d0_1 h_S_) : (⟨S8x100, .f32⟩ : BufTy).Contents (Elt F) → (⟨S_, .f32⟩ : BufTy).Contents (Elt F) → (⟨S_, .f32⟩ : BufTy).Contents (Elt F)),
    nullary main_cst_11 (constant S_ .f32 0x44480000#32),
    binary main_v58 main_cst_11 main_v59 (Host.divf : (⟨S_, .f32⟩ : BufTy).Contents (Elt F) → (⟨S_, .f32⟩ : BufTy).Contents (Elt F) → (⟨S_, .f32⟩ : BufTy).Contents (Elt F)) ]

set_option maxRecDepth 65536 in
theorem ops_split : (ops : List (HloOp τ sig (Elt F))) = opsA ++ opsB := rfl

variable (m : (ℓ : Loc nD τ sig) → Buf (Elt F) ℓ) (c : Dev nD)

set_option maxRecDepth 200000 in
set_option maxHeartbeats 31600000 in
/-- The box test, recast along the trajectory axis, after the first stretch. -/
theorem A_v53 : (after opsA (launchContents m c) (Proc.devRef .tc main_v53) : (⟨S8x1x100000, .i1⟩ : BufTy).Contents (Elt F))
    = broadcastInDim S8x1x100000 ![0, 2] bcast_S8x100000_S8x1x100000_0_2 (Stages.inside (Stages.retr none (m ((c.tc : Thread nD τ).loc main_arg0)) (m ((c.tc : Thread nD τ).loc main_arg1)) (m ((c.tc : Thread nD τ).loc main_arg2))) (m ((c.tc : Thread nD τ).loc main_arg2)) (m ((c.tc : Thread nD τ).loc main_arg3))) := by
  after_results_simp <;> rfl

set_option maxRecDepth 200000 in
set_option maxHeartbeats 31600000 in
/-- The distances less the largest scales less the margin, after the first stretch. -/
theorem A_v52 : (after opsA (launchContents m c) (Proc.devRef .tc main_v52) : (⟨S8x100x100000, .f32⟩ : BufTy).Contents (Elt F))
    = subf (subf
      (Host.sqrt (maximumf
        (subf
          (addf
            (broadcastInDim S8x100x100000 ![0, 1, 2] bcast_S8x100x1_S8x100x100000_0_1_2 (broadcastInDim S8x100x1 ![0, 1] bcast_S8x100_S8x100x1_0_1 (Stages.rsq (Stages.retr none (m ((c.tc : Thread nD τ).loc main_arg0)) (m ((c.tc : Thread nD τ).loc main_arg1)) (m ((c.tc : Thread nD τ).loc main_arg2))))))
            (broadcastInDim S8x100x100000 ![0, 1, 2] bcast_S1x1x100000_S8x100x100000_0_1_2 (broadcastInDim S1x1x100000 ![2] bcast_S100000_S1x1x100000_2 (Stages.msq (m ((c.tc : Thread nD τ).loc main_arg3))))))
          (mulf (broadcastInDim S8x100x100000 ![] bcast_S_S8x100x100000 (constant S_ .f32 0x40000000#32))
            (Host.dotGeneral dot_S8x100x3_S100000x3_S8x100x100000_2_1_01_0_n_n none (Stages.retr none (m ((c.tc : Thread nD τ).loc main_arg0)) (m ((c.tc : Thread nD τ).loc main_arg1)) (m ((c.tc : Thread nD τ).loc main_arg2))) (m ((c.tc : Thread nD τ).loc main_arg3)))))
        (broadcastInDim S8x100x100000 ![] bcast_S_S8x100x100000 (constant S_ .f32 0x00000000#32))))
      (broadcastInDim S8x100x100000 ![0, 1, 2] bcast_S1x1x100000_S8x100x100000_0_1_2 (broadcastInDim S1x1x100000 ![2] bcast_S100000_S1x1x100000_2 (Stages.msr (m ((c.tc : Thread nD τ).loc main_arg4))))))
      (broadcastInDim S8x100x100000 ![] bcast_S_S8x100x100000 (constant S_ .f32 0x3DCCCCCD#32)) := by
  after_results_simp <;> rfl

set_option maxRecDepth 200000 in
set_option maxHeartbeats 31600000 in
/-- The large constant, after the first stretch. -/
theorem A_cst8 : (after opsA (launchContents m c) (Proc.devRef .tc main_cst_8) : (⟨S_, .f32⟩ : BufTy).Contents (Elt F)) = constant S_ .f32 0x4E6E6B28#32 := by
  after_results_simp <;> rfl

end Cert.ReferenceIdeal.RefRun

end
-- ==== Proof.RefTail.lean ====
/-
  The reference's second stretch from ANY contents: if the first stretch left the recast box test I, the distances D and the large constant where the second stretch reads them, the result buffer ends at the loss's tail of the minimum over the splats of the choice between D and the large constant by I.
-/
import proofs.«173465_j90580860272868_2_alg».proof.Proof.RefSplit

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 200000 in
set_option maxHeartbeats 31600000 in
theorem tail_of (VA : Valuation τ sig (Elt F)) (I : (⟨S8x1x100000, .i1⟩ : BufTy).Contents (Elt F)) (D : (⟨S8x100x100000, .f32⟩ : BufTy).Contents (Elt F))
    (hI : (VA (Proc.devRef .tc main_v53) : (⟨S8x1x100000, .i1⟩ : BufTy).Contents (Elt F)) = I) (hD : (VA (Proc.devRef .tc main_v52) : (⟨S8x100x100000, .f32⟩ : BufTy).Contents (Elt F)) = D)
    (hc : (VA (Proc.devRef .tc main_cst_8) : (⟨S_, .f32⟩ : BufTy).Contents (Elt F)) = constant S_ .f32 0x4E6E6B28#32) :
    (after opsB VA (Proc.devRef .tc main_v59) : (⟨S_, .f32⟩ : BufTy).Contents (Elt F))
      = Stages.meanOf (Stages.clipNeg (Host.reduce FloatOps.minimumf
          (select (broadcastInDim S8x100x100000 ![0, 1, 2] bcast_S8x1x100000_S8x100x100000_0_1_2 I) D
            (broadcastInDim S8x100x100000 ![] bcast_S_S8x100x100000 (id (constant S_ .f32 0x4E6E6B28#32))))
          (constant S_ .f32 0x7F800000#32) reducesTo_S8x100x100000_S8x100_d2 h_S_)) := by
  after_results_simp
  simp only [TRef.toBuf, TRef.ofBuf, cast_eq, cast_cast]
  rw [hI, hD, hc]
  unfold Stages.meanOf Stages.clipNeg
  rfl

end Cert.ReferenceIdeal.RefRun

end
-- ==== Proof.RefRun.lean ====
/-
  The reference's run: every weakly fair execution of its @main terminates with the result buffer at the staged function of the five argument arrays and the arguments unchanged. The line's two stretches compose; the first leaves the three buffers the second reads at their staged values, and the second turns them into the result.
-/
import proofs.«173465_j90580860272868_2_alg».proof.Proof.RefSplit
import proofs.«173465_j90580860272868_2_alg».proof.Proof.RefTail

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]
variable (m : (ℓ : Loc nD τ sig) → Buf (Elt F) ℓ) (c : Dev nD)

/-- The result buffer after the whole line is the staged function of the five arguments. -/
theorem W_result : (W m c main_v59 : (⟨S_, .f32⟩ : BufTy).Contents (Elt F)) = Stages.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  show after ops (launchContents m c) (Proc.devRef .tc main_v59) = _
  rw [ops_split, Cert.AfterAppend.after_append, tail_of _ _ _ (A_v53 m c) (A_v52 m c) (A_cst8 m c)]
  unfold Stages.result Stages.colloss Stages.masked
  rfl

set_option maxRecDepth 200000 in
set_option maxHeartbeats 31600000 in
/-- On every device, from any memory with zero counters: @main terminates with the result at the staged function of
    the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v59) = Stages.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v59).trans (W_result m c),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl)⟩)
    (run_seq scopedRefs_eq scopedSems_eq defs main (fun _ => ops) main_eq (fun _ => ops_sub) m ρ)

end Cert.ReferenceIdeal.RefRun

end
-- ==== Proof.Pieces.lean ====
/-
  What one grid point leaves behind, as values.

  The body keeps a running minimum in a scratch column of 100 entries. At a batch's first tile it fills the
  column with the starting value and then takes one accumulate step from it; at every other tile it takes one
  accumulate step from what the tile before left; at a batch's last tile it also copies the column, recast
  as a block of the output, into the output's buffer. Each of these is read here off the stores the run found:
  a covering store's contents are its payload, and the payload's loads read whole buffers.
-/
import proofs.«173465_j90580860272868_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

variable (c : Dev nD) (i : grid0.Coords)
  (a2 : Memref sig .tc .vmem S1x100x3 .f32) (h2 : a2.IsWhole) (a3 : Memref sig .tc .vmem S1x100x1 .f32) (h3 : a3.IsWhole)
  (a4 : Memref sig .tc .vmem S3x12800 .f32) (h4 : a4.IsWhole) (a5 : Memref sig .tc .vmem S1x12800 .f32) (h5 : a5.IsWhole)
  (a6 : Memref sig .tc .vmem S1x1x12800 .f32) (h6 : a6.IsWhole) (a7 : Memref sig .tc .vmem S1x100x1 .f32) (h7 : a7.IsWhole)
  (a8 : Memref sig .tc .vmem S100x1 .f32) (h8 : a8.IsWhole)
  (x0 : Vec F S1x100x3 .f32) (x1 : Vec F S1x100x1 .f32) (x2 : Vec F S3x12800 .f32) (x3 : Vec F S1x12800 .f32)
  (x4 : Vec F S1x1x12800 .f32) (xs0 : Vec F S100x1 .f32)

/-- A middle tile: one accumulate step from the column the tile before left. -/
theorem scratch_mid (hc0 : ¬cond0_0 i) (hc1 : ¬cond0_1 i) :
    sout0_B_0 c i a2 h2 a3 h3 a4 h4 a5 h5 a6 h6 a7 h7 a8 h8 hc0 hc1 x0 x1 x2 x3 x4 xs0 = k0_pay3 x0 x1 x2 x3 x4 xs0 := by
  unfold sout0_B_0
  rw [View.read_writes_eq_canon _ _ _ (scover0_B_0 c i a2 h2 a3 h3 a4 h4 a5 h5 a6 h6 a7 h7 a8 h8 hc0 hc1 x0 x1 x2 x3 x4 xs0)]
  unfold kernelRun0_B
  dsimp only
  rw [View.canon_unit_zero hz2]
  simp only [View.readAt_eq_ld, h2.read_unread, h3.read_unread, h4.read_unread, h5.read_unread, h6.read_unread, h7.read_unread, h8.read_unread, View.ld_unit_zero (S := S1x100x3) hz3, View.ld_unit_zero (S := S1x100x1) hz3, View.ld_unit_zero (S := S3x12800) hz2, View.ld_unit_zero (S := S1x12800) hz2, View.ld_unit_zero (S := S1x1x12800) hz3, View.ld_unit_zero (S := S100x1) hz2]

/-- A batch's last tile: the same step for the scratch column. -/
theorem scratch_last (hc0 : ¬cond0_0 i) (hc1 : cond0_1 i) :
    sout0_C_0 c i a2 h2 a3 h3 a4 h4 a5 h5 a6 h6 a7 h7 a8 h8 hc0 hc1 x0 x1 x2 x3 x4 xs0 = k0_pay3 x0 x1 x2 x3 x4 xs0 := by
  unfold sout0_C_0
  rw [View.read_writes_eq_canon _ _ _ (scover0_C_0 c i a2 h2 a3 h3 a4 h4 a5 h5 a6 h6 a7 h7 a8 h8 hc0 hc1 x0 x1 x2 x3 x4 xs0)]
  unfold kernelRun0_C
  dsimp only
  sl_unfold_words
  rw [View.canon_unit_zero hz2]
  simp only [View.readAt_eq_ld, h2.read_unread, h3.read_unread, h4.read_unread, h5.read_unread, h6.read_unread, h7.read_unread, h8.read_unread, View.ld_unit_zero (S := S1x100x3) hz3, View.ld_unit_zero (S := S1x100x1) hz3, View.ld_unit_zero (S := S3x12800) hz2, View.ld_unit_zero (S := S1x12800) hz2, View.ld_unit_zero (S := S1x1x12800) hz3, View.ld_unit_zero (S := S100x1) hz2]

/-- A batch's first tile: the column is filled with the starting value, then one accumulate step from it. -/
theorem scratch_first (hc0 : cond0_0 i) (hc1 : ¬cond0_1 i) :
    sout0_A_0 c i a2 h2 a3 h3 a4 h4 a5 h5 a6 h6 a7 h7 a8 h8 hc0 hc1 x0 x1 x2 x3 x4 = k0_pay3 x0 x1 x2 x3 x4 (k0_pay2 (F := F)) := by
  unfold sout0_A_0
  rw [View.read_writes_eq_canon _ _ _ (scover0_A_0 c i a2 h2 a3 h3 a4 h4 a5 h5 a6 h6 a7 h7 a8 h8 hc0 hc1 x0 x1 x2 x3 x4)]
  unfold kernelRun0_A
  dsimp only
  sl_unfold_words
  rw [View.canon_cons_unit_zero (S := S100x1) hz2, View.readCov_unit_zero (S := S100x1) _ hz2]
  simp only [View.readAt_eq_ld, h2.read_unread, h3.read_unread, h4.read_unread, h5.read_unread, h6.read_unread, h7.read_unread, h8.read_unread, View.ld_unit_zero (S := S1x100x3) hz3, View.ld_unit_zero (S := S1x100x1) hz3, View.ld_unit_zero (S := S3x12800) hz2, View.ld_unit_zero (S := S1x12800) hz2, View.ld_unit_zero (S := S1x1x12800) hz3, View.ld_unit_zero (S := S100x1) hz2]

/-- A batch's last tile also leaves, in the output's buffer, the new column recast as a block [1,100,1]. -/
theorem out_last (hc0 : ¬cond0_0 i) (hc1 : cond0_1 i) :
    out0_C_5 c i a2 h2 a3 h3 a4 h4 a5 h5 a6 h6 a7 h7 a8 h8 hc0 hc1 x0 x1 x2 x3 x4 xs0 = k0_pay1 (k0_pay3 x0 x1 x2 x3 x4 xs0) := by
  unfold out0_C_5
  rw [View.read_writes_eq_canon _ _ _ (cover0_C_5 c i a2 h2 a3 h3 a4 h4 a5 h5 a6 h6 a7 h7 a8 h8 hc0 hc1 x0 x1 x2 x3 x4 xs0)]
  unfold kernelRun0_C
  dsimp only
  sl_unfold_words
  rw [View.canon_unit_zero hz3, View.readCov_unit_zero (S := S100x1) _ hz2]
  simp only [View.readAt_eq_ld, h2.read_unread, h3.read_unread, h4.read_unread, h5.read_unread, h6.read_unread, h7.read_unread, h8.read_unread, View.ld_unit_zero (S := S1x100x3) hz3, View.ld_unit_zero (S := S1x100x1) hz3, View.ld_unit_zero (S := S3x12800) hz2, View.ld_unit_zero (S := S1x12800) hz2, View.ld_unit_zero (S := S1x1x12800) hz3, View.ld_unit_zero (S := S100x1) hz2]

end Cert.KernelIdeal.Pieces

end
-- ==== Proof.LibAxisReads.lean ====
/-
  Reductions along ONE axis and rank-three layout steps, each read at an index given by its coordinates.

  A sum (or a maximum) along one axis of an array, read at a reduced index, ranges over the coordinates of the
  reduced axis with the other coordinates held: along the columns of a matrix [a, b] at row r it is over
  (r, k); along the middle axis of [a, b, c] at (p, q) over (p, k, q); along the last axis at (p, q)
  over (p, q, k). A maximum is the fold of max from the accumulator's value, in any order.

  A stack of m matrices [m, a, b] and the tall matrix [m * a, b] of their rows hold the same entries in the
  same row-major order: row p * a + q of the tall matrix is row q of matrix p. Inserting a unit axis moves
  nothing. A broadcast along an axis of extent one repeats the operand along it: the result at (p, q, r) reads
  the operand with 0 on each of its unit axes. General in the extents and in the element type.
-/
import Idealize.ShloMosaic.Lib.Pipeline.Value
import Idealize.ShloMosaic.Lib.ValueIdx
import Idealize.ShloMosaic.PureOps.Ideal.Laws

namespace Cert.AxisReads

open Idealize.ShloMosaic Idealize.ShloMosaic.ValueIdx

variable {α : Type}

/-! ## The reduced index with the coordinate put back -/

theorem lift_cols {a b : ℕ} (h : (⟨2, ![a, b]⟩ : Shape).Reduces [1] ⟨1, ![a]⟩) (r : Fin a)
    (k : Fin ((⟨2, ![a, b]⟩ : Shape).size 1)) : h.lift (ix1 r) k = ix2 r (⟨k.val, k.isLt⟩ : Fin b) := by
  funext c; apply Fin.ext
  fin_cases c <;> rfl

theorem lift_mid {a b c : ℕ} (h : (⟨3, ![a, b, c]⟩ : Shape).Reduces [1] ⟨2, ![a, c]⟩) (p : Fin a) (q : Fin c)
    (k : Fin ((⟨3, ![a, b, c]⟩ : Shape).size 1)) : h.lift (ix2 p q) k = ix3 p (⟨k.val, k.isLt⟩ : Fin b) q := by
  funext d; apply Fin.ext
  fin_cases d <;> rfl

theorem lift_last {a b c : ℕ} (h : (⟨3, ![a, b, c]⟩ : Shape).Reduces [2] ⟨2, ![a, b]⟩) (p : Fin a) (q : Fin b)
    (k : Fin ((⟨3, ![a, b, c]⟩ : Shape).size 2)) : h.lift (ix2 p q) k = ix3 p q (⟨k.val, k.isLt⟩ : Fin c) := by
  funext d; apply Fin.ext
  fin_cases d <;> rfl

/-! ## Sums along one axis (a kernel's f32 lane or sublane sum from the zero accumulator) -/

/-- Along the columns of [a, b], at row r: the sum over k of the entries (r, k). -/
theorem sum_cols {a b : ℕ} (src : FVec Ideal ⟨2, ![a, b]⟩ .f32) (h : (⟨2, ![a, b]⟩ : Shape).Reduces [1] ⟨1, ![a]⟩) (r : Fin a) :
    multiReduction .add [1] ⟨1, ![a]⟩ src 0x00000000#32 h (.inl rfl) rfl (ix1 r) = ∑ k : Fin b, src (ix2 r k) :=
  (Ideal.multiReduction_add_single src 0x00000000#32 h (.inl rfl) rfl (ix1 r)).trans
    (Finset.sum_congr rfl fun k _ => congrArg src (lift_cols h r k))

/-- Along the middle axis of [a, b, c], at (p, q): the sum over k of the entries (p, k, q). -/
theorem sum_mid {a b c : ℕ} (src : FVec Ideal ⟨3, ![a, b, c]⟩ .f32) (h : (⟨3, ![a, b, c]⟩ : Shape).Reduces [1] ⟨2, ![a, c]⟩)
    (p : Fin a) (q : Fin c) :
    multiReduction .add [1] ⟨2, ![a, c]⟩ src 0x00000000#32 h (.inl rfl) rfl (ix2 p q) = ∑ k : Fin b, src (ix3 p k q) :=
  (Ideal.multiReduction_add_single src 0x00000000#32 h (.inl rfl) rfl (ix2 p q)).trans
    (Finset.sum_congr rfl fun k _ => congrArg src (lift_mid h p q k))

/-- Along the last axis of [a, b, c], at (p, q): the sum over k of the entries (p, q, k). -/
theorem sum_last {a b c : ℕ} (src : FVec Ideal ⟨3, ![a, b, c]⟩ .f32) (h : (⟨3, ![a, b, c]⟩ : Shape).Reduces [2] ⟨2, ![a, b]⟩)
    (p : Fin a) (q : Fin b) :
    multiReduction .add [2] ⟨2, ![a, b]⟩ src 0x00000000#32 h (.inl rfl) rfl (ix2 p q) = ∑ k : Fin c, src (ix3 p q k) :=
  (Ideal.multiReduction_add_single src 0x00000000#32 h (.inl rfl) rfl (ix2 p q)).trans
    (Finset.sum_congr rfl fun k _ => congrArg src (lift_last h p q k))

/-! ## Maxima along the columns, from the accumulator at minus infinity -/

/-- A kernel's row maximum of [a, b] at row r: the fold of max from the accumulator's value over the entries (r, k). -/
theorem max_cols {a b : ℕ} (src : FVec Ideal ⟨2, ![a, b]⟩ .f32) (h : (⟨2, ![a, b]⟩ : Shape).Reduces [1] ⟨1, ![a]⟩) (r : Fin a) :
    multiReduction .maximumf [1] ⟨1, ![a]⟩ src 0xFF800000#32 h (.inl rfl) rfl (ix1 r)
      = (Finset.univ : Finset (Fin b)).fold max (Ideal.ofBits .f32 0xFF800000#32) (fun k => src (ix2 r k)) :=
  (Ideal.multiReduction_maximumf_single src 0xFF800000#32 h (.inl rfl) rfl (ix1 r)).trans
    (congrArg ((Finset.univ : Finset (Fin b)).fold max (Ideal.ofBits .f32 0xFF800000#32))
      (funext fun k => congrArg src (lift_cols h r k)))

/-- The host's reduce with a maximum body along the columns of [a, b], at row r, from a rank-zero initial value. -/
theorem hostMax_cols {a b : ℕ} (x : FVec Ideal ⟨2, ![a, b]⟩ .f32) (init : FVec Ideal ⟨0, ![]⟩ .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (r : Fin a) :
    Host.reduce FloatOps.maximumf x init h' hu (ix1 r)
      = (Finset.univ : Finset (Fin b)).fold max (init ix0) (fun k => x (ix2 r k)) := by
  rw [Host.reduce_eq_fold_single FloatOps.maximumf x init h' h hu (ix1 r)]
  have e0 : Shape.Idx.first hu = ix0 := funext fun d => d.elim0
  rw [e0]
  exact congrArg ((Finset.univ : Finset (Fin b)).fold max (init ix0)) (funext fun k => congrArg x (lift_cols h r k))

/-! ## A stack of matrices and the tall matrix of their rows -/

/-- The stack [m, a, b] cast to the tall matrix [n, b], n = m * a: row p * a + q is row q of matrix p. -/
theorem shapeCast_stack_tall_apply {m a b n : ℕ} (x : (⟨3, ![m, a, b]⟩ : Shape).Idx → α)
    (h : (⟨3, ![m, a, b]⟩ : Shape).ShapeCasts ⟨2, ![n, b]⟩) (r : Fin n) (p : Fin m) (q : Fin a) (d : Fin b)
    (hr : r.val = p.val * a + q.val) : shapeCast ⟨2, ![n, b]⟩ x h (ix2 r d) = x (ix3 p q d) :=
  shapeCast_apply x h _ _ (by
    rw [Shape.rowMajor_val_three, Shape.rowMajor_val_two]
    show (p.val * a + q.val) * b + d.val = r.val * b + d.val
    rw [hr])

/-- The tall matrix [n, b], n = m * a, cast to the stack [m, a, b]: row q of matrix p is row p * a + q. -/
theorem shapeCast_tall_stack_apply {m a b n : ℕ} (x : (⟨2, ![n, b]⟩ : Shape).Idx → α)
    (h : (⟨2, ![n, b]⟩ : Shape).ShapeCasts ⟨3, ![m, a, b]⟩) (r : Fin n) (p : Fin m) (q : Fin a) (d : Fin b)
    (hr : r.val = p.val * a + q.val) : shapeCast ⟨3, ![m, a, b]⟩ x h (ix3 p q d) = x (ix2 r d) :=
  shapeCast_apply x h _ _ (by
    rw [Shape.rowMajor_val_three, Shape.rowMajor_val_two]
    show r.val * b + d.val = (p.val * a + q.val) * b + d.val
    rw [hr])

/-! ## A unit axis inserted -/

/-- [a, b] cast to [a, 1, b] reads, at (i, u, j), the operand at (i, j). -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- [a, b] cast to [a, b, 1] reads, at (i, j, u), the operand at (i, j). -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-! ## Broadcasts along unit axes of a rank-three array -/

/-- [a, 1, c] broadcast to [a, b, c] reads, at (p, q, r), the operand at (p, 0, r). -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ v h (ix3 p q r) = v (ix3 p (0 : Fin 1) r) := by
  refine broadcastTo_apply v h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

/-- [1, b, c] broadcast to [a, b, c] reads, at (p, q, r), the operand at (0, q, r). -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ v h (ix3 p q r) = v (ix3 (0 : Fin 1) q r) := by
  refine broadcastTo_apply v h (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

/-- [a, b, 1] broadcast to [a, b, c] reads, at (p, q, r), the operand at (p, q, 0). -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q (0 : Fin 1)) := by
  refine broadcastTo_apply v h (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- [a, 1, 1] broadcast to [a, b, c] reads, at (p, q, r), the operand at (p, 0, 0). -/
theorem broadcastTo_a11_abc_apply {a b c : ℕ} (v : (⟨3, ![a, 1, 1]⟩ : Shape).Idx → α)
    (h : (⟨3, ![a, 1, 1]⟩ : Shape).Broadcasts ⟨3, ![a, b, c]⟩) (p : Fin a) (q : Fin b) (r : Fin c) :
    broadcastTo ⟨3, ![a, b, c]⟩ v h (ix3 p q r) = v (ix3 p (0 : Fin 1) (0 : Fin 1)) := by
  refine broadcastTo_apply v h (ix3 p q r) (ix3 p (0 : Fin 1) (0 : Fin 1)) fun ax => ?_
  match ax with
  | ⟨0, _⟩ =>
    show p.val = if a = 1 then 0 else p.val
    split
    · have := p.isLt; omega
    · rfl
  | ⟨1, _⟩ => rfl
  | ⟨2, _⟩ => rfl

end Cert.AxisReads
-- ==== Proof.LibMinReads.lean ====
/-
  Minima along one axis, read at coordinates at the exact values.

  A kernel's f32 multi_reduction <minimumf> from the accumulator at plus infinity along the columns of [a, b], and
  the host's reduce with a minimum body along the last axis of [a, b, c], are each the fold of min over that
  axis's coordinates; since the fold starts at plus infinity (the top element), a lower bound of the result is
  exactly a lower bound of every entry. General in the extents.
-/
import proofs.«173465_j90580860272868_2_alg».proof.Proof.LibAxisReads

noncomputable section

namespace Cert.MinReads

open Idealize.ShloMosaic Idealize.ShloMosaic.ValueIdx Cert.AxisReads

/-- The f32 word 0x7F800000 is plus infinity, the top extended real. -/
theorem ofBits_pos_inf : Ideal.ofBits .f32 0x7F800000#32 = (⊤ : EReal) := by
  simp [Ideal.ofBits, Ideal.ieee]

/-- A float multi_reduction <minimumf> over one axis: the fold of min from the accumulator's value over that axis. -/
theorem multiReduction_minimumf_single {s t : Shape} {φ : FTy} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- A kernel's row minimum of [a, b] at row r, from plus infinity: the fold of min over the entries (r, k). -/
theorem min_cols {a b : ℕ} (src : FVec Ideal ⟨2, ![a, b]⟩ .f32) (h : (⟨2, ![a, b]⟩ : Shape).Reduces [1] ⟨1, ![a]⟩) (r : Fin a) :
    multiReduction .minimumf [1] ⟨1, ![a]⟩ src 0x7F800000#32 h (.inl rfl) rfl (ix1 r)
      = (Finset.univ : Finset (Fin b)).fold min (Ideal.ofBits .f32 0x7F800000#32) (fun k => src (ix2 r k)) :=
  (multiReduction_minimumf_single src 0x7F800000#32 h (.inl rfl) rfl (ix1 r)).trans
    (congrArg ((Finset.univ : Finset (Fin b)).fold min (Ideal.ofBits .f32 0x7F800000#32))
      (funext fun k => congrArg src (lift_cols h r k)))

/-- A lower bound of that row minimum is a lower bound of every entry of the row. -/
theorem le_min_cols_iff {a b : ℕ} (src : FVec Ideal ⟨2, ![a, b]⟩ .f32) (h : (⟨2, ![a, b]⟩ : Shape).Reduces [1] ⟨1, ![a]⟩)
    (r : Fin a) (z : EReal) :
    z ≤ multiReduction .minimumf [1] ⟨1, ![a]⟩ src 0x7F800000#32 h (.inl rfl) rfl (ix1 r) ↔ ∀ k : Fin b, z ≤ src (ix2 r k) := by
  rw [min_cols, Finset.le_fold_min, ofBits_pos_inf]
  exact ⟨fun hh k => hh.2 k (Finset.mem_univ k), fun hh => ⟨le_top, fun k _ => hh k⟩⟩

/-- The host's reduce with a minimum body along the last axis of [a, b, c] at (p, q), from a rank-zero initial value. -/
theorem hostMin_last {a b c : ℕ} (x : FVec Ideal ⟨3, ![a, b, c]⟩ .f32) (init : FVec Ideal ⟨0, ![]⟩ .f32)
    (h' : (⟨3, ![a, b, c]⟩ : Shape).ReducesTo [2] ⟨2, ![a, b]⟩) (h : (⟨3, ![a, b, c]⟩ : Shape).Reduces [2] ⟨2, ![a, b]⟩)
    (hu : 0 < (⟨0, ![]⟩ : Shape).numel) (p : Fin a) (q : Fin b) :
    Host.reduce FloatOps.minimumf x init h' hu (ix2 p q)
      = (Finset.univ : Finset (Fin c)).fold min (init ix0) (fun k => x (ix3 p q k)) := by
  rw [Host.reduce_eq_fold_single FloatOps.minimumf x init h' h hu (ix2 p q)]
  have e0 : Shape.Idx.first hu = ix0 := funext fun d => d.elim0
  rw [e0]
  exact congrArg ((Finset.univ : Finset (Fin c)).fold min (init ix0)) (funext fun k => congrArg x (lift_last h p q k))

/-- When the initial value is plus infinity, a lower bound of that minimum is a lower bound of every entry. -/
theorem le_hostMin_last_iff {a b c : ℕ} (x : FVec Ideal ⟨3, ![a, b, c]⟩ .f32) (init : FVec Ideal ⟨0, ![]⟩ .f32)
    (h' : (⟨3, ![a, b, c]⟩ : Shape).ReducesTo [2] ⟨2, ![a, b]⟩) (h : (⟨3, ![a, b, c]⟩ : Shape).Reduces [2] ⟨2, ![a, b]⟩)
    (hu : 0 < (⟨0, ![]⟩ : Shape).numel) (hinit : init ix0 = (⊤ : EReal)) (p : Fin a) (q : Fin b) (z : EReal) :
    z ≤ Host.reduce FloatOps.minimumf x init h' hu (ix2 p q) ↔ ∀ k : Fin c, z ≤ x (ix3 p q k) := by
  rw [hostMin_last x init h' h hu p q, Finset.le_fold_min, hinit]
  exact ⟨fun hh k => hh.2 k (Finset.mem_univ k), fun hh => ⟨le_top, fun k _ => hh k⟩⟩

end Cert.MinReads

end
-- ==== Proof.LibMatmulPlain.lean ====
/-
  A plain matrix product read at an index.

  A `tpu.matmul` of a left operand `[M, K]` by a right operand `[K, N]` that contracts the left operand's second
  axis against the right operand's first, with no batch axis, started from the zero accumulator, is at the exact
  values the textbook product: entry `(p, o)` is the sum over `k : Fin K` of `l (p, k) * r (k, o)`. The operand
  indices a contraction position selects are read off the dimension record axis by axis: a contracted axis takes
  the contraction coordinate, the left operand's free axis the result's row, the right operand's free axis the
  result's column. Stated for any record whose six axis lists are `[1] [0] [0] [1] [] []` (on a printed record each
  hypothesis is `rfl`), general in the three extents and in the operands' float formats.
-/
import Idealize.ShloMosaic.PureOps.Ideal.Laws
import Idealize.ShloMosaic.Lib.ValueIdx

noncomputable section

open scoped BigOperators

namespace Cert.MatmulPlain

open Idealize.ShloMosaic Idealize.ShloMosaic.ValueIdx

variable {M K N : ℕ}

/-- A coordinate of `ix2 p o` read at an axis number known only through an equation. -/
private theorem ix2_val_of_eq {a b : ℕ} (p : Fin a) (o : Fin b) (q : ℕ) (hq : q < 2) :
    (q = 0 → ((ix2 p o : (⟨2, ![a, b]⟩ : Shape).Idx) ⟨q, hq⟩).val = p.val)
    ∧ (q = 1 → ((ix2 p o : (⟨2, ![a, b]⟩ : Shape).Idx) ⟨q, hq⟩).val = o.val) :=
  ⟨fun h => by subst h; rfl, fun h => by subst h; rfl⟩

/-- The one contracted axis has extent `K`, and the contraction shape has that one axis. -/
theorem contr_rank (d : DotDims ⟨2, ![M, K]⟩ ⟨2, ![K, N]⟩ ⟨2, ![M, N]⟩) (hlc : d.lhsContracting = [1]) :
    d.contr.rank = 1 := by rw [d.rank_contr, hlc]; rfl

theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  rw [d.size_contr 0 (by rw [hlc]; exact Nat.one_pos)]
  have : d.lhsContracting[0]'(by rw [hlc]; exact Nat.one_pos) = (1 : Fin 2) := by simp [hlc]
  rw [this]; rfl

/-- The left operand's index at result `(p, o)` and contraction coordinate `k` is `(p, k)`. -/
theorem lhsIdx_eq (d : DotDims ⟨2, ![M, K]⟩ ⟨2, ![K, N]⟩ ⟨2, ![M, N]⟩)
    (hlc : d.lhsContracting = [1]) (hln : d.lhsNonContracting = [0]) (hlb : d.lhsBatch = [])
    (p : Fin M) (o : Fin N) (k : Fin K) :
    d.lhsIdx (ix2 p o) ((contrEquiv1 d K (contr_rank d hlc) (contr_size d hlc)).symm k) = ix2 p k := by
  have hk := contrEquiv1_symm_val d K (contr_rank d hlc) (contr_size d hlc) k
  funext a
  apply Fin.ext
  match a with
  | ⟨0, _⟩ =>
    unfold DotDims.lhsIdx
    rw [dif_neg (by rw [hlb]; exact List.not_mem_nil), dif_pos (by rw [hln]; exact List.mem_singleton.mpr rfl)]
    simp only [Fin.val_cast]
    exact (ix2_val_of_eq p o _ _).1 (by simp [hlb, hln])
  | ⟨1, _⟩ => exact (d.lhsIdx_val_of_single hlc _ _).trans hk

/-- The right operand's index at result `(p, o)` and contraction coordinate `k` is `(k, o)`. -/
theorem rhsIdx_eq (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (p : Fin M) (o : Fin N) (k : Fin K) :
    d.rhsIdx (ix2 p o) ((contrEquiv1 d K (contr_rank d hlc) (contr_size d hlc)).symm k) = ix2 k o := by
  have hk := contrEquiv1_symm_val d K (contr_rank d hlc) (contr_size d hlc) k
  funext a
  apply Fin.ext
  match a with
  | ⟨0, _⟩ => exact (d.rhsIdx_val_of_single hrc _ _).trans hk
  | ⟨1, _⟩ =>
    unfold DotDims.rhsIdx
    rw [dif_neg (by rw [hrb]; exact List.not_mem_nil), dif_pos (by rw [hrn]; exact List.mem_singleton.mpr rfl)]
    simp only [Fin.val_cast]
    exact (ix2_val_of_eq p o _ _).2 (by simp [hlb, hln, hrn])

/-- A plain matrix product from the zero accumulator, read at `(p, o)`: `∑ k, l (p, k) * r (k, o)`. -/
theorem matmul_plain_apply {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂)
    (p : Fin M) (o : Fin N) :
    FloatOps.matmul d prec l r (constant (F := Ideal) ⟨2, ![M, N]⟩ .f32 0x00000000#32) (ix2 p o)
      = ∑ k : Fin K, l (ix2 p k) * r (ix2 k o) := by
  rw [Ideal.matmul_constant_zero_apply,
    ← Equiv.sum_comp (contrEquiv1 d K (contr_rank d hlc) (contr_size d hlc)).symm]
  refine Finset.sum_congr rfl fun k _ => ?_
  rw [lhsIdx_eq d hlc hln hlb p o k, rhsIdx_eq d hlc hrc hln hrn hlb hrb p o k]

end Cert.MatmulPlain

end
-- ==== Proof.LibColumnForms.lean ====
/-
  Two layout operations on a COLUMN, read at an index given by its coordinates.

  A row-wise reduction with `keepdims` leaves its result as a column: a vector of `a` entries is cast to the
  shape `[a, 1]`, and the column is then broadcast along the second axis to `[a, b]`. Each of the two steps
  reads, at an index of its result, the operand at one index: the cast at `(i, u)` reads entry `i` (the unit
  coordinate `u` is `0` and carries nothing), and the broadcast at `(p, c)` reads the column's entry `(p, 0)`
  (the column is constant along the second axis). General in the extents and in the element type.
-/
import Idealize.ShloMosaic.Lib.Pipeline.Value
import Idealize.ShloMosaic.Lib.ValueIdx

namespace Cert.ColumnForms

open Idealize.ShloMosaic Idealize.ShloMosaic.ValueIdx

variable {α : Type}

/-- A vector of `a` entries cast to the column shape `[a, 1]` reads, at `(i, u)`, entry `i`: both indices have
    row-major position `i`, since the unit coordinate is `0`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `(p, 0)`: the first axis is
    kept (or has extent one, where `p` is `0` anyway), the second is the column's unit axis. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.ColumnForms
-- ==== Proof.Step.lean ====
/-
  One accumulate step of the running minimum, entry by entry, at the exact values.

  A tile's step takes the batch's trajectory block x0 [1,100,3], its squared norms x1 [1,100,1], the tile's
  splat centres x2 [3,12800] with their squared norms x3 [1,12800] and offsets x4 [1,1,12800], and the column
  acc [100,1] so far. Entry (t, l) of the tile is

      sqrt (max ((x1 t + x3 l) - 2 · Σ_k x0 (t,k) · x2 (k,l)) 0) - x4 l,

  and row t of the new column is the minimum of acc t and of the entries (t, l) over the tile's lanes l. A lower
  bound of the new entry is therefore exactly a lower bound of the old entry and of every entry of the row.
-/
import proofs.«173465_j90580860272868_2_alg».proof.Proof.Gen.KernelIdeal.Skeleton
import proofs.«173465_j90580860272868_2_alg».proof.Proof.LibMinReads
import proofs.«173465_j90580860272868_2_alg».proof.Proof.LibMatmulPlain
import proofs.«173465_j90580860272868_2_alg».proof.Proof.LibColumnForms
import Idealize.ShloMosaic.Lib.ValueLayout

noncomputable section

open Idealize.ShloMosaic Idealize.ShloMosaic.TcCoe Idealize.ShloMosaic.ValueIdx

namespace Cert.KernelIdeal.Step

open Cert.KernelIdeal Cert.KernelIdeal.Gen

variable (x0 : Vec Ideal S1x100x3 .f32) (x1 : Vec Ideal S1x100x1 .f32) (x2 : Vec Ideal S3x12800 .f32)
  (x3 : Vec Ideal S1x12800 .f32) (x4 : Vec Ideal S1x1x12800 .f32) (acc : Vec Ideal S100x1 .f32)

/-- Entry (t, l) of a tile: the clipped distance from trajectory point t to the tile's splat l, less the splat's offset. -/
def entry (t : Fin 100) (l : Fin 12800) : EReal :=
  Ideal.sqrt (max ((x1 (ix3 (0 : Fin 1) t (0 : Fin 1)) + x3 (ix2 (0 : Fin 1) l))
      - Ideal.ofBits .f32 0x40000000#32 * ∑ k : Fin 3, x0 (ix3 (0 : Fin 1) t k) * x2 (ix2 k l))
    (Ideal.ofBits .f32 0x00000000#32)) - x4 (ix3 (0 : Fin 1) (0 : Fin 1) l)

/-- The tile the step reduces, before the reduction: the body's operations up to the subtraction of the offsets. -/
def tile : FVec Ideal S100x12800 .f32 :=
  have v4 : FVec Ideal S100x3 .f32 := shapeCast S100x3 x0 shapeCasts_S1x100x3_S100x3
  have v6 : FVec Ideal S100x1 .f32 := shapeCast S100x1 x1 shapeCasts_S1x100x1_S100x1
  have v8 : FVec Ideal S3x12800 .f32 := shapeCast S3x12800 x2 shapeCasts_S3x12800_S3x12800
  have v10 : FVec Ideal S1x12800 .f32 := shapeCast S1x12800 x3 shapeCasts_S1x12800_S1x12800
  have v12 : FVec Ideal S1x12800 .f32 := shapeCast S1x12800 x4 shapeCasts_S1x1x12800_S1x12800
  have cst : FVec Ideal S100x12800 .f32 := constant S100x12800 .f32 0x00000000#32
  have v13 : FVec Ideal S100x12800 .f32 := matmul dot_S100x3_S3x12800_S100x12800_1_0_0_1_n_n (some .fp32) v4 v8 cst
  have v14 : FVec Ideal S100x12800 .f32 := broadcastTo S100x12800 v6 broadcasts_S100x1_S100x12800
  have v15 : FVec Ideal S100x12800 .f32 := broadcastTo S100x12800 v10 broadcasts_S1x12800_S100x12800
  have v16 : FVec Ideal S100x12800 .f32 := addf v14 v15
  have v17 : FVec Ideal S100x12800 .f32 := broadcast S100x12800 (Scalar.ofBits .f32 0x40000000#32)
  have v18 : FVec Ideal S100x12800 .f32 := mulf v17 v13
  have v19 : FVec Ideal S100x12800 .f32 := subf v16 v18
  have v20 : FVec Ideal S100x12800 .f32 := broadcast S100x12800 (Scalar.ofBits .f32 0x00000000#32)
  have v21 : FVec Ideal S100x12800 .f32 := maximumf v19 v20
  have v22 : FVec Ideal S100x12800 .f32 := sqrt v21
  have v23 : FVec Ideal S100x12800 .f32 := broadcastTo S100x12800 v12 broadcasts_S1x12800_S100x12800
  subf v22 v23

theorem tile_apply (t : Fin 100) (l : Fin 12800) : tile x0 x1 x2 x3 x4 (ix2 t l) = entry x0 x1 x2 x3 x4 t l := by
  have e1 : broadcastTo S100x12800 (shapeCast S100x1 x1 shapeCasts_S1x100x1_S100x1 : FVec Ideal S100x1 .f32) broadcasts_S100x1_S100x12800 (ix2 t l)
      = x1 (ix3 (0 : Fin 1) t (0 : Fin 1)) := by
    rw [Cert.ColumnForms.broadcastTo_a1_ab_apply, shapeCast_1ab_ab_apply]
  have e3 : broadcastTo S100x12800 (shapeCast S1x12800 x3 shapeCasts_S1x12800_S1x12800 : FVec Ideal S1x12800 .f32) broadcasts_S1x12800_S100x12800 (ix2 t l)
      = x3 (ix2 (0 : Fin 1) l) := by
    rw [broadcastTo_1b_ab_apply, shapeCast_self]
  have e4 : broadcastTo S100x12800 (shapeCast S1x12800 x4 shapeCasts_S1x1x12800_S1x12800 : FVec Ideal S1x12800 .f32) broadcasts_S1x12800_S100x12800 (ix2 t l)
      = x4 (ix3 (0 : Fin 1) (0 : Fin 1) l) := by
    rw [broadcastTo_1b_ab_apply, shapeCast_1ab_ab_apply]
  have em : matmul dot_S100x3_S3x12800_S100x12800_1_0_0_1_n_n (some .fp32) (shapeCast S100x3 x0 shapeCasts_S1x100x3_S100x3 : FVec Ideal S100x3 .f32)
        (shapeCast S3x12800 x2 shapeCasts_S3x12800_S3x12800 : FVec Ideal S3x12800 .f32) (constant S100x12800 .f32 0x00000000#32) (ix2 t l)
      = ∑ k : Fin 3, x0 (ix3 (0 : Fin 1) t k) * x2 (ix2 k l) := by
    refine (Cert.MatmulPlain.matmul_plain_apply dot_S100x3_S3x12800_S100x12800_1_0_0_1_n_n rfl rfl rfl rfl rfl rfl
      (some .fp32) _ _ t l).trans (Finset.sum_congr rfl fun k _ => ?_)
    rw [shapeCast_1ab_ab_apply, shapeCast_self]
  show Ideal.sqrt (max ((_ + _) - Ideal.ofBits .f32 0x40000000#32 * _) (Ideal.ofBits .f32 0x00000000#32)) - _ = _
  rw [e1, e3, e4, em]
  rfl

/-- The step is the entrywise minimum of the column so far and the tile's row minima. -/
theorem step_eq : k0_pay3 (F := Ideal) x0 x1 x2 x3 x4 acc
    = minimumf acc (shapeCast S100x1 (multiReduction .minimumf [1] S100 (tile x0 x1 x2 x3 x4) 0x7F800000#32
        reduces_S100x12800_S100 (.inl rfl) rfl) shapeCasts_S100_S100x1) := by
  unfold k0_pay3 tile
  exact shapeCast_self _ _

/-- A lower bound of row t of the new column: a lower bound of row t of the old one and of every entry of row t of the tile. -/
theorem le_step_iff (t : Fin 100) (z : EReal) :
    z ≤ k0_pay3 (F := Ideal) x0 x1 x2 x3 x4 acc (ix2 t (0 : Fin 1))
      ↔ z ≤ acc (ix2 t (0 : Fin 1)) ∧ ∀ l : Fin 12800, z ≤ entry x0 x1 x2 x3 x4 t l := by
  rw [step_eq]
  show z ≤ min (acc (ix2 t (0 : Fin 1))) (shapeCast S100x1 _ shapeCasts_S100_S100x1 (ix2 t (0 : Fin 1))) ↔ _
  rw [Cert.ColumnForms.shapeCast_a_a1_apply, le_min_iff, Cert.MinReads.le_min_cols_iff]
  exact and_congr_right fun _ => forall_congr' fun l => by rw [tile_apply]

end Cert.KernelIdeal.Step

end
-- ==== Proof.Blocks.lean ====
/-
  What each input window holds at a grid point. Point t of the 8 × 8 grid works on batch t / 8 and tile t % 8: the
  trajectory and squared-norm windows hold batch t / 8's rows, the centre, squared-norm and offset windows hold lanes
  (t % 8) · 12800 … of their padded arrays. A block's entry is the array's entry at block index × block size + the
  coordinate inside the block, axis by axis.
-/
import proofs.«173465_j90580860272868_2_alg».proof.Proof.Gen.KernelIdeal.Frame
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx

namespace Cert.KernelIdeal.Blocks

open Cert.KernelIdeal Cert.KernelIdeal.Gen

variable (m : (ℓ : Loc nD τ sig) → Buf (Elt Ideal) ℓ) (c : Dev nD)

theorem N64 : cfg0.N = 64 := N_0

/-- The batch a grid point works on. -/
def batch (t : Fin cfg0.N) : Fin 8 := ⟨t.val / 8, by have := t.isLt; have h := N64; omega⟩

/-- Lane l of the tile a grid point works on, as a lane of the padded arrays. -/
def lane (t : Fin cfg0.N) (l : Fin 12800) : Fin 102400 :=
  ⟨t.val % 8 * 12800 + l.val, by have := l.isLt; have : t.val % 8 < 8 := Nat.mod_lt _ (by decide); omega⟩

theorem idx0 : ∀ t : Fin cfg0.N, win0_0.index t 0 = t.val / 8 ∧ win0_0.index t 1 = 0 ∧ win0_0.index t 2 = 0 :=
  (by decide +kernel : ∀ t : Fin grid0.N, _)
theorem idx1 : ∀ t : Fin cfg0.N, win0_1.index t 0 = t.val / 8 ∧ win0_1.index t 1 = 0 ∧ win0_1.index t 2 = 0 :=
  (by decide +kernel : ∀ t : Fin grid0.N, _)
theorem idx2 : ∀ t : Fin cfg0.N, win0_2.index t 0 = 0 ∧ win0_2.index t 1 = t.val % 8 :=
  (by decide +kernel : ∀ t : Fin grid0.N, _)
theorem idx3 : ∀ t : Fin cfg0.N, win0_3.index t 0 = 0 ∧ win0_3.index t 1 = t.val % 8 :=
  (by decide +kernel : ∀ t : Fin grid0.N, _)
theorem idx4 : ∀ t : Fin cfg0.N, win0_4.index t 0 = t.val / 8 ∧ win0_4.index t 1 = 0 ∧ win0_4.index t 2 = t.val % 8 :=
  (by decide +kernel : ∀ t : Fin grid0.N, _)

theorem blk0_apply (t : Fin cfg0.N) (p : Fin 100) (k : Fin 3) :
    (iblk m c 0 t : Vec Ideal S1x100x3 .f32) (ix3 (0 : Fin 1) p k) = (V m c main_v10 : S8x100x3.Idx → EReal) (ix3 (batch t) p k) := by
  unfold iblk
  rw [View.read_apply]
  show (V m c main_v10 : S8x100x3.Idx → EReal) _ = _
  refine congrArg _ (funext fun a => Fin.ext ?_)
  match a with
    | ⟨0, _⟩ => show win0_0.index t 0 * 1 + 1 * (0 : ℕ) = t.val / 8; rw [(idx0 t).1]; omega
    | ⟨1, _⟩ => show win0_0.index t 1 * 100 + 1 * p.val = p.val; rw [(idx0 t).2.1]; omega
    | ⟨2, _⟩ => show win0_0.index t 2 * 3 + 1 * k.val = k.val; rw [(idx0 t).2.2]; omega

theorem blk1_apply (t : Fin cfg0.N) (p : Fin 100) (u : Fin 1) :
    (iblk m c 1 t : Vec Ideal S1x100x1 .f32) (ix3 (0 : Fin 1) p u) = (V m c main_v45 : S8x100x1.Idx → EReal) (ix3 (batch t) p u) := by
  unfold iblk
  rw [View.read_apply]
  show (V m c main_v45 : S8x100x1.Idx → EReal) _ = _
  refine congrArg _ (funext fun a => Fin.ext ?_)
  match a with
    | ⟨0, _⟩ => show win0_1.index t 0 * 1 + 1 * (0 : ℕ) = t.val / 8; rw [(idx1 t).1]; omega
    | ⟨1, _⟩ => show win0_1.index t 1 * 100 + 1 * p.val = p.val; rw [(idx1 t).2.1]; omega
    | ⟨2, _⟩ => show win0_1.index t 2 * 1 + 1 * u.val = u.val; rw [(idx1 t).2.2]; omega

theorem blk2_apply (t : Fin cfg0.N) (k : Fin 3) (l : Fin 12800) :
    (iblk m c 2 t : Vec Ideal S3x12800 .f32) (ix2 k l) = (V m c main_v41 : S3x102400.Idx → EReal) (ix2 k (lane t l)) := by
  unfold iblk
  rw [View.read_apply]
  show (V m c main_v41 : S3x102400.Idx → EReal) _ = _
  refine congrArg _ (funext fun a => Fin.ext ?_)
  match a with
    | ⟨0, _⟩ => show win0_2.index t 0 * 3 + 1 * k.val = k.val; rw [(idx2 t).1]; omega
    | ⟨1, _⟩ => show win0_2.index t 1 * 12800 + 1 * l.val = t.val % 8 * 12800 + l.val; rw [(idx2 t).2]; omega

theorem blk3_apply (t : Fin cfg0.N) (u : Fin 1) (l : Fin 12800) :
    (iblk m c 3 t : Vec Ideal S1x12800 .f32) (ix2 u l) = (V m c main_v43 : S1x102400.Idx → EReal) (ix2 u (lane t l)) := by
  unfold iblk
  rw [View.read_apply]
  show (V m c main_v43 : S1x102400.Idx → EReal) _ = _
  refine congrArg _ (funext fun a => Fin.ext ?_)
  match a with
    | ⟨0, _⟩ => show win0_3.index t 0 * 1 + 1 * u.val = u.val; rw [(idx3 t).1]; omega
    | ⟨1, _⟩ => show win0_3.index t 1 * 12800 + 1 * l.val = t.val % 8 * 12800 + l.val; rw [(idx3 t).2]; omega

theorem blk4_apply (t : Fin cfg0.N) (u v : Fin 1) (l : Fin 12800) :
    (iblk m c 4 t : Vec Ideal S1x1x12800 .f32) (ix3 u v l) = (V m c main_v46 : S8x1x102400.Idx → EReal) (ix3 (batch t) v (lane t l)) := by
  unfold iblk
  rw [View.read_apply]
  show (V m c main_v46 : S8x1x102400.Idx → EReal) _ = _
  refine congrArg _ (funext fun a => Fin.ext ?_)
  match a with
    | ⟨0, _⟩ => show win0_4.index t 0 * 1 + 1 * u.val = t.val / 8; rw [(idx4 t).1]; omega
    | ⟨1, _⟩ => show win0_4.index t 1 * 1 + 1 * v.val = v.val; rw [(idx4 t).2.1]; omega
    | ⟨2, _⟩ => show win0_4.index t 2 * 12800 + 1 * l.val = t.val % 8 * 12800 + l.val; rw [(idx4 t).2.2]; omega

end Cert.KernelIdeal.Blocks

end
-- ==== Proof.Invariant.lean ====
/-
  The running minimum, point by point.

  For batch b, trajectory point t and lane j of the padded splat axis, the tile entry is

      kEntry b t j = sqrt (max ((|r_bt|² + msq j) - 2 · Σ_k R (b,t,k) · centre (k,j)) 0) - offset (b,j),

  over the arrays the windows read. After the grid point of batch b and tile i, row t of the scratch column is the
  minimum of the starting value and of kEntry b t j over the lanes j < (i + 1) · 12800 — stated by its lower
  bounds, and proved by induction on the point: a batch's first tile starts from the starting value, every other
  tile continues from the column the point before left.
-/
import proofs.«173465_j90580860272868_2_alg».proof.Proof.Pieces
import proofs.«173465_j90580860272868_2_alg».proof.Proof.Step
import proofs.«173465_j90580860272868_2_alg».proof.Proof.Blocks

set_option maxRecDepth 16384

noncomputable section

open Idealize.ShloMosaic Idealize.ShloMosaic.TcCoe Idealize.SL.Sem Idealize.ShloMosaic.ValueIdx

namespace Cert.KernelIdeal.Invariant

open Cert.KernelIdeal Cert.KernelIdeal.Gen Cert.KernelIdeal.Blocks

variable (m : (ℓ : Loc nD τ sig) → Buf (Elt Ideal) ℓ) (c : Dev nD)

/-- The value the scratch column starts from at a batch's first tile. -/
def big : EReal := Ideal.ofBits .f32 0x4E6E6B28#32

/-- The five arrays the windows read, at their value types. -/
abbrev A10 : S8x100x3.Idx → EReal := V m c main_v10
abbrev A45 : S8x100x1.Idx → EReal := V m c main_v45
abbrev A41 : S3x102400.Idx → EReal := V m c main_v41
abbrev A43 : S1x102400.Idx → EReal := V m c main_v43
abbrev A46 : S8x1x102400.Idx → EReal := V m c main_v46

/-- The tile entry of batch b, trajectory point t, padded lane j, over the arrays the windows read. -/
def kEntry (b : Fin 8) (t : Fin 100) (j : Fin 102400) : EReal :=
  Ideal.sqrt (max ((A45 m c (ix3 b t (0 : Fin 1)) + A43 m c (ix2 (0 : Fin 1) j))
      - Ideal.ofBits .f32 0x40000000#32 * ∑ k : Fin 3, A10 m c (ix3 b t k) * A41 m c (ix2 k j))
    (Ideal.ofBits .f32 0x00000000#32)) - A46 m c (ix3 b (0 : Fin 1) j)

/-- A tile's entry over the point's blocks is the entry of the point's batch at the tile's lane. -/
theorem entry_blocks (p : Fin cfg0.N) (t : Fin 100) (l : Fin 12800) :
    Step.entry (iblk m c 0 p) (iblk m c 1 p) (iblk m c 2 p) (iblk m c 3 p) (iblk m c 4 p) t l = kEntry m c (batch p) t (lane p l) := by
  unfold Step.entry kEntry
  rw [blk1_apply, blk3_apply, blk4_apply]
  simp only [blk0_apply, blk2_apply]

/-- The starting column holds the starting value in every row. -/
theorem start_apply (t : Fin 100) : k0_pay2 (F := Ideal) (ix2 t (0 : Fin 1)) = big := by
  unfold k0_pay2
  rw [shapeCast_self]
  rfl

/-- Lanes below a + 12800 are the lanes below a together with the 12800 lanes from a on. -/
theorem forall_lanes_split (P : Fin 102400 → Prop) (a : ℕ) (ha : a + 12800 ≤ 102400) :
    ((∀ j : Fin 102400, j.val < a → P j) ∧ ∀ l : Fin 12800, P ⟨a + l.val, by have := l.isLt; omega⟩)
      ↔ ∀ j : Fin 102400, j.val < a + 12800 → P j := by
  constructor
  · rintro ⟨h1, h2⟩ j hj
    by_cases hja : j.val < a
    · exact h1 j hja
    · have := h2 ⟨j.val - a, by omega⟩
      have e : (⟨a + (j.val - a), by omega⟩ : Fin 102400) = j := Fin.ext (by show a + (j.val - a) = j.val; omega)
      rwa [e] at this
  · intro h
    exact ⟨fun j hj => h j (by omega), fun l => h _ (by show a + l.val < a + 12800; have := l.isLt; omega)⟩

/-- THE INVARIANT, by its lower bounds: after point n, row t of the scratch column is the minimum of the starting value
    and of the entries of batch n / 8 over the lanes below (n % 8 + 1) · 12800. -/
theorem scratch_after : ∀ (n : ℕ) (hn : n < cfg0.N) (t : Fin 100) (z : EReal),
    z ≤ (outsAt0 m c n hn).2 (ix2 t (0 : Fin 1))
      ↔ z ≤ big ∧ ∀ j : Fin 102400, j.val < (n % 8 + 1) * 12800 → z ≤ kEntry m c (batch ⟨n, hn⟩) t j := by
  intro n
  induction n with
  | zero =>
    intro hn t z
    rw [outsAt0_A m c ⟨0, hn⟩ (Nat.zero_mod 8) (by show ¬(0 % 8 = 7); decide)]
    dsimp only
    rw [Pieces.scratch_first, Step.le_step_iff, start_apply]
    refine and_congr_right fun _ => ?_
    simp only [entry_blocks]
    rw [← forall_lanes_split (fun j => z ≤ kEntry m c (batch ⟨0, hn⟩) t j) 0 (by decide)]
    exact ⟨fun h => ⟨fun j hj => absurd hj (Nat.not_lt_zero _), fun l => by simpa [lane] using h l⟩,
      fun h l => by simpa [lane] using h.2 l⟩
  | succ n ih =>
    intro hn t z
    have hN : cfg0.N = 64 := N64
    by_cases h0 : (n + 1) % 8 = 0
    · have h1 : ¬(n + 1) % 8 = 7 := by omega
      rw [outsAt0_A m c ⟨n + 1, hn⟩ h0 h1]
      dsimp only
      rw [Pieces.scratch_first, Step.le_step_iff, start_apply]
      refine and_congr_right fun _ => ?_
      simp only [entry_blocks]
      rw [h0, ← forall_lanes_split (fun j => z ≤ kEntry m c (batch ⟨n + 1, hn⟩) t j) 0 (by decide)]
      exact ⟨fun h => ⟨fun j hj => absurd hj (Nat.not_lt_zero _), fun l => by simpa [lane, h0] using h l⟩,
        fun h l => by simpa [lane, h0] using h.2 l⟩
    · have hb : batch ⟨n, Nat.lt_of_succ_lt hn⟩ = batch ⟨n + 1, hn⟩ := Fin.ext (by show n / 8 = (n + 1) / 8; omega)
      have hm : n % 8 + 1 = (n + 1) % 8 := by omega
      have key : ∀ prev : Vec Ideal S100x1 .f32, prev = (outsAt0 m c n (Nat.lt_of_succ_lt hn)).2 →
          (z ≤ k0_pay3 (F := Ideal) (iblk m c 0 ⟨n + 1, hn⟩) (iblk m c 1 ⟨n + 1, hn⟩) (iblk m c 2 ⟨n + 1, hn⟩) (iblk m c 3 ⟨n + 1, hn⟩) (iblk m c 4 ⟨n + 1, hn⟩) prev (ix2 t (0 : Fin 1))
            ↔ z ≤ big ∧ ∀ j : Fin 102400, j.val < ((n + 1) % 8 + 1) * 12800 → z ≤ kEntry m c (batch ⟨n + 1, hn⟩) t j) := by
        intro prev hprev
        rw [Step.le_step_iff, hprev, ih (Nat.lt_of_succ_lt hn) t z, hb, and_assoc]
        refine and_congr_right fun _ => ?_
        simp only [entry_blocks]
        rw [hm, show ((n + 1) % 8 + 1) * 12800 = (n + 1) % 8 * 12800 + 12800 by ring,
          ← forall_lanes_split (fun j => z ≤ kEntry m c (batch ⟨n + 1, hn⟩) t j) ((n + 1) % 8 * 12800) (by omega)]
        exact Iff.rfl
      by_cases h1 : (n + 1) % 8 = 7
      · rw [outsAt0_C m c ⟨n + 1, hn⟩ h0 h1]
        dsimp only
        rw [Pieces.scratch_last]
        exact key _ rfl
      · rw [outsAt0_B m c ⟨n + 1, hn⟩ h0 h1]
        dsimp only
        rw [Pieces.scratch_mid]
        exact key _ rfl

end Cert.KernelIdeal.Invariant

end
-- ==== Proof.KernelValue.lean ====
/-
  The kernel's result.

  The output window is written back once per batch, at the batch's last tile, with the scratch column recast as the
  block [1,100,1] of that batch; the 8 blocks tile the output array [8,100,1]. So after the region entry (b, t, 0) of
  the output array is row t of the scratch column after batch b's last tile. The host operations after the region
  recast the array as [8,100], negate it, clip it at zero, sum it and divide by 800.
-/
import proofs.«173465_j90580860272868_2_alg».proof.Proof.Invariant
import proofs.«173465_j90580860272868_2_alg».proof.Proof.Stages
import Idealize.ShloMosaic.Lib.StableHlo.Run
import Idealize.ShloMosaic.Lib.ValueLayout

set_option maxRecDepth 16384

noncomputable section

open Idealize.ShloMosaic Idealize.ShloMosaic.TcCoe Idealize.SL.Sem Idealize.ShloMosaic.ValueIdx Idealize.ShloMosaic.StableHlo
open Idealize.ShloMosaic.Pipeline (Dat)

namespace Cert.KernelIdeal.KernelValue

open Cert.KernelIdeal Cert.KernelIdeal.Gen Cert.KernelIdeal.Blocks

variable (m : (ℓ : Loc nD τ sig) → Buf (Elt Ideal) ℓ) (ρ : Dev nD → PrngReg) (c : Dev nD)

/-- The grid point of batch b's last tile. -/
def lastPt (b : Fin 8) : Fin cfg0.N := ⟨8 * b.val + 7, by have := b.isLt; have h := N64; omega⟩

/-- The scratch column after batch b's last tile. -/
def col (b : Fin 8) : Vec Ideal S100x1 .f32 := (outsAt0 m c (lastPt b).val (lastPt b).isLt).2

/-- The output array after the region. -/
def G : S8x100x1.Idx → EReal := fun i => col m c ⟨(i 0).val, (i 0).isLt⟩ (ix2 (⟨(i 1).val, (i 1).isLt⟩ : Fin 100) (0 : Fin 1))

theorem col_eq (t : Fin cfg0.N) (h7 : t.val % 8 = 7) (b : Fin 8) (hb : b.val = t.val / 8) :
    col m c b = (outsAt0 m c t.val t.isLt).2 := by
  have e : t = lastPt b := Fin.ext (by show t.val = 8 * b.val + 7; omega)
  subst e
  rfl

theorem idx5 : ∀ t : Fin cfg0.N, win0_5.index t 0 = t.val / 8 ∧ win0_5.index t 1 = 0 ∧ win0_5.index t 2 = 0 :=
  (by decide +kernel : ∀ t : Fin grid0.N, _)

/-- What a batch's last tile writes back is that batch's block of G. -/
theorem flushed_eq (t : Fin cfg0.N) (hf : (cfg0.win 5).flush t = true) :
    (dats m 0 c).flushed 5 t = ((cfg0.win 5).blk t).view.read (Elt Ideal) (G m c) := by
  have h7 : t.val % 8 = 7 := (flush0_5 t).mp hf
  have h0 : ¬t.val % 8 = 0 := by omega
  have hs : (outsAt0 m c t.val t.isLt).2
      = k0_pay3 (F := Ideal) (iblk m c 0 t) (iblk m c 1 t) (iblk m c 2 t) (iblk m c 3 t) (iblk m c 4 t)
          (outsAt0 m c (t.val - 1) (Nat.lt_of_le_of_lt (Nat.sub_le _ _) t.isLt)).2 := by
    rw [outsAt0_C m c t h0 h7]; dsimp only; rw [Pieces.scratch_last]
  show (cfg0.win 5).cut (grid0.coords t) ((dats m 0 c).after 5 t) = _
  rw [after0_5, outsAt0_C m c t h0 h7]
  dsimp only
  rw [Pieces.out_last, ← hs]
  funext y
  rw [View.read_apply]
  obtain ⟨e0, e1, e2⟩ := idx5 t
  have hy0 : (y 0).val < 1 := (y 0).isLt
  have hy1 : (y 1).val < 100 := (y 1).isLt
  have hy2 : (y 2).val < 1 := (y 2).isLt
  have hb : ((⟨(((cfg0.win 5).blk t).view.emb y 0).val, (((cfg0.win 5).blk t).view.emb y 0).isLt⟩ : Fin 8)).val = t.val / 8 := by
    show win0_5.index t 0 * 1 + 1 * (y 0).val = t.val / 8
    rw [e0]; omega
  show (k0_pay1 (F := Ideal) (outsAt0 m c t.val t.isLt).2 : S1x100x1.Idx → EReal) y = G m c (((cfg0.win 5).blk t).view.emb y)
  unfold G
  rw [col_eq m c t h7 _ hb]
  have hyy : (y : S1x100x1.Idx) = ix3 (⟨(y 0).val, hy0⟩ : Fin 1) (⟨(y 1).val, hy1⟩ : Fin 100) (⟨(y 2).val, hy2⟩ : Fin 1) := by
    funext a; match a with | ⟨0, _⟩ => rfl | ⟨1, _⟩ => rfl | ⟨2, _⟩ => rfl
  unfold k0_pay1
  rw [hyy, shapeCast_ab_1ab_apply]
  refine congrArg _ (funext fun a => Fin.ext ?_)
  match a with
  | ⟨0, _⟩ => show (y 1).val = win0_5.index t 1 * 100 + 1 * (y 1).val; rw [e1]; omega
  | ⟨1, _⟩ => show (y 2).val = 0; omega

theorem mem_blk5 (t : Fin cfg0.N) (i : S8x100x1.Idx) :
    i ∈ ((cfg0.win 5).blk t).view.set ↔ ∀ a : Fin 3, win0_5.index t a * S1x100x1.size a ≤ (i a).val ∧ (i a).val < win0_5.index t a * S1x100x1.size a + S1x100x1.size a := by
  show i ∈ ((View.whole main_v47).slice (win0_5.rect t)).set ↔ _
  rw [View.set_slice_whole, Rect.mem_set_unit]
  exact Iff.rfl

/-- The output array after the region is G. -/
theorem final : (dats m 0 c).arrAt 5 cfg0.N = G m c :=
  (dats m 0 c).arrAt_eq_of_cover 5 (G m c) (flushed_eq m c) fun i => by
    have hi0 : (i 0).val < 8 := (i 0).isLt
    have hi1 : (i 1).val < 100 := (i 1).isLt
    have hi2 : (i 2).val < 1 := (i 2).isLt
    refine ⟨lastPt ⟨(i 0).val, hi0⟩, (flush0_5 _).mpr (by show (8 * (i 0).val + 7) % 8 = 7; omega), ?_⟩
    rw [mem_blk5]
    obtain ⟨e0, e1, e2⟩ := idx5 (lastPt ⟨(i 0).val, hi0⟩)
    have ev : (lastPt ⟨(i 0).val, hi0⟩).val = 8 * (i 0).val + 7 := rfl
    intro a
    match a with
    | ⟨0, _⟩ => show win0_5.index _ 0 * 1 ≤ (i 0).val ∧ (i 0).val < win0_5.index _ 0 * 1 + 1; rw [e0, ev]; omega
    | ⟨1, _⟩ => show win0_5.index _ 1 * 100 ≤ (i 1).val ∧ (i 1).val < win0_5.index _ 1 * 100 + 100; rw [e1]; omega
    | ⟨2, _⟩ => show win0_5.index _ 2 * 1 ≤ (i 2).val ∧ (i 2).val < win0_5.index _ 2 * 1 + 1; rw [e2]; omega

/-- The kernel's result: the host tail applied to the output array. -/
def kresult : S_.Idx → EReal :=
  Cert.ReferenceIdeal.Stages.meanOf (F := Ideal) (Cert.ReferenceIdeal.Stages.clipNeg (F := Ideal)
    (shapeCast S8x100 (G m c) shapeCasts_S8x100x1_S8x100))

set_option maxRecDepth 200000 in
theorem tail_eq : Pipeline.afterTail₀ cfgs (dats m) 0 (V0 m) [hostOps1, hostOps1_1, hostOps1_2] c main_v52 = kresult m c := by
  unfold Pipeline.afterTail₀
  simp only [hostOps1, hostOps1_1, hostOps1_2, List.flatten_cons, List.flatten_nil, List.append_nil, List.cons_append, List.nil_append]
  after_results_simp
  simp only [TRef.toBuf, TRef.ofBuf, cast_eq, cast_cast]
  have hw : Pipeline.withArrays (cfgs 0).spec c (V0 m c) (fun w => (dats m 0 c).arrAt w (cfgs 0).N) (Proc.devRef .tc main_v47) = G m c :=
    (Pipeline.withArrays_arr spec0 launch0.win.arr_inj c _ _ 5).trans (final m c)
  rw [hw]
  rfl

end Cert.KernelIdeal.KernelValue

end
-- ==== Proof.LibHostLayout.lean ====
/-
  Host layout operations read at coordinates: broadcast_in_dim between ranks 1, 2 and 3, a scalar splat, and a pad
  that extends the last axis on its high side. A broadcast_in_dim copies the operand along the new axes and along
  its own unit axes, so an entry of the result is the operand's entry at the coordinates the dimension map keeps
  (0 on a unit axis). A high-side pad of the last axis keeps the operand where the last coordinate is inside the
  operand's extent and holds the padding value beyond it. General in the extents and in the element type.
-/
import Idealize.ShloMosaic.Lib.Pipeline.Value
import Idealize.ShloMosaic.Lib.ValueIdx
import Idealize.ShloMosaic.Lib.KernelVsHost

namespace Cert.HostLayout

open Idealize.ShloMosaic Idealize.ShloMosaic.ValueIdx

variable {α : Type}

/-- A rank-zero operand splat to any shape reads its one entry everywhere. -/
theorem bid_scalar_apply {t : Shape} (x : (⟨0, ![]⟩ : Shape).Idx → α) (dims : Fin 0 → Fin t.rank)
    (h : (⟨0, ![]⟩ : Shape).BroadcastsInDim t dims) (j : t.Idx) : broadcastInDim t dims h x j = x ix0 :=
  broadcastInDim_apply dims h x j ix0 fun ax => ax.elim0

/-- [a, b] → [a, b, 1] along axes 0, 1: entry (p, q, u) is entry (p, q). -/
theorem bid_ab_ab1_apply {a b : ℕ} (p : Fin a) (q : Fin b) (u : Fin 1) (x : (⟨2, ![a, b]⟩ : Shape).Idx → α)
    (h : (⟨2, ![a, b]⟩ : Shape).BroadcastsInDim ⟨3, ![a, b, 1]⟩ ![0, 1]) :
    broadcastInDim ⟨3, ![a, b, 1]⟩ ![0, 1] h x (ix3 p q u) = x (ix2 p q) := by
  refine broadcastInDim_apply ![0, 1] h x _ _ fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl

/-- [a, b, 1] → [a, b, c] along axes 0, 1, 2: entry (p, q, r) is entry (p, q, 0). -/
theorem bid_ab1_abc_apply {a b c : ℕ} (p : Fin a) (q : Fin b) (r : Fin c) (x : (⟨3, ![a, b, 1]⟩ : Shape).Idx → α)
    (h : (⟨3, ![a, b, 1]⟩ : Shape).BroadcastsInDim ⟨3, ![a, b, c]⟩ ![0, 1, 2]) :
    broadcastInDim ⟨3, ![a, b, c]⟩ ![0, 1, 2] h x (ix3 p q r) = x (ix3 p q (0 : Fin 1)) := by
  refine broadcastInDim_apply ![0, 1, 2] h x _ _ fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ =>
    show 0 = if 1 = 1 then 0 else r.val
    exact (if_pos rfl).symm

/-- [c] → [1, 1, c] along axis 2: entry (u, v, r) is entry r. -/
theorem bid_c_11c_apply {c : ℕ} (u v : Fin 1) (r : Fin c) (x : (⟨1, ![c]⟩ : Shape).Idx → α)
    (h : (⟨1, ![c]⟩ : Shape).BroadcastsInDim ⟨3, ![1, 1, c]⟩ ![2]) :
    broadcastInDim ⟨3, ![1, 1, c]⟩ ![2] h x (ix3 u v r) = x (ix1 r) := by
  refine broadcastInDim_apply ![2] h x _ _ fun ax => ?_
  match ax with
  | ⟨0, _⟩ =>
    show r.val = if c = 1 then 0 else r.val
    split
    · have := r.isLt; omega
    · rfl

/-- [1, 1, c] → [a, b, c] along axes 0, 1, 2: entry (p, q, r) is entry (0, 0, r). -/
theorem bid_11c_abc_apply {a b c : ℕ} (p : Fin a) (q : Fin b) (r : Fin c) (x : (⟨3, ![1, 1, c]⟩ : Shape).Idx → α)
    (h : (⟨3, ![1, 1, c]⟩ : Shape).BroadcastsInDim ⟨3, ![a, b, c]⟩ ![0, 1, 2]) :
    broadcastInDim ⟨3, ![a, b, c]⟩ ![0, 1, 2] h x (ix3 p q r) = x (ix3 (0 : Fin 1) (0 : Fin 1) r) := by
  refine broadcastInDim_apply ![0, 1, 2] h x _ _ fun ax => ?_
  match ax with
  | ⟨0, _⟩ =>
    show 0 = if 1 = 1 then 0 else p.val
    exact (if_pos rfl).symm
  | ⟨1, _⟩ =>
    show 0 = if 1 = 1 then 0 else q.val
    exact (if_pos rfl).symm
  | ⟨2, _⟩ =>
    show r.val = if c = 1 then 0 else r.val
    split
    · have := r.isLt; omega
    · rfl

/-- [a, c] → [a, 1, c] along axes 0, 2: entry (p, u, r) is entry (p, r). -/
theorem bid_ac_a1c_apply {a c : ℕ} (p : Fin a) (u : Fin 1) (r : Fin c) (x : (⟨2, ![a, c]⟩ : Shape).Idx → α)
    (h : (⟨2, ![a, c]⟩ : Shape).BroadcastsInDim ⟨3, ![a, 1, c]⟩ ![0, 2]) :
    broadcastInDim ⟨3, ![a, 1, c]⟩ ![0, 2] h x (ix3 p u r) = x (ix2 p r) := by
  refine broadcastInDim_apply ![0, 2] h x _ _ fun ax => ?_
  match ax with
  | ⟨0, _⟩ =>
    show p.val = if a = 1 then 0 else p.val
    split
    · have := p.isLt; omega
    · rfl
  | ⟨1, _⟩ =>
    show r.val = if c = 1 then 0 else r.val
    split
    · have := r.isLt; omega
    · rfl

/-- [a, 1, c] → [a, b, c] along axes 0, 1, 2: entry (p, q, r) is entry (p, 0, r). -/
theorem bid_a1c_abc_apply {a b c : ℕ} (p : Fin a) (q : Fin b) (r : Fin c) (x : (⟨3, ![a, 1, c]⟩ : Shape).Idx → α)
    (h : (⟨3, ![a, 1, c]⟩ : Shape).BroadcastsInDim ⟨3, ![a, b, c]⟩ ![0, 1, 2]) :
    broadcastInDim ⟨3, ![a, b, c]⟩ ![0, 1, 2] h x (ix3 p q r) = x (ix3 p (0 : Fin 1) r) := by
  refine broadcastInDim_apply ![0, 1, 2] h x _ _ fun ax => ?_
  match ax with
  | ⟨0, _⟩ =>
    show p.val = if a = 1 then 0 else p.val
    split
    · have := p.isLt; omega
    · rfl
  | ⟨1, _⟩ =>
    show 0 = if 1 = 1 then 0 else q.val
    exact (if_pos rfl).symm
  | ⟨2, _⟩ =>
    show r.val = if c = 1 then 0 else r.val
    split
    · have := r.isLt; omega
    · rfl

/-- [c] → [1, c] along axis 1: entry (u, r) is entry r. -/
theorem bid_c_1c_apply {c : ℕ} (u : Fin 1) (r : Fin c) (x : (⟨1, ![c]⟩ : Shape).Idx → α)
    (h : (⟨1, ![c]⟩ : Shape).BroadcastsInDim ⟨2, ![1, c]⟩ ![1]) :
    broadcastInDim ⟨2, ![1, c]⟩ ![1] h x (ix2 u r) = x (ix1 r) := by
  refine broadcastInDim_apply ![1] h x _ _ fun ax => ?_
  match ax with
  | ⟨0, _⟩ =>
    show r.val = if c = 1 then 0 else r.val
    split
    · have := r.isLt; omega
    · rfl

/-- [1, c] → [a, c] along axes 0, 1: entry (p, r) is entry (0, r). -/
theorem bid_1c_ac_apply {a c : ℕ} (p : Fin a) (r : Fin c) (x : (⟨2, ![1, c]⟩ : Shape).Idx → α)
    (h : (⟨2, ![1, c]⟩ : Shape).BroadcastsInDim ⟨2, ![a, c]⟩ ![0, 1]) :
    broadcastInDim ⟨2, ![a, c]⟩ ![0, 1] h x (ix2 p r) = x (ix2 (0 : Fin 1) r) := by
  refine broadcastInDim_apply ![0, 1] h x _ _ fun ax => ?_
  match ax with
  | ⟨0, _⟩ =>
    show 0 = if 1 = 1 then 0 else p.val
    exact (if_pos rfl).symm
  | ⟨1, _⟩ =>
    show r.val = if c = 1 then 0 else r.val
    split
    · have := r.isLt; omega
    · rfl

/-! ## The last axis padded on its high side -/

/-- A vector of n entries padded to N on the high side: entry j inside the operand is the operand's. -/
theorem pad1_inside {n N p : ℕ} {u : Shape} (x : (⟨1, ![n]⟩ : Shape).Idx → α) (v : u.Idx → α)
    (h : (⟨1, ![n]⟩ : Shape).Pads ![0] ![p] ![0] ⟨1, ![N]⟩) (hu : 0 < u.numel) (j : Fin N) (hj : j.val < n) :
    pad ⟨1, ![N]⟩ ![0] ![p] ![0] x v h hu (ix1 j) = x (ix1 (⟨j.val, hj⟩ : Fin n)) :=
  pad_apply_of_inside ![0] ![p] ![0] x v h hu _ _ fun ax => by
    match ax with
    | ⟨0, _⟩ => show j.val = 0 + j.val * (0 + 1); omega

/-- Beyond the operand it is the padding value. -/
theorem pad1_outside {n N p : ℕ} {u : Shape} (x : (⟨1, ![n]⟩ : Shape).Idx → α) (v : u.Idx → α)
    (h : (⟨1, ![n]⟩ : Shape).Pads ![0] ![p] ![0] ⟨1, ![N]⟩) (hu : 0 < u.numel) (j : Fin N) (hj : ¬j.val < n) :
    pad ⟨1, ![N]⟩ ![0] ![p] ![0] x v h hu (ix1 j) = v (Shape.Idx.first hu) :=
  pad_apply_of_not_inside ![0] ![p] ![0] x v h hu _ (0 : Fin 1) fun hh => hj (by
    have h3 : (j.val - 0) / (0 + 1) < n := hh.2.2
    simpa using h3)

/-- A matrix [a, n] whose rows are padded to N on the high side: entry (i, j) with j inside is the operand's. -/
theorem pad2_inside {a n N p : ℕ} {u : Shape} (x : (⟨2, ![a, n]⟩ : Shape).Idx → α) (v : u.Idx → α)
    (h : (⟨2, ![a, n]⟩ : Shape).Pads ![0, 0] ![0, p] ![0, 0] ⟨2, ![a, N]⟩) (hu : 0 < u.numel) (i : Fin a) (j : Fin N)
    (hj : j.val < n) :
    pad ⟨2, ![a, N]⟩ ![0, 0] ![0, p] ![0, 0] x v h hu (ix2 i j) = x (ix2 i (⟨j.val, hj⟩ : Fin n)) :=
  pad_apply_of_inside ![0, 0] ![0, p] ![0, 0] x v h hu _ _ fun ax => by
    match ax with
    | ⟨0, _⟩ => show i.val = 0 + i.val * (0 + 1); omega
    | ⟨1, _⟩ => show j.val = 0 + j.val * (0 + 1); omega

/-- Beyond the rows' extent it is the padding value. -/
theorem pad2_outside {a n N p : ℕ} {u : Shape} (x : (⟨2, ![a, n]⟩ : Shape).Idx → α) (v : u.Idx → α)
    (h : (⟨2, ![a, n]⟩ : Shape).Pads ![0, 0] ![0, p] ![0, 0] ⟨2, ![a, N]⟩) (hu : 0 < u.numel) (i : Fin a) (j : Fin N)
    (hj : ¬j.val < n) :
    pad ⟨2, ![a, N]⟩ ![0, 0] ![0, p] ![0, 0] x v h hu (ix2 i j) = v (Shape.Idx.first hu) :=
  pad_apply_of_not_inside ![0, 0] ![0, p] ![0, 0] x v h hu _ (1 : Fin 2) fun hh => hj (by
    have h3 : (j.val - 0) / (0 + 1) < n := hh.2.2
    simpa using h3)

end Cert.HostLayout
-- ==== Proof.HostArrays.lean ====
/-
  The arrays the kernel's windows read, as the host operations before the call leave them.

  Window 0 reads the transformed trajectories R [8,100,3]; window 1 their squared norms as columns [8,100,1];
  window 2 the splat centres transposed and padded with zeros to [3,102400]; window 3 the centres' squared norms
  padded with zeros, as a row [1,102400]; window 4 the offsets [8,1,102400]: for a splat inside batch b's box its
  largest scale plus the margin, for one outside the box the large negative constant, and the same constant on
  the padded tail. Each is read here at coordinates.
-/
import proofs.«173465_j90580860272868_2_alg».proof.Proof.Gen.KernelIdeal.Frame
import proofs.«173465_j90580860272868_2_alg».proof.Proof.Stages
import proofs.«173465_j90580860272868_2_alg».proof.Proof.LibHostLayout
import proofs.«173465_j90580860272868_2_alg».proof.Proof.LibAfterAppend
import Idealize.ShloMosaic.Lib.StableHlo.Run
import Idealize.ShloMosaic.Lib.ValueLayout

noncomputable section

open Idealize.ShloMosaic Idealize.ShloMosaic.TcCoe Idealize.SL.Sem Idealize.ShloMosaic.ValueIdx Idealize.ShloMosaic.StableHlo

namespace Cert.KernelIdeal.HostArrays

open Cert.KernelIdeal Cert.KernelIdeal.Gen Cert.HostLayout
open Cert.ReferenceIdeal.Stages (retr rsq msq msr inside)

variable (m : (ℓ : Loc nD τ sig) → Buf (Elt Ideal) ℓ) (c : Dev nD)

/-- The kernel's transformed trajectories: the shared stage, at the kernel's contraction precision. -/
def Rk : FVec Ideal S8x100x3 .f32 := retr (F := Ideal) (some .fp32) (m ((c.tc : Thread nD τ).loc main_arg0)) (m ((c.tc : Thread nD τ).loc main_arg1)) (m ((c.tc : Thread nD τ).loc main_arg2))

/-- The offsets before padding [8,100000]. -/
def adj : FVec Ideal S8x100000 .f32 :=
  select (inside (F := Ideal) (Rk m c) (m ((c.tc : Thread nD τ).loc main_arg2)) (m ((c.tc : Thread nD τ).loc main_arg3)))
    (broadcastInDim S8x100000 ![0, 1] bcast_S1x100000_S8x100000_0_1
      (addf (broadcastInDim S1x100000 ![1] bcast_S100000_S1x100000_1 (msr (F := Ideal) (m ((c.tc : Thread nD τ).loc main_arg4))))
        (broadcastInDim S1x100000 ![] bcast_S_S1x100000 (constant (F := Ideal) S_ .f32 0x3DCCCCCD#32))))
    (broadcastInDim S8x100000 ![] bcast_S_S8x100000 (id (constant (F := Ideal) S_ .f32 0xCE6E6B28#32)))

set_option maxRecDepth 200000 in
set_option maxHeartbeats 8000000 in
theorem V_v10 : (V m c main_v10 : S8x100x3.Idx → EReal) = Rk m c := by
  dsimp only [Gen.V, Gen.V0]
  simp only [hostOps0, hostOps0_1, hostOps0_2, hostOps0_3, hostOps0_4, hostOps0_5, hostOps0_6, hostOps0_7, hostOps0_8, List.flatten_cons, List.flatten_nil, List.append_nil, List.cons_append, List.nil_append]
  after_results_simp <;> rfl

set_option maxRecDepth 200000 in
set_option maxHeartbeats 8000000 in
theorem V_v45 : (V m c main_v45 : S8x100x1.Idx → EReal)
    = broadcastInDim S8x100x1 ![0, 1] bcast_S8x100_S8x100x1_0_1 (rsq (F := Ideal) (Rk m c)) := by
  dsimp only [Gen.V, Gen.V0]
  simp only [hostOps0, hostOps0_1, hostOps0_2, hostOps0_3, hostOps0_4, hostOps0_5, hostOps0_6, hostOps0_7, hostOps0_8, List.flatten_cons, List.flatten_nil, List.append_nil, List.cons_append, List.nil_append]
  after_results_simp <;> rfl

set_option maxRecDepth 200000 in
set_option maxHeartbeats 8000000 in
theorem V_v41 : (V m c main_v41 : S3x102400.Idx → EReal)
    = pad S3x102400 ![0, 0] ![0, 2400] ![0, 0] (transpose S3x100000 [1, 0] (m ((c.tc : Thread nD τ).loc main_arg3)) transposes_S100000x3_S3x100000_1_0)
        (id (constant (F := Ideal) S_ .f32 0x00000000#32)) pads_S3x100000_S3x102400_000_024000 h_S_ := by
  dsimp only [Gen.V, Gen.V0]
  simp only [hostOps0, hostOps0_1, hostOps0_2, hostOps0_3, hostOps0_4, hostOps0_5, hostOps0_6, hostOps0_7, hostOps0_8, List.flatten_cons, List.flatten_nil, List.append_nil, List.cons_append, List.nil_append]
  after_results_simp <;> rfl

set_option maxRecDepth 200000 in
set_option maxHeartbeats 8000000 in
theorem V_v43 : (V m c main_v43 : S1x102400.Idx → EReal)
    = broadcastInDim S1x102400 ![1] bcast_S102400_S1x102400_1
        (pad S102400 ![0] ![2400] ![0] (msq (F := Ideal) (m ((c.tc : Thread nD τ).loc main_arg3))) (id (constant (F := Ideal) S_ .f32 0x00000000#32)) pads_S100000_S102400_024000 h_S_) := by
  dsimp only [Gen.V, Gen.V0]
  simp only [hostOps0, hostOps0_1, hostOps0_2, hostOps0_3, hostOps0_4, hostOps0_5, hostOps0_6, hostOps0_7, hostOps0_8, List.flatten_cons, List.flatten_nil, List.append_nil, List.cons_append, List.nil_append]
  after_results_simp <;> rfl

/-! ## The offsets array: the prefix in two stretches -/

/-- The operations of the prefix after its first stretch: the choice of the offsets, the transposition and the three pads,
    and the recasts to the windows' shapes. -/
abbrev rest : List (HloOp τ sig (Elt Ideal)) :=
  hostOps0_1 ++ (hostOps0_2 ++ (hostOps0_3 ++ (hostOps0_4 ++ (hostOps0_5 ++ (hostOps0_6 ++ (hostOps0_7 ++ (hostOps0_8 ++ [])))))))

theorem V0_split : V0 m c = after rest (after hostOps0 (fun b => m (c, b))) := by
  dsimp only [Gen.V0]
  simp only [List.flatten_cons, List.flatten_nil]
  rw [Cert.AfterAppend.after_append]

set_option maxRecDepth 200000 in
set_option maxHeartbeats 8000000 in
/-- The box test after the first stretch. -/
theorem K_v33 : (after hostOps0 (fun b => m (c, b)) (Proc.devRef .tc main_v33) : S8x100000.Idx → BitVec 1)
    = inside (F := Ideal) (Rk m c) (m ((c.tc : Thread nD τ).loc main_arg2)) (m ((c.tc : Thread nD τ).loc main_arg3)) := by
  simp only [hostOps0]
  after_results_simp <;> rfl

set_option maxRecDepth 200000 in
set_option maxHeartbeats 8000000 in
/-- Each splat's largest scale plus the margin, as a row, after the first stretch. -/
theorem K_v38 : (after hostOps0 (fun b => m (c, b)) (Proc.devRef .tc main_v38) : S1x100000.Idx → EReal)
    = addf (broadcastInDim S1x100000 ![1] bcast_S100000_S1x100000_1 (msr (F := Ideal) (m ((c.tc : Thread nD τ).loc main_arg4))))
        (broadcastInDim S1x100000 ![] bcast_S_S1x100000 (constant (F := Ideal) S_ .f32 0x3DCCCCCD#32)) := by
  simp only [hostOps0]
  after_results_simp <;> rfl

set_option maxRecDepth 200000 in
set_option maxHeartbeats 8000000 in
/-- The large negative constant after the first stretch. -/
theorem K_cst6 : (after hostOps0 (fun b => m (c, b)) (Proc.devRef .tc main_cst_6) : S_.Idx → EReal) = constant (F := Ideal) S_ .f32 0xCE6E6B28#32 := by
  simp only [hostOps0]
  after_results_simp <;> rfl

set_option maxRecDepth 200000 in
set_option maxHeartbeats 8000000 in
/-- The remaining operations from ANY contents: if the first stretch left the box test I, the row Q and the large negative
    constant where they are read, the offsets array ends at the padded, recast choice between Q and the constant by I. -/
theorem rest_v46 (VA : Valuation τ sig (Elt Ideal)) (I : S8x100000.Idx → BitVec 1) (Q : S1x100000.Idx → EReal)
    (hI : (VA (Proc.devRef .tc main_v33) : S8x100000.Idx → BitVec 1) = I)
    (hQ : (VA (Proc.devRef .tc main_v38) : S1x100000.Idx → EReal) = Q)
    (hc : (VA (Proc.devRef .tc main_cst_6) : S_.Idx → EReal) = constant (F := Ideal) S_ .f32 0xCE6E6B28#32) :
    (after rest VA (Proc.devRef .tc main_v46) : S8x1x102400.Idx → EReal)
      = broadcastInDim S8x1x102400 ![0, 2] bcast_S8x102400_S8x1x102400_0_2
          (pad S8x102400 ![0, 0] ![0, 2400] ![0, 0]
            (select I (broadcastInDim S8x100000 ![0, 1] bcast_S1x100000_S8x100000_0_1 Q)
              (broadcastInDim S8x100000 ![] bcast_S_S8x100000 (id (constant (F := Ideal) S_ .f32 0xCE6E6B28#32))))
            (id (constant (F := Ideal) S_ .f32 0xCE6E6B28#32)) pads_S8x100000_S8x102400_000_024000 h_S_) := by
  simp only [rest, hostOps0_1, hostOps0_2, hostOps0_3, hostOps0_4, hostOps0_5, hostOps0_6, hostOps0_7, hostOps0_8, List.append_nil, List.cons_append, List.nil_append]
  after_results_simp
  simp only [TRef.toBuf, TRef.ofBuf, cast_eq, cast_cast]
  rw [hI, hQ, hc]

theorem V_v46 : (V m c main_v46 : S8x1x102400.Idx → EReal)
    = broadcastInDim S8x1x102400 ![0, 2] bcast_S8x102400_S8x1x102400_0_2
        (pad S8x102400 ![0, 0] ![0, 2400] ![0, 0] (adj m c) (id (constant (F := Ideal) S_ .f32 0xCE6E6B28#32)) pads_S8x100000_S8x102400_000_024000 h_S_) := by
  show V0 m c (Proc.devRef .tc main_v46) = _
  rw [V0_split, rest_v46 _ _ _ (K_v33 m c) (K_v38 m c) (K_cst6 m c)]
  unfold adj
  rfl

/-! ## Read at coordinates -/

/-- An offset inside the splats' range: the box test chooses the largest scale plus the margin, or the large negative constant. -/
theorem adj_apply (b : Fin 8) (n : Fin 100000) :
    adj m c (ix2 b n) = Scalar.select (inside (F := Ideal) (Rk m c) (m ((c.tc : Thread nD τ).loc main_arg2)) (m ((c.tc : Thread nD τ).loc main_arg3)) (ix2 b n))
      (msr (F := Ideal) (m ((c.tc : Thread nD τ).loc main_arg4)) (ix1 n) + Ideal.ofBits .f32 0x3DCCCCCD#32) (Ideal.ofBits .f32 0xCE6E6B28#32) := by
  have e1 : broadcastInDim S8x100000 ![0, 1] bcast_S1x100000_S8x100000_0_1
      (addf (broadcastInDim S1x100000 ![1] bcast_S100000_S1x100000_1 (msr (F := Ideal) (m ((c.tc : Thread nD τ).loc main_arg4))))
        (broadcastInDim S1x100000 ![] bcast_S_S1x100000 (constant (F := Ideal) S_ .f32 0x3DCCCCCD#32))) (ix2 b n)
      = msr (F := Ideal) (m ((c.tc : Thread nD τ).loc main_arg4)) (ix1 n) + Ideal.ofBits .f32 0x3DCCCCCD#32 := by
    rw [bid_1c_ac_apply]
    show broadcastInDim S1x100000 ![1] bcast_S100000_S1x100000_1 (msr (F := Ideal) (m ((c.tc : Thread nD τ).loc main_arg4))) (ix2 (0 : Fin 1) n)
      + broadcastInDim S1x100000 ![] bcast_S_S1x100000 (constant (F := Ideal) S_ .f32 0x3DCCCCCD#32) (ix2 (0 : Fin 1) n) = _
    rw [bid_c_1c_apply, bid_scalar_apply]
    rfl
  have e2 : broadcastInDim S8x100000 ![] bcast_S_S8x100000 (id (constant (F := Ideal) S_ .f32 0xCE6E6B28#32)) (ix2 b n)
      = Ideal.ofBits .f32 0xCE6E6B28#32 := by
    rw [bid_scalar_apply]; rfl
  unfold adj
  show Scalar.select _ _ _ = _
  rw [e1, e2]

theorem v45_apply (b : Fin 8) (t : Fin 100) (u : Fin 1) :
    (V m c main_v45 : S8x100x1.Idx → EReal) (ix3 b t u) = rsq (F := Ideal) (Rk m c) (ix2 b t) := by
  rw [V_v45, bid_ab_ab1_apply]

theorem v41_inside (k : Fin 3) (j : Fin 102400) (hj : j.val < 100000) :
    (V m c main_v41 : S3x102400.Idx → EReal) (ix2 k j) = (m ((c.tc : Thread nD τ).loc main_arg3)) (ix2 (⟨j.val, hj⟩ : Fin 100000) k) := by
  rw [V_v41, pad2_inside _ _ _ _ k j hj, transpose_ix2_apply]

theorem v41_outside (k : Fin 3) (j : Fin 102400) (hj : ¬j.val < 100000) :
    (V m c main_v41 : S3x102400.Idx → EReal) (ix2 k j) = Ideal.ofBits .f32 0x00000000#32 := by
  rw [V_v41, pad2_outside _ _ _ _ k j hj]; rfl

theorem v43_inside (u : Fin 1) (j : Fin 102400) (hj : j.val < 100000) :
    (V m c main_v43 : S1x102400.Idx → EReal) (ix2 u j) = msq (F := Ideal) (m ((c.tc : Thread nD τ).loc main_arg3)) (ix1 (⟨j.val, hj⟩ : Fin 100000)) := by
  rw [V_v43, bid_c_1c_apply, pad1_inside _ _ _ _ j hj]

theorem v43_outside (u : Fin 1) (j : Fin 102400) (hj : ¬j.val < 100000) :
    (V m c main_v43 : S1x102400.Idx → EReal) (ix2 u j) = Ideal.ofBits .f32 0x00000000#32 := by
  rw [V_v43, bid_c_1c_apply, pad1_outside _ _ _ _ j hj]; rfl

theorem v46_inside (b : Fin 8) (u : Fin 1) (j : Fin 102400) (hj : j.val < 100000) :
    (V m c main_v46 : S8x1x102400.Idx → EReal) (ix3 b u j) = adj m c (ix2 b (⟨j.val, hj⟩ : Fin 100000)) := by
  rw [V_v46, bid_ac_a1c_apply, pad2_inside _ _ _ _ b j hj]

theorem v46_outside (b : Fin 8) (u : Fin 1) (j : Fin 102400) (hj : ¬j.val < 100000) :
    (V m c main_v46 : S8x1x102400.Idx → EReal) (ix3 b u j) = Ideal.ofBits .f32 0xCE6E6B28#32 := by
  rw [V_v46, bid_ac_a1c_apply, pad2_outside _ _ _ _ b j hj]; rfl

end Cert.KernelIdeal.HostArrays

end
-- ==== Proof.RefRead.lean ====
/-
  The reference's masked distances and their minimum, read at coordinates at the exact values.

  Entry (b, t, n) of the masked array depends on batch b's box test of splat n, on the squared norms of trajectory
  point (b, t) and of splat n, on their inner product, and on splat n's largest scale: inside the box it is
  sqrt (max ((|r|² + |m|²) - 2 · ⟨r, m⟩) 0) - largest scale - margin, outside it the large constant. The minimum over
  the splats starts from plus infinity, so a lower bound of it is exactly a lower bound of every entry.
-/
import proofs.«173465_j90580860272868_2_alg».proof.Proof.Stages
import proofs.«173465_j90580860272868_2_alg».proof.Proof.LibMinReads
import proofs.«173465_j90580860272868_2_alg».proof.Proof.LibHostLayout

noncomputable section

open Idealize.ShloMosaic Idealize.ShloMosaic.TcCoe Idealize.ShloMosaic.ValueIdx

namespace Cert.ReferenceIdeal.RefRead

open Cert.ReferenceIdeal Cert.ReferenceIdeal.Gen Cert.ReferenceIdeal.Stages Cert.HostLayout

variable (R : FVec Ideal S8x100x3 .f32) (a2 : FVec Ideal S8 .f32) (a3 a4 : FVec Ideal S100000x3 .f32)

theorem lhs_axis0 (i : S8x100x100000.Idx) (q : dot_S8x100x3_S100000x3_S8x100x100000_2_1_01_0_n_n.contr.Idx) : (dot_S8x100x3_S100000x3_S8x100x100000_2_1_01_0_n_n.lhsIdx i q 0).val = (i 0).val := by
  unfold DotDims.lhsIdx
  rw [dif_neg (show ¬(0 : Fin S8x100x3.rank) ∈ dot_S8x100x3_S100000x3_S8x100x100000_2_1_01_0_n_n.lhsBatch by decide), dif_pos (show (0 : Fin S8x100x3.rank) ∈ dot_S8x100x3_S100000x3_S8x100x100000_2_1_01_0_n_n.lhsNonContracting by decide)]
  rfl
theorem lhs_axis1 (i : S8x100x100000.Idx) (q : dot_S8x100x3_S100000x3_S8x100x100000_2_1_01_0_n_n.contr.Idx) : (dot_S8x100x3_S100000x3_S8x100x100000_2_1_01_0_n_n.lhsIdx i q 1).val = (i 1).val := by
  unfold DotDims.lhsIdx
  rw [dif_neg (show ¬(1 : Fin S8x100x3.rank) ∈ dot_S8x100x3_S100000x3_S8x100x100000_2_1_01_0_n_n.lhsBatch by decide), dif_pos (show (1 : Fin S8x100x3.rank) ∈ dot_S8x100x3_S100000x3_S8x100x100000_2_1_01_0_n_n.lhsNonContracting by decide)]
  rfl
theorem lhs_axis2 (i : S8x100x100000.Idx) (q : dot_S8x100x3_S100000x3_S8x100x100000_2_1_01_0_n_n.contr.Idx) : (dot_S8x100x3_S100000x3_S8x100x100000_2_1_01_0_n_n.lhsIdx i q 2).val = (q ⟨0, by decide⟩).val :=
  dot_S8x100x3_S100000x3_S8x100x100000_2_1_01_0_n_n.lhsIdx_val_of_single rfl i q
theorem rhs_axis0 (i : S8x100x100000.Idx) (q : dot_S8x100x3_S100000x3_S8x100x100000_2_1_01_0_n_n.contr.Idx) : (dot_S8x100x3_S100000x3_S8x100x100000_2_1_01_0_n_n.rhsIdx i q 0).val = (i 2).val := by
  unfold DotDims.rhsIdx
  rw [dif_neg (show ¬(0 : Fin S100000x3.rank) ∈ dot_S8x100x3_S100000x3_S8x100x100000_2_1_01_0_n_n.rhsBatch by decide), dif_pos (show (0 : Fin S100000x3.rank) ∈ dot_S8x100x3_S100000x3_S8x100x100000_2_1_01_0_n_n.rhsNonContracting by decide)]
  rfl
theorem rhs_axis1 (i : S8x100x100000.Idx) (q : dot_S8x100x3_S100000x3_S8x100x100000_2_1_01_0_n_n.contr.Idx) : (dot_S8x100x3_S100000x3_S8x100x100000_2_1_01_0_n_n.rhsIdx i q 1).val = (q ⟨0, by decide⟩).val :=
  dot_S8x100x3_S100000x3_S8x100x100000_2_1_01_0_n_n.rhsIdx_val_of_single rfl i q

/-- The inner product of trajectory point (b, t) with splat centre n. -/
theorem cross_apply (b : Fin 8) (t : Fin 100) (n : Fin 100000) :
    Host.dotGeneral dot_S8x100x3_S100000x3_S8x100x100000_2_1_01_0_n_n none R a3 (ix3 b t n) = ∑ k : Fin 3, R (ix3 b t k) * a3 (ix2 n k) := by
  simp only [Host.dotGeneral]
  rw [Ideal.dotGeneral_apply, ← Equiv.sum_comp (ValueIdx.contrEquiv1 dot_S8x100x3_S100000x3_S8x100x100000_2_1_01_0_n_n 3 rfl rfl).symm]
  refine Finset.sum_congr rfl fun k _ => ?_
  have hk := ValueIdx.contrEquiv1_symm_val dot_S8x100x3_S100000x3_S8x100x100000_2_1_01_0_n_n 3 rfl rfl k
  have el : dot_S8x100x3_S100000x3_S8x100x100000_2_1_01_0_n_n.lhsIdx (ix3 b t n) ((ValueIdx.contrEquiv1 dot_S8x100x3_S100000x3_S8x100x100000_2_1_01_0_n_n 3 rfl rfl).symm k) = ix3 b t k :=
    funext fun a => Fin.ext (by
      match a with
      | ⟨0, _⟩ => exact lhs_axis0 _ _
      | ⟨1, _⟩ => exact lhs_axis1 _ _
      | ⟨2, _⟩ => exact (lhs_axis2 _ _).trans hk)
  have er : dot_S8x100x3_S100000x3_S8x100x100000_2_1_01_0_n_n.rhsIdx (ix3 b t n) ((ValueIdx.contrEquiv1 dot_S8x100x3_S100000x3_S8x100x100000_2_1_01_0_n_n 3 rfl rfl).symm k) = ix2 n k :=
    funext fun a => Fin.ext (by
      match a with
      | ⟨0, _⟩ => exact rhs_axis0 _ _
      | ⟨1, _⟩ => exact (rhs_axis1 _ _).trans hk)
  rw [el, er]

/-- Entry (b, t, n) of the masked distances, spelt over the stages at coordinates. -/
def refEntry (b : Fin 8) (t : Fin 100) (n : Fin 100000) : EReal :=
  Scalar.select (inside (F := Ideal) R a2 a3 (ix2 b n))
    ((Ideal.sqrt (max ((rsq (F := Ideal) R (ix2 b t) + msq (F := Ideal) a3 (ix1 n))
        - Ideal.ofBits .f32 0x40000000#32 * ∑ k : Fin 3, R (ix3 b t k) * a3 (ix2 n k)) (Ideal.ofBits .f32 0x00000000#32))
      - msr (F := Ideal) a4 (ix1 n)) - Ideal.ofBits .f32 0x3DCCCCCD#32)
    (Ideal.ofBits .f32 0x4E6E6B28#32)

theorem masked_apply (b : Fin 8) (t : Fin 100) (n : Fin 100000) :
    masked (F := Ideal) R a2 a3 a4 (ix3 b t n) = refEntry R a2 a3 a4 b t n := by
  have e_ins : broadcastInDim S8x100x100000 ![0, 1, 2] bcast_S8x1x100000_S8x100x100000_0_1_2
      (broadcastInDim S8x1x100000 ![0, 2] bcast_S8x100000_S8x1x100000_0_2 (inside (F := Ideal) R a2 a3)) (ix3 b t n) = inside (F := Ideal) R a2 a3 (ix2 b n) := by
    rw [bid_a1c_abc_apply, bid_ac_a1c_apply]
  have e_rsq : broadcastInDim S8x100x100000 ![0, 1, 2] bcast_S8x100x1_S8x100x100000_0_1_2
      (broadcastInDim S8x100x1 ![0, 1] bcast_S8x100_S8x100x1_0_1 (rsq (F := Ideal) R)) (ix3 b t n) = rsq (F := Ideal) R (ix2 b t) := by
    rw [bid_ab1_abc_apply, bid_ab_ab1_apply]
  have e_msq : broadcastInDim S8x100x100000 ![0, 1, 2] bcast_S1x1x100000_S8x100x100000_0_1_2
      (broadcastInDim S1x1x100000 ![2] bcast_S100000_S1x1x100000_2 (msq (F := Ideal) a3)) (ix3 b t n) = msq (F := Ideal) a3 (ix1 n) := by
    rw [bid_11c_abc_apply, bid_c_11c_apply]
  have e_msr : broadcastInDim S8x100x100000 ![0, 1, 2] bcast_S1x1x100000_S8x100x100000_0_1_2
      (broadcastInDim S1x1x100000 ![2] bcast_S100000_S1x1x100000_2 (msr (F := Ideal) a4)) (ix3 b t n) = msr (F := Ideal) a4 (ix1 n) := by
    rw [bid_11c_abc_apply, bid_c_11c_apply]
  have e_c : ∀ w : BitVec 32, broadcastInDim S8x100x100000 ![] bcast_S_S8x100x100000 (constant (F := Ideal) S_ .f32 w) (ix3 b t n)
      = Ideal.ofBits .f32 w := fun w => by rw [bid_scalar_apply]; rfl
  have e_big : broadcastInDim S8x100x100000 ![] bcast_S_S8x100x100000 (id (constant (F := Ideal) S_ .f32 0x4E6E6B28#32)) (ix3 b t n)
      = Ideal.ofBits .f32 0x4E6E6B28#32 := e_c _
  unfold masked refEntry
  show Scalar.select _ ((Ideal.sqrt (max ((_ + _) - _ * _) _) - _) - _) _ = _
  rw [e_ins, e_rsq, e_msq, e_msr, cross_apply, e_c, e_c, e_c, e_big]

/-- A lower bound of the minimum over the splats at (b, t) is a lower bound of every entry (b, t, n). -/
theorem le_colloss_iff (b : Fin 8) (t : Fin 100) (z : EReal) :
    z ≤ colloss (F := Ideal) R a2 a3 a4 (ix2 b t) ↔ ∀ n : Fin 100000, z ≤ refEntry R a2 a3 a4 b t n := by
  unfold colloss
  rw [Cert.MinReads.le_hostMin_last_iff (masked (F := Ideal) R a2 a3 a4) (constant S_ .f32 0x7F800000#32)
    reducesTo_S8x100x100000_S8x100_d2 (by decide) h_S_ Cert.MinReads.ofBits_pos_inf b t z]
  exact forall_congr' fun n => by rw [masked_apply]

end Cert.ReferenceIdeal.RefRead

end
-- ==== Proof.MinRelu.lean ====
/-
  Order facts on the extended reals behind a masked minimum followed by max (-·) 0.

  A clipped negation x ↦ max (-x) 0 sees x only through min x 0. So two minima over different families of
  terms give the same clipped negation as soon as every term of either family is nonnegative or is bounded
  below by a term of the other family: nonnegative terms, and a nonnegative starting value, are absorbed by
  the clip. Also here: the square root of a nonnegative extended real is nonnegative, and subtracting a sum
  whose second summand is a real number is subtracting the summands one after the other.
-/
import Idealize.ShloMosaic.PureOps.Ideal.Laws

namespace Cert.MinRelu

open Idealize.ShloMosaic

/-- max (-x) 0 is the negation of min x 0. -/
theorem max_neg_zero (x : EReal) : max (-x) 0 = -(min x 0) := by
  rcases le_total x 0 with h | h
  · have h' : (0 : EReal) ≤ -x := by
      have := EReal.neg_le_neg_iff.mpr h
      simpa using this
    rw [min_eq_left h, max_eq_left h']
  · have h' : -x ≤ (0 : EReal) := by
      have := EReal.neg_le_neg_iff.mpr h
      simpa using this
    rw [min_eq_right h, max_eq_right h', neg_zero]

/-- Equal minima with zero give equal clipped negations. -/
theorem max_neg_zero_congr {a b : EReal} (h : min a 0 = min b 0) : max (-a) 0 = max (-b) 0 := by
  rw [max_neg_zero, max_neg_zero, h]

/-- The square root of a nonnegative extended real is nonnegative. -/
theorem sqrt_nonneg {x : EReal} (hx : 0 ≤ x) : 0 ≤ Ideal.sqrt x := by
  induction x using EReal.rec with
  | bot => exact absurd hx (by simp)
  | top => exact le_top
  | coe r =>
    have hr : (0 : ℝ) ≤ r := by exact_mod_cast hx
    show (0 : EReal) ≤ (if r < 0 then ⊥ else (Real.sqrt r : EReal))
    rw [if_neg (not_lt.mpr hr)]
    exact_mod_cast Real.sqrt_nonneg r

/-- x - (y + c) = x - y - c when c is a real number (no opposite infinities can meet in y + c). -/
theorem sub_add_real (x y : EReal) (c : ℝ) : x - (y + (c : EReal)) = x - y - (c : EReal) := by
  rw [sub_eq_add_neg, EReal.neg_add (Or.inr (EReal.coe_ne_top c)) (Or.inr (EReal.coe_ne_bot c)),
    sub_eq_add_neg, sub_eq_add_neg, sub_eq_add_neg, add_assoc]

/-- The absorption law. ck is the minimum of big and the terms f i; cr the minimum of the terms g k (both
    given by their universal properties). If big is nonnegative, and every term of either family is
    nonnegative or bounded below by a term of the other family, then min ck 0 = min cr 0. -/
theorem min_zero_eq {ι κ : Type} {ck cr big : EReal} (f : ι → EReal) (g : κ → EReal)
    (hk : ∀ z, z ≤ ck ↔ z ≤ big ∧ ∀ i, z ≤ f i) (hr : ∀ z, z ≤ cr ↔ ∀ k, z ≤ g k)
    (hbig : 0 ≤ big) (hf : ∀ i, 0 ≤ f i ∨ ∃ k, g k ≤ f i) (hg : ∀ k, 0 ≤ g k ∨ ∃ i, f i ≤ g k) :
    min ck 0 = min cr 0 := by
  have hckf : ∀ i, ck ≤ f i := ((hk ck).mp le_rfl).2
  have hcrg : ∀ k, cr ≤ g k := (hr cr).mp le_rfl
  apply le_antisymm
  · refine le_min ((hr _).mpr fun k => ?_) (min_le_right _ _)
    rcases hg k with h0 | ⟨i, hi⟩
    · exact (min_le_right _ _).trans h0
    · exact (min_le_left _ _).trans ((hckf i).trans hi)
  · refine le_min ((hk _).mpr ⟨(min_le_right _ _).trans hbig, fun i => ?_⟩) (min_le_right _ _)
    rcases hf i with h0 | ⟨k, hk'⟩
    · exact (min_le_right _ _).trans h0
    · exact (min_le_left _ _).trans ((hcrg k).trans hk')

end Cert.MinRelu
-- ==== Proof.Consts.lean ====
/-
  The float words the two programs spell, as the extended reals they denote: the large constant 1e9 and its
  negative (both exact in f32), the margin 0.1 (a real number: its word is a finite pattern), and the zero word.
-/
import proofs.«173465_j90580860272868_2_alg».proof.Proof.LibMinReads

noncomputable section

namespace Cert.Consts

open Idealize.ShloMosaic

/-- The word of 1e9 denotes the real 1000000000. -/
theorem ofBits_big : Ideal.ofBits .f32 0x4E6E6B28#32 = ((1000000000 : ℝ) : EReal) := by
  simp [Ideal.ofBits, Ideal.ieee, -EReal.coe_mul]; norm_num

/-- The word of -1e9 denotes the real -1000000000. -/
theorem ofBits_negBig : Ideal.ofBits .f32 0xCE6E6B28#32 = ((-1000000000 : ℝ) : EReal) := by
  simp [Ideal.ofBits, Ideal.ieee, -EReal.coe_mul]; norm_num

/-- The margin's word denotes a real number. -/
theorem ofBits_margin : ∃ r : ℝ, Ideal.ofBits .f32 0x3DCCCCCD#32 = (r : EReal) := by
  refine ⟨13421773 * (2 : ℝ) ^ (-27 : ℤ), ?_⟩
  simp [Ideal.ofBits, Ideal.ieee, -EReal.coe_mul]

theorem big_nonneg : (0 : EReal) ≤ Ideal.ofBits .f32 0x4E6E6B28#32 := by
  rw [ofBits_big]; exact_mod_cast (by norm_num : (0 : ℝ) ≤ 1000000000)

theorem negBig_nonpos : Ideal.ofBits .f32 0xCE6E6B28#32 ≤ (0 : EReal) := by
  rw [ofBits_negBig]; exact_mod_cast (by norm_num : (-1000000000 : ℝ) ≤ 0)

/-- Subtracting the large negative constant from a nonnegative value leaves a nonnegative value. -/
theorem sub_negBig_nonneg {x : EReal} (hx : 0 ≤ x) : 0 ≤ x - Ideal.ofBits .f32 0xCE6E6B28#32 := by
  rw [ofBits_negBig, sub_eq_add_neg, ← EReal.coe_neg]
  exact add_nonneg hx (by exact_mod_cast (by norm_num : (0 : ℝ) ≤ -(-1000000000)))

end Cert.Consts

end
-- ==== Proof.Bridge.lean ====
/-
  The two sides meet.

  Over the shared stages (R the transformed trajectories), for batch b, point t and splat n inside the range, write
  D = sqrt (max ((|r|² + |m|²) - 2 · ⟨r, m⟩) 0) ≥ 0. The kernel's entry is D - offset, with offset = largest scale +
  margin inside batch b's box and the large negative constant outside it; the reference's entry is (D - largest
  scale) - margin inside the box and the large constant outside it. Inside the box the two agree, the margin being a
  real number; outside it both are nonnegative, and so is every kernel entry on the padded tail, and so is the value
  the kernel's running minimum starts from. Hence the two minima have the same minimum with zero, hence the same
  clipped negation, entry by entry — and the two losses are the same sum divided by 800.
-/
import proofs.«173465_j90580860272868_2_alg».proof.Proof.KernelValue
import proofs.«173465_j90580860272868_2_alg».proof.Proof.HostArrays
import proofs.«173465_j90580860272868_2_alg».proof.Proof.RefRead
import proofs.«173465_j90580860272868_2_alg».proof.Proof.MinRelu
import proofs.«173465_j90580860272868_2_alg».proof.Proof.Consts

set_option maxRecDepth 16384

noncomputable section

open Idealize.ShloMosaic Idealize.ShloMosaic.TcCoe Idealize.SL.Sem Idealize.ShloMosaic.ValueIdx

namespace Cert.Bridge

open Cert.KernelIdeal Cert.KernelIdeal.Gen Cert.KernelIdeal.Blocks Cert.KernelIdeal.Invariant Cert.KernelIdeal.HostArrays
  Cert.KernelIdeal.KernelValue
open Cert.ReferenceIdeal.Stages (retr rsq msq msr inside colloss clipNeg meanOf result)
open Cert.ReferenceIdeal.RefRead (refEntry)

variable (m : (ℓ : Loc nD τ sig) → Buf (Elt Ideal) ℓ) (c : Dev nD)

/-- At the exact values the contraction's precision attribute changes nothing: the kernel's R is the reference's. -/
theorem retr_prec (a0 : (⟨Cert.ReferenceIdeal.S8x100x3, .f32⟩ : BufTy).Contents (Elt Ideal))
    (a1 : (⟨Cert.ReferenceIdeal.S8x4x4, .f32⟩ : BufTy).Contents (Elt Ideal)) (a2 : (⟨Cert.ReferenceIdeal.S8, .f32⟩ : BufTy).Contents (Elt Ideal)) :
    retr (F := Ideal) (some .fp32) a0 a1 a2 = retr (F := Ideal) none a0 a1 a2 := by
  unfold retr
  refine congrArg (fun X => addf X _) (funext fun j => ?_)
  simp only [Host.dotGeneral]
  rw [Ideal.dotGeneral_apply, Ideal.dotGeneral_apply]

/-- The clipped distance from point (b, t) to splat n. -/
def dist (b : Fin 8) (t : Fin 100) (n : Fin 100000) : EReal :=
  Ideal.sqrt (max ((rsq (F := Ideal) (Rk m c) (ix2 b t) + msq (F := Ideal) (m ((c.tc : Thread nD τ).loc main_arg3)) (ix1 n))
      - Ideal.ofBits .f32 0x40000000#32 * ∑ k : Fin 3, Rk m c (ix3 b t k) * (m ((c.tc : Thread nD τ).loc main_arg3)) (ix2 n k)) (Ideal.ofBits .f32 0x00000000#32))

theorem dist_nonneg (b : Fin 8) (t : Fin 100) (n : Fin 100000) : 0 ≤ dist m c b t n :=
  Cert.MinRelu.sqrt_nonneg (le_max_of_le_right (le_of_eq Ideal.ofBits_zero_f32.symm))

/-- A kernel entry at a lane inside the splats' range: the distance less the offset. -/
theorem kEntry_inside (b : Fin 8) (t : Fin 100) (j : Fin 102400) (hj : j.val < 100000) :
    kEntry m c b t j = dist m c b t ⟨j.val, hj⟩ - adj m c (ix2 b (⟨j.val, hj⟩ : Fin 100000)) := by
  unfold kEntry dist
  dsimp only [A10, A41, A43, A45, A46]
  rw [v45_apply, v43_inside m c _ j hj, v46_inside m c b _ j hj]
  simp only [v41_inside m c _ j hj, congrFun (V_v10 m c) _]

/-- A kernel entry on the padded tail is nonnegative. -/
theorem kEntry_tail_nonneg (b : Fin 8) (t : Fin 100) (j : Fin 102400) (hj : ¬j.val < 100000) : 0 ≤ kEntry m c b t j := by
  unfold kEntry
  dsimp only [A10, A41, A43, A45, A46]
  rw [v46_outside m c b _ j hj]
  exact Cert.Consts.sub_negBig_nonneg (Cert.MinRelu.sqrt_nonneg (le_max_of_le_right (le_of_eq Ideal.ofBits_zero_f32.symm)))

/-- Inside the box the two entries agree; outside it both are nonnegative. -/
theorem entries (b : Fin 8) (t : Fin 100) (n : Fin 100000) :
    (kEntry m c b t ⟨n.val, by have := n.isLt; omega⟩ = refEntry (Rk m c) (m ((c.tc : Thread nD τ).loc main_arg2)) (m ((c.tc : Thread nD τ).loc main_arg3)) (m ((c.tc : Thread nD τ).loc main_arg4)) b t n)
      ∨ (0 ≤ kEntry m c b t ⟨n.val, by have := n.isLt; omega⟩ ∧ 0 ≤ refEntry (Rk m c) (m ((c.tc : Thread nD τ).loc main_arg2)) (m ((c.tc : Thread nD τ).loc main_arg3)) (m ((c.tc : Thread nD τ).loc main_arg4)) b t n) := by
  have hk := kEntry_inside m c b t ⟨n.val, by have := n.isLt; omega⟩ n.isLt
  have hn : (⟨n.val, n.isLt⟩ : Fin 100000) = n := Fin.ext rfl
  rw [hn, adj_apply] at hk
  by_cases hin : inside (F := Ideal) (Rk m c) (m ((c.tc : Thread nD τ).loc main_arg2)) (m ((c.tc : Thread nD τ).loc main_arg3)) (ix2 b n) = 1#1
  · left
    obtain ⟨r, hr⟩ := Cert.Consts.ofBits_margin
    rw [hk]
    unfold refEntry
    rw [hin, select_one, select_one, hr, Cert.MinRelu.sub_add_real]
    rfl
  · right
    have h0 := eq_zero_of_ne_one hin
    constructor
    · rw [hk, h0, select_zero]
      exact Cert.Consts.sub_negBig_nonneg (dist_nonneg m c b t n)
    · unfold refEntry
      rw [h0, select_zero]
      exact Cert.Consts.big_nonneg

/-- Row t of the scratch column after batch b's last tile, by its lower bounds: the starting value and every entry of the batch. -/
theorem le_col_iff (b : Fin 8) (t : Fin 100) (z : EReal) :
    z ≤ col m c b (ix2 t (0 : Fin 1)) ↔ z ≤ big ∧ ∀ j : Fin 102400, z ≤ kEntry m c b t j := by
  unfold col
  rw [scratch_after m c (lastPt b).val (lastPt b).isLt t z]
  have hb : batch ⟨(lastPt b).val, (lastPt b).isLt⟩ = b := Fin.ext (by show (8 * b.val + 7) / 8 = b.val; omega)
  have hm : ((lastPt b).val % 8 + 1) * 12800 = 102400 := by show ((8 * b.val + 7) % 8 + 1) * 12800 = 102400; omega
  rw [hb, hm]
  exact and_congr_right fun _ => ⟨fun h j => h j j.isLt, fun h j _ => h j⟩

/-- THE MEETING POINT: the two minima have the same minimum with zero. -/
theorem min_zero_eq (b : Fin 8) (t : Fin 100) :
    min (col m c b (ix2 t (0 : Fin 1))) 0 = min (colloss (F := Ideal) (Rk m c) (m ((c.tc : Thread nD τ).loc main_arg2)) (m ((c.tc : Thread nD τ).loc main_arg3)) (m ((c.tc : Thread nD τ).loc main_arg4)) (ix2 b t)) 0 := by
  refine Cert.MinRelu.min_zero_eq (kEntry m c b t) (refEntry (Rk m c) (m ((c.tc : Thread nD τ).loc main_arg2)) (m ((c.tc : Thread nD τ).loc main_arg3)) (m ((c.tc : Thread nD τ).loc main_arg4)) b t)
    (le_col_iff m c b t) (Cert.ReferenceIdeal.RefRead.le_colloss_iff _ _ _ _ b t) Cert.Consts.big_nonneg ?_ ?_
  · intro j
    by_cases hj : j.val < 100000
    · rcases entries m c b t ⟨j.val, hj⟩ with h | h
      · exact Or.inr ⟨⟨j.val, hj⟩, le_of_eq h.symm⟩
      · exact Or.inl h.1
    · exact Or.inl (kEntry_tail_nonneg m c b t j hj)
  · intro n
    rcases entries m c b t n with h | h
    · exact Or.inr ⟨_, le_of_eq h⟩
    · exact Or.inl h.2

/-- The clipped negation at an entry: max (-x) 0. -/
theorem clipNeg_apply (X : (⟨Cert.ReferenceIdeal.S8x100, .f32⟩ : BufTy).Contents (Elt Ideal)) (b : Fin 8) (t : Fin 100) :
    clipNeg (F := Ideal) X (ix2 b t) = max (-(X (ix2 b t))) 0 := by
  unfold clipNeg
  show max (-(X (ix2 b t))) (broadcastInDim Cert.ReferenceIdeal.S8x100 ![] Cert.ReferenceIdeal.Gen.bcast_S_S8x100 (constant (F := Ideal) Cert.ReferenceIdeal.S_ .f32 0x00000000#32) (ix2 b t)) = _
  rw [Cert.HostLayout.bid_scalar_apply]
  show max _ (Ideal.ofBits .f32 0x00000000#32) = _
  rw [Ideal.ofBits_zero_f32]

/-- THE RESULT: the kernel's result is the reference's staged result of the same five arguments. -/
theorem result_eq : kresult m c = result (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold kresult result
  refine congrArg (meanOf (F := Ideal)) (funext fun i => ?_)
  obtain ⟨b, t, rfl⟩ : ∃ (b : Fin 8) (t : Fin 100), i = ix2 b t := ⟨i 0, i 1, eq_ix2 i⟩
  rw [clipNeg_apply, clipNeg_apply]
  apply Cert.MinRelu.max_neg_zero_congr
  rw [shapeCast_apply (G m c) shapeCasts_S8x100x1_S8x100 (ix2 b t) (ix3 b t (0 : Fin 1)) (by
    rw [Shape.rowMajor_val_three, Shape.rowMajor_val_two]
    show (b.val * 100 + t.val) * 1 + 0 = b.val * 100 + t.val
    omega)]
  show min (col m c b (ix2 t (0 : Fin 1))) 0 = _
  rw [min_zero_eq m c b t]
  unfold Rk
  rw [retr_prec]

end Cert.Bridge

end
-- ==== Proof.lean ====
/-
  A masked nearest-splat loss, computed two ways, is one number at the exact values.

  For 8 batches of 100 trajectory points and 100000 splats, both programs transform the trajectories, box each
  batch's trajectory, and for every point take the minimum over the splats of a masked distance; the loss is the
  mean over the 800 points of max (-minimum) 0. The reference masks by choice: inside the box the entry is
  (distance - largest scale) - margin, outside it the constant 1e9. The kernel masks by an additive offset:
  distance - offset, with offset = largest scale + margin inside the box and -1e9 outside it and on the padding
  of the splat axis to 102400; it folds the minimum tile by tile (8 tiles of 12800 lanes per batch) in a scratch
  column that starts at 1e9.

  The two minima need not be equal, but max (-x) 0 sees x only through min x 0, and every term that differs between
  the two sides is nonnegative: the kernel's outside and padded entries are a nonnegative distance plus 1e9, the
  reference's outside entries are 1e9, and the kernel's starting value is 1e9. Inside the box the entries agree, since
  subtracting (scale + margin) is subtracting the scale and then the margin when the margin is a real number. So the
  clipped negations agree point by point, and so do their means.

  The kernel's value is read off its frame run: each grid point's scratch column is one accumulate step from the
  point before (from the starting value at a batch's first tile), an induction over the 64 points; the output block
  of a batch is its column after the last tile; the host operations after the call are the loss's tail. The
  reference's value is its straight line of host operations composed. Neither side uses that the inputs are finite.
-/
import proofs.«173465_j90580860272868_2_alg».proof.Defs
import proofs.«173465_j90580860272868_2_alg».proof.Proof.Gen.Kernel
import proofs.«173465_j90580860272868_2_alg».proof.Proof.Gen.Kernel.Frame
import proofs.«173465_j90580860272868_2_alg».proof.Proof.Gen.KernelIdeal
import proofs.«173465_j90580860272868_2_alg».proof.Proof.Gen.KernelIdeal.Frame
import proofs.«173465_j90580860272868_2_alg».proof.Proof.Gen.ReferenceIdeal
import proofs.«173465_j90580860272868_2_alg».proof.Proof.Gen.Pre_finite_inputs
import proofs.«173465_j90580860272868_2_alg».proof.Proof.RefRun
import proofs.«173465_j90580860272868_2_alg».proof.Proof.Bridge
import Idealize.ShloMosaic.Adequacy
import Idealize.ShloMosaic.Init

set_option maxRecDepth 16384

noncomputable section

namespace Cert.Proof

open Idealize.ShloMosaic Idealize.SL.Sem

/-- The idealized kernel's run, read: the result buffer ends at the host tail of the output array, the arguments unchanged. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v52) = Cert.KernelIdeal.KernelValue.kresult m c
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)) :=
  (θ_run Cert.KernelIdeal.defs _ _).mono (fun _ h c =>
    ⟨((h c).2 Cert.KernelIdeal.main_v52 (Pipeline.mem_restRefs_of Cert.KernelIdeal.main_v52 (by decide) (by decide))).trans
        (Cert.KernelIdeal.KernelValue.tail_eq m c),
      ((h c).2 Cert.KernelIdeal.main_arg0 (Pipeline.mem_restRefs_of Cert.KernelIdeal.main_arg0 (by decide) (by decide))).trans
        (Cert.KernelIdeal.Gen.W_main_arg0 m (Cert.KernelIdeal.Gen.dats m) c),
      ((h c).2 Cert.KernelIdeal.main_arg1 (Pipeline.mem_restRefs_of Cert.KernelIdeal.main_arg1 (by decide) (by decide))).trans
        (Cert.KernelIdeal.Gen.W_main_arg1 m (Cert.KernelIdeal.Gen.dats m) c),
      ((h c).2 Cert.KernelIdeal.main_arg2 (Pipeline.mem_restRefs_of Cert.KernelIdeal.main_arg2 (by decide) (by decide))).trans
        (Cert.KernelIdeal.Gen.W_main_arg2 m (Cert.KernelIdeal.Gen.dats m) c),
      ((h c).2 Cert.KernelIdeal.main_arg3 (Pipeline.mem_restRefs_of Cert.KernelIdeal.main_arg3 (by decide) (by decide))).trans
        (Cert.KernelIdeal.Gen.W_main_arg3 m (Cert.KernelIdeal.Gen.dats m) c),
      ((h c).2 Cert.KernelIdeal.main_arg4 (Pipeline.mem_restRefs_of Cert.KernelIdeal.main_arg4 (by decide) (by decide))).trans
        (Cert.KernelIdeal.Gen.W_main_arg4 m (Cert.KernelIdeal.Gen.dats m) c)⟩)
    (Cert.KernelIdeal.Gen.run_main m ρ)

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefRun.run (F := Ideal) m ρ)

/-- The ideal pass rewrote nothing. -/
theorem preserves : Cert.preserves_Kernel_KernelIdeal := trivial

/-- Both idealized programs end with the same loss: the kernel's result is the reference's staged function of the same
    argument arrays. -/
theorem algebraic : Cert.algebraic_KernelIdeal_ReferenceIdeal := by
  intro m ρ m' ρ' _ hagree
  refine ⟨fun c => Cert.KernelIdeal.KernelValue.kresult m c, kernel_run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2.1, (hagree c).2.2.2.1, (hagree c).2.2.2.2]
  exact (Cert.Bridge.result_eq m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
